-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v108)) (v1 : (c : Dev Cert.KernelIdeal.nD) → Buf (Elt Ideal) ((c.tc : Thread Cert.KernelIdeal.nD Cert.KernelIdeal.τ).loc Cert.KernelIdeal.main_v92)) (v2 : (c : Dev Cert.KernelIdeal.nD) → Buf (Elt Ideal) ((c.tc : Thread Cert.KernelIdeal.nD Cert.KernelIdeal.τ).loc Cert.KernelIdeal.main_v76)) (v3 : (c : Dev Cert.KernelIdeal.nD) → Buf (Elt Ideal) ((c.tc : Thread Cert.KernelIdeal.nD Cert.KernelIdeal.τ).loc Cert.KernelIdeal.main_v60)) (v4 : (c : Dev Cert.KernelIdeal.nD) → Buf (Elt Ideal) ((c.tc : Thread Cert.KernelIdeal.nD Cert.KernelIdeal.τ).loc Cert.KernelIdeal.main_v44)) (v5 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_v60) = v3 c
          ∧ r.2.mem ((c.tc : Thread Cert.KernelIdeal.nD Cert.KernelIdeal.τ).loc Cert.KernelIdeal.main_v44) = v4 c
          ∧ r.2.mem ((c.tc : Thread Cert.KernelIdeal.nD Cert.KernelIdeal.τ).loc Cert.KernelIdeal.main_v28) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S10000x128 .f32) (main_arg1 : IVec S640000 32) (main_arg2 : IVec S640000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S1x128 : Shape := ⟨2, ![1, 128]⟩
abbrev S1000x128 : Shape := ⟨2, ![1000, 128]⟩
abbrev S1000x1 : Shape := ⟨2, ![1000, 1]⟩

abbrev nBuf : Space → Nat
  | .hbm => 147
  | .vmem => 48
  | .smem => 0
  | _ => 0

abbrev hbmTy0_0 (i : Nat) : BufTy := match i % 128 with
  | 0 => ⟨S10000x128, .f32⟩
  | 1 => ⟨S640000, .i32⟩
  | 2 => ⟨S640000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S_, .f32⟩
  | 16 => ⟨S640000, .f32⟩
  | 17 => ⟨S_, .f32⟩
  | 18 => ⟨S10000, .f32⟩
  | 19 => ⟨S640000x1, .i32⟩
  | 20 => ⟨S10000, .f32⟩
  | 21 => ⟨S_, .f32⟩
  | 22 => ⟨S10000, .f32⟩
  | 23 => ⟨S640000x1, .i32⟩
  | 24 => ⟨S10000, .f32⟩
  | 25 => ⟨S_, .f32⟩
  | 26 => ⟨S10000, .f32⟩
  | 27 => ⟨S10000, .f32⟩
  | 28 => ⟨S10000, .f32⟩
  | 29 => ⟨S_, .f32⟩
  | 30 => ⟨S10000, .f32⟩
  | 31 => ⟨S10000, .f32⟩
  | 32 => ⟨S10000, .f32⟩
  | 33 => ⟨S10000x1, .f32⟩
  | 34 => ⟨S10000x128, .f32⟩
  | 35 => ⟨S10000x128, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000x128, .f32⟩
  | 45 => ⟨S_, .f32⟩
  | 46 => ⟨S10000x128, .f32⟩
  | 47 => ⟨S640000x1, .i32⟩
  | 48 => ⟨S10000x128, .f32⟩
  | 49 => ⟨S10000x1, .f32⟩
  | 50 => ⟨S1x128, .f32⟩
  | 51 => ⟨S10000x128, .f32⟩
  | 52 => ⟨S10000x1, .f32⟩
  | 53 => ⟨S10000x128, .f32⟩
  | 54 => ⟨S10000x128, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000x128, .f32⟩
  | 64 => ⟨S_, .f32⟩
  | 65 => ⟨S10000x128, .f32⟩
  | 66 => ⟨S640000x1, .i32⟩
  | 67 => ⟨S10000x128, .f32⟩
  | 68 => ⟨S10000x1, .f32⟩
  | 69 => ⟨S1x128, .f32⟩
  | 70 => ⟨S10000x128, .f32⟩
  | 71 => ⟨S10000x1, .f32⟩
  | 72 => ⟨S10000x128, .f32⟩
  | 73 => ⟨S10000x128, .f32⟩
  | 74 => ⟨S_, .i32⟩
  | 75 => ⟨S640000, .i32⟩
  | 76 => ⟨S640000, .i1⟩
  | 77 => ⟨S_, .i32⟩
  | 78 => ⟨S640000, .i32⟩
  | 79 => ⟨S640000, .i32⟩
  | 80 => ⟨S640000, .i32⟩
  | 81 => ⟨S640000x1, .i32⟩
  | 82 => ⟨S640000x128, .f32⟩
  | 83 => ⟨S_, .f32⟩
  | 84 => ⟨S10000x128, .f32⟩
  | 85 => ⟨S640000x1, .i32⟩
  | 86 => ⟨S10000x128, .f32⟩
  | 87 => ⟨S10000x1, .f32⟩
  | 88 => ⟨S1x128, .f32⟩
  | 89 => ⟨S10000x128, .f32⟩
  | 90 => ⟨S10000x1, .f32⟩
  | 91 => ⟨S10000x128, .f32⟩
  | 92 => ⟨S10000x128, .f32⟩
  | 93 => ⟨S_, .i32⟩
  | 94 => ⟨S640000, .i32⟩
  | 95 => ⟨S640000, .i1⟩
  | 96 => ⟨S_, .i32⟩
  | 97 => ⟨S640000, .i32⟩
  | 98 => ⟨S640000, .i32⟩
  | 99 => ⟨S640000, .i32⟩
  | 100 => ⟨S640000x1, .i32⟩
  | 101 => ⟨S640000x128, .f32⟩
  | 102 => ⟨S_, .f32⟩
  | 103 => ⟨S10000x128, .f32⟩
  | 104 => ⟨S640000x1, .i32⟩
  | 105 => ⟨S10000x128, .f32⟩
  | 106 => ⟨S10000x1, .f32⟩
  | 107 => ⟨S1x128, .f32⟩
  | 108 => ⟨S10000x128, .f32⟩
  | 109 => ⟨S10000x1, .f32⟩
  | 110 => ⟨S10000x128, .f32⟩
  | 111 => ⟨S10000x128, .f32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000x128, .f32⟩
  | 121 => ⟨S_, .f32⟩
  | 122 => ⟨S10000x128, .f32⟩
  | 123 => ⟨S640000x1, .i32⟩
  | 124 => ⟨S10000x128, .f32⟩
  | 125 => ⟨S10000x1, .f32⟩
  | 126 => ⟨S1x128, .f32⟩
  | 127 => ⟨S10000x128, .f32⟩
  | _ => ⟨S10000x128, .f32⟩

abbrev hbmTy0_1 (i : Nat) : BufTy := match i % 128 with
  | 0 => ⟨S10000x1, .f32⟩
  | 1 => ⟨S10000x128, .f32⟩
  | 2 => ⟨S10000x128, .f32⟩
  | 3 => ⟨S_, .i32⟩
  | 4 => ⟨S640000, .i32⟩
  | 5 => ⟨S640000, .i1⟩
  | 6 => ⟨S_, .i32⟩
  | 7 => ⟨S640000, .i32⟩
  | 8 => ⟨S640000, .i32⟩
  | 9 => ⟨S640000, .i32⟩
  | 10 => ⟨S640000x1, .i32⟩
  | 11 => ⟨S640000x128, .f32⟩
  | 12 => ⟨S_, .f32⟩
  | 13 => ⟨S10000x128, .f32⟩
  | 14 => ⟨S640000x1, .i32⟩
  | 15 => ⟨S10000x128, .f32⟩
  | 16 => ⟨S10000x1, .f32⟩
  | 17 => ⟨S1x128, .f32⟩
  | 18 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S128x128, .f32⟩
  | .local _ .vmem, ⟨5, _⟩ => ⟨S1x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x1, .f32⟩
  | .local _ .vmem, ⟨11, _⟩ => ⟨S1000x1, .f32⟩
  | .local _ .vmem, ⟨12, _⟩ => ⟨S128x128, .f32⟩
  | .local _ .vmem, ⟨13, _⟩ => ⟨S1x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x1, .f32⟩
  | .local _ .vmem, ⟨19, _⟩ => ⟨S1000x1, .f32⟩
  | .local _ .vmem, ⟨20, _⟩ => ⟨S128x128, .f32⟩
  | .local _ .vmem, ⟨21, _⟩ => ⟨S1x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x1, .f32⟩
  | .local _ .vmem, ⟨27, _⟩ => ⟨S1000x1, .f32⟩
  | .local _ .vmem, ⟨28, _⟩ => ⟨S128x128, .f32⟩
  | .local _ .vmem, ⟨29, _⟩ => ⟨S1x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S1000x1, .f32⟩
  | .local _ .vmem, ⟨35, _⟩ => ⟨S1000x1, .f32⟩
  | .local _ .vmem, ⟨36, _⟩ => ⟨S128x128, .f32⟩
  | .local _ .vmem, ⟨37, _⟩ => ⟨S1x128, .f32⟩
  | .local _ .vmem, ⟨38, _⟩ => ⟨S1000x128, .f32⟩
  | .local _ .vmem, ⟨39, _⟩ => ⟨S1000x128, .f32⟩
  | .local _ .vmem, ⟨40, _⟩ => ⟨S1000x128, .f32⟩
  | .local _ .vmem, ⟨41, _⟩ => ⟨S1000x128, .f32⟩
  | .local _ .vmem, ⟨42, _⟩ => ⟨S1000x1, .f32⟩
  | .local _ .vmem, ⟨43, _⟩ => ⟨S1000x1, .f32⟩
  | .local _ .vmem, ⟨44, _⟩ => ⟨S128x128, .f32⟩
  | .local _ .vmem, ⟨45, _⟩ => ⟨S1x128, .f32⟩
  | .local _ .vmem, ⟨46, _⟩ => ⟨S1000x128, .f32⟩
  | .local _ .vmem, ⟨47, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_12 : Ref sig .tc := ⟨.hbm, 93, rfl⟩
abbrev main_v64 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_15 : Ref sig .tc := ⟨.hbm, 112, rfl⟩
abbrev main_v80 : Ref sig .tc := ⟨.hbm, 113, rfl⟩
abbrev main_v81 : Ref sig .tc := ⟨.hbm, 114, rfl⟩
abbrev main_c_16 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_17 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_18 : Ref sig .tc := ⟨.hbm, 131, rfl⟩
abbrev main_v96 : Ref sig .tc := ⟨.hbm, 132, rfl⟩
abbrev main_v97 : Ref sig .tc := ⟨.hbm, 133, rfl⟩
abbrev main_c_19 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_20 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  shapeCasts_S10000_S10000x1 : S10000.ShapeCasts S10000x1
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S10000x1.size a
  hwx0_1 : ∀ i : grid0.Coords, EltTy.bits .f32 = 32 ∨ (Rect.block (s := S10000x1) S1000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S10000x128.size a
  hwx0_4 : ∀ i : grid0.Coords, EltTy.bits .f32 = 32 ∨ (Rect.block (s := S10000x128) S1000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S10000x1.size a
  hwx1_1 : ∀ i : grid1.Coords, EltTy.bits .f32 = 32 ∨ (Rect.block (s := S10000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S10000x128.size a
  hwx1_4 : ∀ i : grid1.Coords, EltTy.bits .f32 = 32 ∨ (Rect.block (s := S10000x128) S1000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S10000x1.size a
  hwx2_1 : ∀ i : grid2.Coords, EltTy.bits .f32 = 32 ∨ (Rect.block (s := S10000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S10000x128.size a
  hwx2_4 : ∀ i : grid2.Coords, EltTy.bits .f32 = 32 ∨ (Rect.block (s := S10000x128) S1000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S10000x128.size a
  hwx3_0 : ∀ i : grid3.Coords, EltTy.bits .f32 = 32 ∨ (Rect.block (s := S10000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S10000x1.size a
  hwx3_1 : ∀ i : grid3.Coords, EltTy.bits .f32 = 32 ∨ (Rect.block (s := S10000x1) S1000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x128.size a ≤ S10000x128.size a
  hwx3_4 : ∀ i : grid3.Coords, EltTy.bits .f32 = 32 ∨ (Rect.block (s := S10000x128) S1000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S10000x128.size a
  hwx4_0 : ∀ i : grid4.Coords, EltTy.bits .f32 = 32 ∨ (Rect.block (s := S10000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x1.size a ≤ S10000x1.size a
  hwx4_1 : ∀ i : grid4.Coords, EltTy.bits .f32 = 32 ∨ (Rect.block (s := S10000x1) S1000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x128.size a ≤ S10000x128.size a
  hwx4_4 : ∀ i : grid4.Coords, EltTy.bits .f32 = 32 ∨ (Rect.block (s := S10000x128) S1000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S10000x128.size a
  hwx5_0 : ∀ i : grid5.Coords, EltTy.bits .f32 = 32 ∨ (Rect.block (s := S10000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x1.size a ≤ S10000x1.size a
  hwx5_1 : ∀ i : grid5.Coords, EltTy.bits .f32 = 32 ∨ (Rect.block (s := S10000x1) S1000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x128.size a ≤ S10000x128.size a
  hwx5_4 : ∀ i : grid5.Coords, EltTy.bits .f32 = 32 ∨ (Rect.block (s := S10000x128) S1000x128.size (cc5_transform_4 i) (hinb5_4 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v25) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v73) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v89) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S1000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S1000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v105) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S1000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg13) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v108) S1000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S1x128 : Shape := ⟨2, ![1, 128]⟩

abbrev nBuf : Space → Nat
  | .hbm => 186
  | .vmem => 0
  | .smem => 0
  | _ => 0

abbrev hbmTy0_0 (i : Nat) : BufTy := match i % 128 with
  | 0 => ⟨S10000x128, .f32⟩
  | 1 => ⟨S640000, .i32⟩
  | 2 => ⟨S640000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S_, .f32⟩
  | 16 => ⟨S640000, .f32⟩
  | 17 => ⟨S_, .f32⟩
  | 18 => ⟨S10000, .f32⟩
  | 19 => ⟨S640000x1, .i32⟩
  | 20 => ⟨S10000, .f32⟩
  | 21 => ⟨S_, .f32⟩
  | 22 => ⟨S10000, .f32⟩
  | 23 => ⟨S640000x1, .i32⟩
  | 24 => ⟨S10000, .f32⟩
  | 25 => ⟨S_, .f32⟩
  | 26 => ⟨S10000, .f32⟩
  | 27 => ⟨S10000, .f32⟩
  | 28 => ⟨S10000, .f32⟩
  | 29 => ⟨S_, .f32⟩
  | 30 => ⟨S10000, .f32⟩
  | 31 => ⟨S10000, .f32⟩
  | 32 => ⟨S10000, .f32⟩
  | 33 => ⟨S10000x1, .f32⟩
  | 34 => ⟨S10000x128, .f32⟩
  | 35 => ⟨S10000x128, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000x128, .f32⟩
  | 45 => ⟨S_, .f32⟩
  | 46 => ⟨S10000x128, .f32⟩
  | 47 => ⟨S640000x1, .i32⟩
  | 48 => ⟨S10000x128, .f32⟩
  | 49 => ⟨S10000x1, .f32⟩
  | 50 => ⟨S10000x128, .f32⟩
  | 51 => ⟨S10000x128, .f32⟩
  | 52 => ⟨S10000x128, .f32⟩
  | 53 => ⟨S1x128, .f32⟩
  | 54 => ⟨S10000x128, .f32⟩
  | 55 => ⟨S10000x128, .f32⟩
  | 56 => ⟨S_, .f32⟩
  | 57 => ⟨S10000x128, .f32⟩
  | 58 => ⟨S10000x128, .f32⟩
  | 59 => ⟨S10000x1, .f32⟩
  | 60 => ⟨S10000x128, .f32⟩
  | 61 => ⟨S10000x128, .f32⟩
  | 62 => ⟨S_, .i32⟩
  | 63 => ⟨S640000, .i32⟩
  | 64 => ⟨S640000, .i1⟩
  | 65 => ⟨S_, .i32⟩
  | 66 => ⟨S640000, .i32⟩
  | 67 => ⟨S640000, .i32⟩
  | 68 => ⟨S640000, .i32⟩
  | 69 => ⟨S640000x1, .i32⟩
  | 70 => ⟨S640000x128, .f32⟩
  | 71 => ⟨S_, .f32⟩
  | 72 => ⟨S10000x128, .f32⟩
  | 73 => ⟨S640000x1, .i32⟩
  | 74 => ⟨S10000x128, .f32⟩
  | 75 => ⟨S10000x1, .f32⟩
  | 76 => ⟨S10000x128, .f32⟩
  | 77 => ⟨S10000x128, .f32⟩
  | 78 => ⟨S10000x128, .f32⟩
  | 79 => ⟨S1x128, .f32⟩
  | 80 => ⟨S10000x128, .f32⟩
  | 81 => ⟨S10000x128, .f32⟩
  | 82 => ⟨S_, .f32⟩
  | 83 => ⟨S10000x128, .f32⟩
  | 84 => ⟨S10000x128, .f32⟩
  | 85 => ⟨S10000x1, .f32⟩
  | 86 => ⟨S10000x128, .f32⟩
  | 87 => ⟨S10000x128, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000x128, .f32⟩
  | 97 => ⟨S_, .f32⟩
  | 98 => ⟨S10000x128, .f32⟩
  | 99 => ⟨S640000x1, .i32⟩
  | 100 => ⟨S10000x128, .f32⟩
  | 101 => ⟨S10000x1, .f32⟩
  | 102 => ⟨S10000x128, .f32⟩
  | 103 => ⟨S10000x128, .f32⟩
  | 104 => ⟨S10000x128, .f32⟩
  | 105 => ⟨S1x128, .f32⟩
  | 106 => ⟨S10000x128, .f32⟩
  | 107 => ⟨S10000x128, .f32⟩
  | 108 => ⟨S_, .f32⟩
  | 109 => ⟨S10000x128, .f32⟩
  | 110 => ⟨S10000x128, .f32⟩
  | 111 => ⟨S10000x1, .f32⟩
  | 112 => ⟨S10000x128, .f32⟩
  | 113 => ⟨S10000x128, .f32⟩
  | 114 => ⟨S_, .i32⟩
  | 115 => ⟨S640000, .i32⟩
  | 116 => ⟨S640000, .i1⟩
  | 117 => ⟨S_, .i32⟩
  | 118 => ⟨S640000, .i32⟩
  | 119 => ⟨S640000, .i32⟩
  | 120 => ⟨S640000, .i32⟩
  | 121 => ⟨S640000x1, .i32⟩
  | 122 => ⟨S640000x128, .f32⟩
  | 123 => ⟨S_, .f32⟩
  | 124 => ⟨S10000x128, .f32⟩
  | 125 => ⟨S640000x1, .i32⟩
  | 126 => ⟨S10000x128, .f32⟩
  | 127 => ⟨S10000x1, .f32⟩
  | _ => ⟨S10000x128, .f32⟩

abbrev hbmTy0_1 (i : Nat) : BufTy := match i % 128 with
  | 0 => ⟨S10000x128, .f32⟩
  | 1 => ⟨S10000x128, .f32⟩
  | 2 => ⟨S10000x128, .f32⟩
  | 3 => ⟨S1x128, .f32⟩
  | 4 => ⟨S10000x128, .f32⟩
  | 5 => ⟨S10000x128, .f32⟩
  | 6 => ⟨S_, .f32⟩
  | 7 => ⟨S10000x128, .f32⟩
  | 8 => ⟨S10000x128, .f32⟩
  | 9 => ⟨S10000x1, .f32⟩
  | 10 => ⟨S10000x128, .f32⟩
  | 11 => ⟨S10000x128, .f32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x128, .f32⟩
  | 21 => ⟨S_, .f32⟩
  | 22 => ⟨S10000x128, .f32⟩
  | 23 => ⟨S640000x1, .i32⟩
  | 24 => ⟨S10000x128, .f32⟩
  | 25 => ⟨S10000x1, .f32⟩
  | 26 => ⟨S10000x128, .f32⟩
  | 27 => ⟨S10000x128, .f32⟩
  | 28 => ⟨S10000x128, .f32⟩
  | 29 => ⟨S1x128, .f32⟩
  | 30 => ⟨S10000x128, .f32⟩
  | 31 => ⟨S10000x128, .f32⟩
  | 32 => ⟨S_, .f32⟩
  | 33 => ⟨S10000x128, .f32⟩
  | 34 => ⟨S10000x128, .f32⟩
  | 35 => ⟨S10000x1, .f32⟩
  | 36 => ⟨S10000x128, .f32⟩
  | 37 => ⟨S10000x128, .f32⟩
  | 38 => ⟨S_, .i32⟩
  | 39 => ⟨S640000, .i32⟩
  | 40 => ⟨S640000, .i1⟩
  | 41 => ⟨S_, .i32⟩
  | 42 => ⟨S640000, .i32⟩
  | 43 => ⟨S640000, .i32⟩
  | 44 => ⟨S640000, .i32⟩
  | 45 => ⟨S640000x1, .i32⟩
  | 46 => ⟨S640000x128, .f32⟩
  | 47 => ⟨S_, .f32⟩
  | 48 => ⟨S10000x128, .f32⟩
  | 49 => ⟨S640000x1, .i32⟩
  | 50 => ⟨S10000x128, .f32⟩
  | 51 => ⟨S10000x1, .f32⟩
  | 52 => ⟨S10000x128, .f32⟩
  | 53 => ⟨S10000x128, .f32⟩
  | 54 => ⟨S10000x128, .f32⟩
  | 55 => ⟨S1x128, .f32⟩
  | 56 => ⟨S10000x128, .f32⟩
  | 57 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call0_cst : Ref sig .tc := ⟨.hbm, 56, rfl⟩
abbrev main_call0_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_6 : Ref sig .tc := ⟨.hbm, 62, rfl⟩
abbrev main_v37 : Ref sig .tc := ⟨.hbm, 63, rfl⟩
abbrev main_v38 : Ref sig .tc := ⟨.hbm, 64, rfl⟩
abbrev main_c_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call1_cst : Ref sig .tc := ⟨.hbm, 82, rfl⟩
abbrev main_call1_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_9 : Ref sig .tc := ⟨.hbm, 88, rfl⟩
abbrev main_v58 : Ref sig .tc := ⟨.hbm, 89, rfl⟩
abbrev main_v59 : Ref sig .tc := ⟨.hbm, 90, rfl⟩
abbrev main_c_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call2_cst : Ref sig .tc := ⟨.hbm, 108, rfl⟩
abbrev main_call2_v0 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_12 : Ref sig .tc := ⟨.hbm, 114, rfl⟩
abbrev main_v79 : Ref sig .tc := ⟨.hbm, 115, rfl⟩
abbrev main_v80 : Ref sig .tc := ⟨.hbm, 116, rfl⟩
abbrev main_c_13 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_14 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call3_cst : Ref sig .tc := ⟨.hbm, 134, rfl⟩
abbrev main_call3_v0 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_15 : Ref sig .tc := ⟨.hbm, 140, rfl⟩
abbrev main_v100 : Ref sig .tc := ⟨.hbm, 141, rfl⟩
abbrev main_v101 : Ref sig .tc := ⟨.hbm, 142, rfl⟩
abbrev main_c_16 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_17 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_call4_cst : Ref sig .tc := ⟨.hbm, 160, rfl⟩
abbrev main_call4_v0 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_18 : Ref sig .tc := ⟨.hbm, 166, rfl⟩
abbrev main_v121 : Ref sig .tc := ⟨.hbm, 167, rfl⟩
abbrev main_v122 : Ref sig .tc := ⟨.hbm, 168, rfl⟩
abbrev main_c_19 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_20 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KernelRun.lean ====
/-
  The idealized kernel's run with every buffer's final contents kept.

  @main is twelve segments: six stretches of host operations, each followed by one region. The contents of the
  TensorCore's buffers at the segment boundaries are a fold from the launch memory — a stretch applies its
  operations, a region leaves its arrays at what its write-backs leave and every other buffer as entered — and the last
  of them, after the sixth region, is what every weakly fair execution ends holding in every unscoped buffer: the
  results as well as the arguments.
-/
import proofs.«138479_j10574209483127_1_alg».proof.Proof.Gen.KernelIdeal.Frame

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem kernel_run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.Gcn

end
-- ==== Proof.LayerSpec.lean ====
/-
  One graph-convolution projection, entry by entry, over the extended reals.

  A layer takes the aggregated features `A` (one row per node), the destination-degree factor as a column `n`
  (one entry per node), the weight matrix `W` and the bias as a row `b`. Entry (p, q) of the projected features is

      ∑ k, (A (p, k) · n (p, 0)) · W (k, q)  +  b (0, q),

  and the rectified layer takes the maximum of that with the float zero. Only row `p` of `A` and of `n` enters
  row `p` of the result, so a block of consecutive rows of the result is the same formula over the same block of rows
  of `A` and `n`: the formula is stated for any number of rows `M`.
-/
import Idealize.ShloMosaic.Lib.ValueIdx
import Idealize.ShloMosaic.PureOps.Ideal

noncomputable section

namespace Cert.Gcn

open Idealize.ShloMosaic Idealize.ShloMosaic.ValueIdx

/-- Entry (p, q) of `(A · n) W + b`: the row of `A` scaled by the node's factor, against column `q` of `W`, plus the bias. -/
def proj {M : ℕ} (A : (⟨2, ![M, 128]⟩ : Shape).Idx → EReal) (n : (⟨2, ![M, 1]⟩ : Shape).Idx → EReal)
    (W : (⟨2, ![128, 128]⟩ : Shape).Idx → EReal) (b : (⟨2, ![1, 128]⟩ : Shape).Idx → EReal) (p : Fin M) (q : Fin 128) : EReal :=
  (∑ k : Fin 128, (A (ix2 p k) * n (ix2 p (0 : Fin 1))) * W (ix2 k q)) + b (ix2 (0 : Fin 1) q)

/-- Rows restrict: if row `p` of a block `Ab`, `nb` is row `P` of the arrays `A`, `n`, the block's entry (p, q) is the
    arrays' entry (P, q). The weights and the bias are shared. -/
theorem proj_rows {M m : ℕ} (A : (⟨2, ![M, 128]⟩ : Shape).Idx → EReal) (n : (⟨2, ![M, 1]⟩ : Shape).Idx → EReal)
    (Ab : (⟨2, ![m, 128]⟩ : Shape).Idx → EReal) (nb : (⟨2, ![m, 1]⟩ : Shape).Idx → EReal)
    (W W' : (⟨2, ![128, 128]⟩ : Shape).Idx → EReal) (b b' : (⟨2, ![1, 128]⟩ : Shape).Idx → EReal)
    (p : Fin m) (P : Fin M) (q : Fin 128)
    (hA : ∀ k : Fin 128, Ab (ix2 p k) = A (ix2 P k)) (hn : nb (ix2 p (0 : Fin 1)) = n (ix2 P (0 : Fin 1)))
    (hW : W' = W) (hb : b' = b) :
    proj Ab nb W' b' p q = proj A n W b P q := by
  subst hW hb
  unfold proj
  rw [hn]
  congr 1
  exact Finset.sum_congr rfl fun k _ => by rw [hA k]

/-- The rectifier against the float zero. -/
def relu (x : EReal) : EReal := max x (Ideal.ofBits .f32 0x00000000#32)

/-- The projected features as an array. -/
def projArr {M : ℕ} (A : (⟨2, ![M, 128]⟩ : Shape).Idx → EReal) (n : (⟨2, ![M, 1]⟩ : Shape).Idx → EReal)
    (W : (⟨2, ![128, 128]⟩ : Shape).Idx → EReal) (b : (⟨2, ![1, 128]⟩ : Shape).Idx → EReal) :
    (⟨2, ![M, 128]⟩ : Shape).Idx → EReal := fun i => proj A n W b (i 0) (i 1)

/-- The rectified projected features as an array. -/
def reluArr {M : ℕ} (A : (⟨2, ![M, 128]⟩ : Shape).Idx → EReal) (n : (⟨2, ![M, 1]⟩ : Shape).Idx → EReal)
    (W : (⟨2, ![128, 128]⟩ : Shape).Idx → EReal) (b : (⟨2, ![1, 128]⟩ : Shape).Idx → EReal) :
    (⟨2, ![M, 128]⟩ : Shape).Idx → EReal := fun i => relu (proj A n W b (i 0) (i 1))

end Cert.Gcn

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.BlockBody.lean ====
/-
  What one grid point computes, entry by entry.

  The body of each of the six regions loads a block of 1000 rows of the aggregated features, the same 1000 rows of the
  degree column, the whole weight matrix and the bias row; it scales each row by its degree entry (a broadcast along
  the unit axis), rounds to bf16 (the identity on the extended reals), takes the plain matrix product into a zero
  accumulator, adds the bias row broadcast down the rows, and — in the first five regions — takes the maximum with
  the float zero. Entry (p, q) of the stored block is therefore `relu (proj x a w b p q)` over the loaded blocks
  (`proj` alone in the last region): the product is the sum over the contracted coordinate, the shape casts between
  equal shapes are the identity, the two broadcasts repeat an entry along a unit axis.
-/
import proofs.«138479_j10574209483127_1_alg».proof.Proof.Gen.KernelIdeal.Skeleton
import proofs.«138479_j10574209483127_1_alg».proof.Proof.LayerSpec
import proofs.«138479_j10574209483127_1_alg».proof.Proof.LibPlainDot
import proofs.«138479_j10574209483127_1_alg».proof.Proof.LibHostDot
import Idealize.ShloMosaic.Lib.ValueLayout

noncomputable section

namespace Cert.Gcn

open Idealize.ShloMosaic Idealize.ShloMosaic.ValueIdx Cert.KernelIdeal Cert.KernelIdeal.Gen

/-- The regions' product contracts the left operand's columns against the right operand's rows, with no batch axis. -/
theorem dims_plain : dot_S1000x128_S128x128_S1000x128_1_0_0_1_n_n = DotDims.plain 1000 128 128 := rfl

/-- The projection the body forms before the rectifier, read at an entry. -/
theorem body_proj_apply (x0 : FVec Ideal S1000x128 .f32) (x1 : FVec Ideal S1000x1 .f32) (x2 : FVec Ideal S128x128 .f32)
    (x3 : FVec Ideal S1x128 .f32) (p : Fin 1000) (q : Fin 128) :
    addf (matmul dot_S1000x128_S128x128_S1000x128_1_0_0_1_n_n none
        (truncf .bf16 (mulf (shapeCast S1000x128 x0 shapeCasts_S1000x128_S1000x128)
          (broadcastTo S1000x128 (shapeCast S1000x1 x1 shapeCasts_S1000x1_S1000x1) broadcasts_S1000x1_S1000x128)) bitsLt_bf16_f32)
        (truncf .bf16 x2 bitsLt_bf16_f32) (constant (F := Ideal) S1000x128 .f32 0x00000000#32))
      (broadcastTo S1000x128 (shapeCast S1x128 x3 shapeCasts_S1x128_S1x128) broadcasts_S1x128_S1000x128) (ix2 p q)
      = proj x0 x1 x2 x3 p q := by
  rw [addf_apply, dims_plain, Cert.PlainDot.matmul_zero_plain_apply, broadcastTo_1b_ab_apply]
  unfold proj
  congr 1
  · refine Finset.sum_congr rfl fun k _ => ?_
    rw [truncf_apply, truncf_apply, mulf_apply, Cert.HostDot.broadcastTo_a1_ab_apply, shapeCast_self, shapeCast_self]
  · rw [shapeCast_self]

/-- Region 0's stored block, entry by entry: the rectified projection of the loaded blocks. -/
theorem pay0_apply (x0 : Vec Ideal S1000x128 .f32) (x1 : Vec Ideal S1000x1 .f32) (x2 : Vec Ideal S128x128 .f32)
    (x3 : Vec Ideal S1x128 .f32) (p : Fin 1000) (q : Fin 128) :
    k0_pay1 (F := Ideal) x0 x1 x2 x3 (ix2 p q) = relu (proj x0 x1 x2 x3 p q) := by
  unfold k0_pay1
  rw [maximumf_apply, body_proj_apply]
  rfl

/-- Region 5's stored block, entry by entry: the projection of the loaded blocks, not rectified. -/
theorem pay5_apply (x0 : Vec Ideal S1000x128 .f32) (x1 : Vec Ideal S1000x1 .f32) (x2 : Vec Ideal S128x128 .f32)
    (x3 : Vec Ideal S1x128 .f32) (p : Fin 1000) (q : Fin 128) :
    k5_pay1 (F := Ideal) x0 x1 x2 x3 (ix2 p q) = proj x0 x1 x2 x3 p q := by
  unfold k5_pay1
  exact body_proj_apply x0 x1 x2 x3 p q

/-- The first five regions run one body. -/
theorem pay1_eq : @k1_pay1 Ideal _ = @k0_pay1 Ideal _ := rfl
theorem pay2_eq : @k2_pay1 Ideal _ = @k0_pay1 Ideal _ := rfl
theorem pay3_eq : @k3_pay1 Ideal _ = @k0_pay1 Ideal _ := rfl
theorem pay4_eq : @k4_pay1 Ideal _ = @k0_pay1 Ideal _ := rfl

/-- As arrays: the stored block of the first five regions. -/
theorem pay0_eq (x0 : Vec Ideal S1000x128 .f32) (x1 : Vec Ideal S1000x1 .f32) (x2 : Vec Ideal S128x128 .f32)
    (x3 : Vec Ideal S1x128 .f32) : k0_pay1 (F := Ideal) x0 x1 x2 x3 = reluArr x0 x1 x2 x3 := by
  funext i
  obtain ⟨p, q, rfl⟩ : ∃ (p : Fin 1000) (q : Fin 128), i = ix2 p q := ⟨i 0, i 1, eq_ix2 i⟩
  exact pay0_apply x0 x1 x2 x3 p q

/-- As arrays: the stored blocks of regions 1 to 4, whose bodies are region 0's. -/
theorem pay1_arr (x0 : Vec Ideal S1000x128 .f32) (x1 : Vec Ideal S1000x1 .f32) (x2 : Vec Ideal S128x128 .f32)
    (x3 : Vec Ideal S1x128 .f32) : k1_pay1 (F := Ideal) x0 x1 x2 x3 = reluArr x0 x1 x2 x3 := pay0_eq x0 x1 x2 x3
theorem pay2_arr (x0 : Vec Ideal S1000x128 .f32) (x1 : Vec Ideal S1000x1 .f32) (x2 : Vec Ideal S128x128 .f32)
    (x3 : Vec Ideal S1x128 .f32) : k2_pay1 (F := Ideal) x0 x1 x2 x3 = reluArr x0 x1 x2 x3 := pay0_eq x0 x1 x2 x3
theorem pay3_arr (x0 : Vec Ideal S1000x128 .f32) (x1 : Vec Ideal S1000x1 .f32) (x2 : Vec Ideal S128x128 .f32)
    (x3 : Vec Ideal S1x128 .f32) : k3_pay1 (F := Ideal) x0 x1 x2 x3 = reluArr x0 x1 x2 x3 := pay0_eq x0 x1 x2 x3
theorem pay4_arr (x0 : Vec Ideal S1000x128 .f32) (x1 : Vec Ideal S1000x1 .f32) (x2 : Vec Ideal S128x128 .f32)
    (x3 : Vec Ideal S1x128 .f32) : k4_pay1 (F := Ideal) x0 x1 x2 x3 = reluArr x0 x1 x2 x3 := pay0_eq x0 x1 x2 x3

/-- As arrays: the stored block of the last region. -/
theorem pay5_eq (x0 : Vec Ideal S1000x128 .f32) (x1 : Vec Ideal S1000x1 .f32) (x2 : Vec Ideal S128x128 .f32)
    (x3 : Vec Ideal S1x128 .f32) : k5_pay1 (F := Ideal) x0 x1 x2 x3 = projArr x0 x1 x2 x3 := by
  funext i
  obtain ⟨p, q, rfl⟩ : ∃ (p : Fin 1000) (q : Fin 128), i = ix2 p q := ⟨i 0, i 1, eq_ix2 i⟩
  exact pay5_apply x0 x1 x2 x3 p q

end Cert.Gcn

end
-- ==== Proof.Region0.lean ====
/-
  Region 0: the array its write-backs leave, as one function of the arrays it finds.

  The grid has ten points. Point t reads rows 1000·t … 1000·t + 999 of the aggregated features and of the degree
  column, the whole weight matrix and the whole bias row, and writes back rows 1000·t … 1000·t + 999 of the output.
  What it writes back is the rectified projection of the blocks it read, and a row of the projection reads only its own row of the features and of
  the column: so block t of the output is block t of `reluArr` of the four arrays as the region finds them. The ten
  blocks tile the output (row r is in block r / 1000), so the output ends at `reluArr` of those arrays.
-/
import proofs.«138479_j10574209483127_1_alg».proof.Proof.Gen.KernelIdeal.Frame
import proofs.«138479_j10574209483127_1_alg».proof.Proof.BlockBody

set_option maxRecDepth 16384

noncomputable section

namespace Cert.Gcn.Region0

open Cert.Gcn Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows (features, column, output) sit at block t, the weights and the bias
    at block 0; no window moves along the feature axis. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's block of the features is row 1000·t + p of the array. -/
theorem read_0 (c : Dev nD) (t : Fin cfg0.N) (p : Fin 1000) (k : Fin 128) (P : Fin 10000) (hP : P.val = t.val * 1000 + p.val) :
    iblk0 V c 0 t (ix2 p k) = V c main_v25 (ix2 P k) := by
  obtain ⟨e0, e1, -⟩ := idx t
  show V c main_v25 (((cfg0.win 0).blk t).view.emb (ix2 p k)) = V c main_v25 (ix2 P k)
  have h : ((cfg0.win 0).blk t).view.emb (ix2 p k) = ix2 P k := by
    funext a; apply Fin.ext
    match a with
    | ⟨0, _⟩ => show win0_0.index t (0 : Fin 2) * 1000 + 1 * p.val = P.val; omega
    | ⟨1, _⟩ => show win0_0.index t (1 : Fin 2) * 128 + 1 * k.val = k.val; omega
  rw [h]

/-- Row p of point t's block of the degree column is row 1000·t + p of the column. -/
theorem read_1 (c : Dev nD) (t : Fin cfg0.N) (p : Fin 1000) (P : Fin 10000) (hP : P.val = t.val * 1000 + p.val) :
    iblk0 V c 1 t (ix2 p (0 : Fin 1)) = V c main_v26 (ix2 P (0 : Fin 1)) := by
  obtain ⟨-, -, e2, e3, -⟩ := idx t
  show V c main_v26 (((cfg0.win 1).blk t).view.emb (ix2 p (0 : Fin 1))) = V c main_v26 (ix2 P (0 : Fin 1))
  have h : ((cfg0.win 1).blk t).view.emb (ix2 p (0 : Fin 1)) = ix2 P (0 : Fin 1) := by
    funext a; apply Fin.ext
    match a with
    | ⟨0, _⟩ => show win0_1.index t (0 : Fin 2) * 1000 + 1 * p.val = P.val; omega
    | ⟨1, _⟩ => show win0_1.index t (1 : Fin 2) * 1 + 1 * 0 = 0; omega
  rw [h]

/-- Every point's block of the weights is the whole matrix. -/
theorem read_2 (c : Dev nD) (t : Fin cfg0.N) : iblk0 V c 2 t = V c main_arg3 := by
  obtain ⟨-, -, -, -, e4, e5, -⟩ := idx t
  funext y
  show V c main_arg3 (((cfg0.win 2).blk t).view.emb y) = V c main_arg3 y
  have h : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  rw [h]

/-- Every point's block of the bias is the whole row. -/
theorem read_3 (c : Dev nD) (t : Fin cfg0.N) : iblk0 V c 3 t = V c main_v27 := by
  obtain ⟨-, -, -, -, -, -, e6, e7, -⟩ := idx t
  funext y
  show V c main_v27 (((cfg0.win 3).blk t).view.emb y) = V c main_v27 y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  rw [h]

/-- What point t writes back is block t of `reluArr` of the arrays as the region finds them. -/
theorem flushed_eq (c : Dev nD) (t : Fin cfg0.N) :
    (dat0 V c).flushed 4 t = ((cfg0.win 4).blk t).view.read (Elt Ideal)
      (reluArr (V c main_v25) (V c main_v26) (V c main_arg3) (V c main_v27)) := by
  show (cfg0.win 4).cut (grid0.coords t) ((dat0 V c).after 4 t) = _
  rw [after0_4]
  unfold out0_4
  rw [View.canon_unit_zero hz]
  simp only [View.ld_unit_zero (S := S1000x128) hz, View.ld_unit_zero (S := S1000x1) hz,
    View.ld_unit_zero (S := S128x128) hz, View.ld_unit_zero (S := S1x128) hz]
  rw [pay0_eq (iblk0 V c 0 t) (iblk0 V c 1 t) (iblk0 V c 2 t) (iblk0 V c 3 t)]
  obtain ⟨-, -, -, -, -, -, -, -, e8, e9⟩ := idx t
  funext y
  have ht : t.val < 10 := t.isLt
  have hy0 : (y 0).val < 1000 := (y 0).isLt
  have hP : t.val * 1000 + (y 0).val < 10000 := by omega
  show reluArr (iblk0 V c 0 t) (iblk0 V c 1 t) (iblk0 V c 2 t) (iblk0 V c 3 t) y
    = reluArr (V c main_v25) (V c main_v26) (V c main_arg3) (V c main_v27) (((cfg0.win 4).blk t).view.emb y)
  have hemb : ((cfg0.win 4).blk t).view.emb y = ix2 (⟨t.val * 1000 + (y 0).val, hP⟩ : Fin 10000) (y 1) := by
    funext a; apply Fin.ext
    match a with
    | ⟨0, _⟩ => show win0_4.index t (0 : Fin 2) * 1000 + 1 * (y 0).val = t.val * 1000 + (y 0).val; omega
    | ⟨1, _⟩ => show win0_4.index t (1 : Fin 2) * 128 + 1 * (y 1).val = (y 1).val; omega
  rw [hemb]
  unfold reluArr
  refine congrArg relu ?_
  exact proj_rows (V c main_v25) (V c main_v26) (iblk0 V c 0 t) (iblk0 V c 1 t) (V c main_arg3) (iblk0 V c 2 t)
    (V c main_v27) (iblk0 V c 3 t) (y 0) ⟨t.val * 1000 + (y 0).val, hP⟩ (y 1)
    (fun k => read_0 V c t (y 0) k ⟨t.val * 1000 + (y 0).val, hP⟩ rfl)
    (read_1 V c t (y 0) ⟨t.val * 1000 + (y 0).val, hP⟩ rfl) (read_2 V c t) (read_3 V c t)

/-- An index of the output is in point t's block iff each coordinate is in the block's range on its axis. -/
theorem mem_blk (t : Fin cfg0.N) (i : S10000x128.Idx) :
    i ∈ ((cfg0.win 4).blk t).view.set ↔ ∀ a : Fin 2, win0_4.index t a * S1000x128.size a ≤ (i a).val
      ∧ (i a).val < win0_4.index t a * S1000x128.size a + S1000x128.size a := by
  show i ∈ ((View.whole main_v28).slice (win0_4.rect t)).set ↔ _
  rw [View.set_slice_whole, Rect.mem_set_unit]
  exact Iff.rfl

/-- The ten blocks tile the output: row r lies in block r / 1000. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have ht : (i 0).val / 1000 < 10 := by omega
  obtain ⟨-, -, -, -, -, -, -, -, e8, e9⟩ := idx (⟨(i 0).val / 1000, ht⟩ : Fin cfg0.N)
  refine ⟨⟨(i 0).val / 1000, ht⟩, flush0_4 _, ?_⟩
  rw [mem_blk]
  intro a
  match a with
  | ⟨0, _⟩ =>
    show win0_4.index ⟨(i 0).val / 1000, ht⟩ (0 : Fin 2) * 1000 ≤ (i 0).val
      ∧ (i 0).val < win0_4.index ⟨(i 0).val / 1000, ht⟩ (0 : Fin 2) * 1000 + 1000
    rw [e8]
    show (i 0).val / 1000 * 1000 ≤ (i 0).val ∧ (i 0).val < (i 0).val / 1000 * 1000 + 1000
    omega
  | ⟨1, _⟩ =>
    show win0_4.index ⟨(i 0).val / 1000, ht⟩ (1 : Fin 2) * 128 ≤ (i 1).val
      ∧ (i 1).val < win0_4.index ⟨(i 0).val / 1000, ht⟩ (1 : Fin 2) * 128 + 128
    rw [e9]
    omega

/-- The output array after the region: `reluArr` of the four arrays the region finds. -/
theorem final (c : Dev nD) :
    (dat0 V c).arrAt 4 cfg0.N = reluArr (V c main_v25) (V c main_v26) (V c main_arg3) (V c main_v27) :=
  (dat0 V c).arrAt_eq_of_cover 4 _ (fun t _ => flushed_eq V c t) cover

end Cert.Gcn.Region0

end
-- ==== Proof.Region1.lean ====
/-
  Region 1: the array its write-backs leave, as one function of the arrays it finds.

  The grid has ten points. Point t reads rows 1000·t … 1000·t + 999 of the aggregated features and of the degree
  column, the whole weight matrix and the whole bias row, and writes back rows 1000·t … 1000·t + 999 of the output.
  What it writes back is the rectified projection of the blocks it read, and a row of the projection reads only its own row of the features and of
  the column: so block t of the output is block t of `reluArr` of the four arrays as the region finds them. The ten
  blocks tile the output (row r is in block r / 1000), so the output ends at `reluArr` of those arrays.
-/
import proofs.«138479_j10574209483127_1_alg».proof.Proof.Gen.KernelIdeal.Frame
import proofs.«138479_j10574209483127_1_alg».proof.Proof.BlockBody

set_option maxRecDepth 16384

noncomputable section

namespace Cert.Gcn.Region1

open Cert.Gcn Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows (features, column, output) sit at block t, the weights and the bias
    at block 0; no window moves along the feature axis. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block of the features is row 1000·t + p of the array. -/
theorem read_0 (c : Dev nD) (t : Fin cfg1.N) (p : Fin 1000) (k : Fin 128) (P : Fin 10000) (hP : P.val = t.val * 1000 + p.val) :
    iblk1 V c 0 t (ix2 p k) = V c main_v41 (ix2 P k) := by
  obtain ⟨e0, e1, -⟩ := idx t
  show V c main_v41 (((cfg1.win 0).blk t).view.emb (ix2 p k)) = V c main_v41 (ix2 P k)
  have h : ((cfg1.win 0).blk t).view.emb (ix2 p k) = ix2 P k := by
    funext a; apply Fin.ext
    match a with
    | ⟨0, _⟩ => show win1_0.index t (0 : Fin 2) * 1000 + 1 * p.val = P.val; omega
    | ⟨1, _⟩ => show win1_0.index t (1 : Fin 2) * 128 + 1 * k.val = k.val; omega
  rw [h]

/-- Row p of point t's block of the degree column is row 1000·t + p of the column. -/
theorem read_1 (c : Dev nD) (t : Fin cfg1.N) (p : Fin 1000) (P : Fin 10000) (hP : P.val = t.val * 1000 + p.val) :
    iblk1 V c 1 t (ix2 p (0 : Fin 1)) = V c main_v42 (ix2 P (0 : Fin 1)) := by
  obtain ⟨-, -, e2, e3, -⟩ := idx t
  show V c main_v42 (((cfg1.win 1).blk t).view.emb (ix2 p (0 : Fin 1))) = V c main_v42 (ix2 P (0 : Fin 1))
  have h : ((cfg1.win 1).blk t).view.emb (ix2 p (0 : Fin 1)) = ix2 P (0 : Fin 1) := by
    funext a; apply Fin.ext
    match a with
    | ⟨0, _⟩ => show win1_1.index t (0 : Fin 2) * 1000 + 1 * p.val = P.val; omega
    | ⟨1, _⟩ => show win1_1.index t (1 : Fin 2) * 1 + 1 * 0 = 0; omega
  rw [h]

/-- Every point's block of the weights is the whole matrix. -/
theorem read_2 (c : Dev nD) (t : Fin cfg1.N) : iblk1 V c 2 t = V c main_arg5 := by
  obtain ⟨-, -, -, -, e4, e5, -⟩ := idx t
  funext y
  show V c main_arg5 (((cfg1.win 2).blk t).view.emb y) = V c main_arg5 y
  have h : ((cfg1.win 2).blk t).view.emb y = y := by
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  rw [h]

/-- Every point's block of the bias is the whole row. -/
theorem read_3 (c : Dev nD) (t : Fin cfg1.N) : iblk1 V c 3 t = V c main_v43 := by
  obtain ⟨-, -, -, -, -, -, e6, e7, -⟩ := idx t
  funext y
  show V c main_v43 (((cfg1.win 3).blk t).view.emb y) = V c main_v43 y
  have h : ((cfg1.win 3).blk t).view.emb y = y := by
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  rw [h]

/-- What point t writes back is block t of `reluArr` of the arrays as the region finds them. -/
theorem flushed_eq (c : Dev nD) (t : Fin cfg1.N) :
    (dat1 V c).flushed 4 t = ((cfg1.win 4).blk t).view.read (Elt Ideal)
      (reluArr (V c main_v41) (V c main_v42) (V c main_arg5) (V c main_v43)) := by
  show (cfg1.win 4).cut (grid1.coords t) ((dat1 V c).after 4 t) = _
  rw [after1_4]
  unfold out1_4
  rw [View.canon_unit_zero hz]
  simp only [View.ld_unit_zero (S := S1000x128) hz, View.ld_unit_zero (S := S1000x1) hz,
    View.ld_unit_zero (S := S128x128) hz, View.ld_unit_zero (S := S1x128) hz]
  rw [pay1_arr (iblk1 V c 0 t) (iblk1 V c 1 t) (iblk1 V c 2 t) (iblk1 V c 3 t)]
  obtain ⟨-, -, -, -, -, -, -, -, e8, e9⟩ := idx t
  funext y
  have ht : t.val < 10 := t.isLt
  have hy0 : (y 0).val < 1000 := (y 0).isLt
  have hP : t.val * 1000 + (y 0).val < 10000 := by omega
  show reluArr (iblk1 V c 0 t) (iblk1 V c 1 t) (iblk1 V c 2 t) (iblk1 V c 3 t) y
    = reluArr (V c main_v41) (V c main_v42) (V c main_arg5) (V c main_v43) (((cfg1.win 4).blk t).view.emb y)
  have hemb : ((cfg1.win 4).blk t).view.emb y = ix2 (⟨t.val * 1000 + (y 0).val, hP⟩ : Fin 10000) (y 1) := by
    funext a; apply Fin.ext
    match a with
    | ⟨0, _⟩ => show win1_4.index t (0 : Fin 2) * 1000 + 1 * (y 0).val = t.val * 1000 + (y 0).val; omega
    | ⟨1, _⟩ => show win1_4.index t (1 : Fin 2) * 128 + 1 * (y 1).val = (y 1).val; omega
  rw [hemb]
  unfold reluArr
  refine congrArg relu ?_
  exact proj_rows (V c main_v41) (V c main_v42) (iblk1 V c 0 t) (iblk1 V c 1 t) (V c main_arg5) (iblk1 V c 2 t)
    (V c main_v43) (iblk1 V c 3 t) (y 0) ⟨t.val * 1000 + (y 0).val, hP⟩ (y 1)
    (fun k => read_0 V c t (y 0) k ⟨t.val * 1000 + (y 0).val, hP⟩ rfl)
    (read_1 V c t (y 0) ⟨t.val * 1000 + (y 0).val, hP⟩ rfl) (read_2 V c t) (read_3 V c t)

/-- An index of the output is in point t's block iff each coordinate is in the block's range on its axis. -/
theorem mem_blk (t : Fin cfg1.N) (i : S10000x128.Idx) :
    i ∈ ((cfg1.win 4).blk t).view.set ↔ ∀ a : Fin 2, win1_4.index t a * S1000x128.size a ≤ (i a).val
      ∧ (i a).val < win1_4.index t a * S1000x128.size a + S1000x128.size a := by
  show i ∈ ((View.whole main_v44).slice (win1_4.rect t)).set ↔ _
  rw [View.set_slice_whole, Rect.mem_set_unit]
  exact Iff.rfl

/-- The ten blocks tile the output: row r lies in block r / 1000. -/
theorem cover (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  have ht : (i 0).val / 1000 < 10 := by omega
  obtain ⟨-, -, -, -, -, -, -, -, e8, e9⟩ := idx (⟨(i 0).val / 1000, ht⟩ : Fin cfg1.N)
  refine ⟨⟨(i 0).val / 1000, ht⟩, flush1_4 _, ?_⟩
  rw [mem_blk]
  intro a
  match a with
  | ⟨0, _⟩ =>
    show win1_4.index ⟨(i 0).val / 1000, ht⟩ (0 : Fin 2) * 1000 ≤ (i 0).val
      ∧ (i 0).val < win1_4.index ⟨(i 0).val / 1000, ht⟩ (0 : Fin 2) * 1000 + 1000
    rw [e8]
    show (i 0).val / 1000 * 1000 ≤ (i 0).val ∧ (i 0).val < (i 0).val / 1000 * 1000 + 1000
    omega
  | ⟨1, _⟩ =>
    show win1_4.index ⟨(i 0).val / 1000, ht⟩ (1 : Fin 2) * 128 ≤ (i 1).val
      ∧ (i 1).val < win1_4.index ⟨(i 0).val / 1000, ht⟩ (1 : Fin 2) * 128 + 128
    rw [e9]
    omega

/-- The output array after the region: `reluArr` of the four arrays the region finds. -/
theorem final (c : Dev nD) :
    (dat1 V c).arrAt 4 cfg1.N = reluArr (V c main_v41) (V c main_v42) (V c main_arg5) (V c main_v43) :=
  (dat1 V c).arrAt_eq_of_cover 4 _ (fun t _ => flushed_eq V c t) cover

end Cert.Gcn.Region1

end
-- ==== Proof.Region2.lean ====
/-
  Region 2: the array its write-backs leave, as one function of the arrays it finds.

  The grid has ten points. Point t reads rows 1000·t … 1000·t + 999 of the aggregated features and of the degree
  column, the whole weight matrix and the whole bias row, and writes back rows 1000·t … 1000·t + 999 of the output.
  What it writes back is the rectified projection of the blocks it read, and a row of the projection reads only its own row of the features and of
  the column: so block t of the output is block t of `reluArr` of the four arrays as the region finds them. The ten
  blocks tile the output (row r is in block r / 1000), so the output ends at `reluArr` of those arrays.
-/
import proofs.«138479_j10574209483127_1_alg».proof.Proof.Gen.KernelIdeal.Frame
import proofs.«138479_j10574209483127_1_alg».proof.Proof.BlockBody

set_option maxRecDepth 16384

noncomputable section

namespace Cert.Gcn.Region2

open Cert.Gcn Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows (features, column, output) sit at block t, the weights and the bias
    at block 0; no window moves along the feature axis. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of point t's block of the features is row 1000·t + p of the array. -/
theorem read_0 (c : Dev nD) (t : Fin cfg2.N) (p : Fin 1000) (k : Fin 128) (P : Fin 10000) (hP : P.val = t.val * 1000 + p.val) :
    iblk2 V c 0 t (ix2 p k) = V c main_v57 (ix2 P k) := by
  obtain ⟨e0, e1, -⟩ := idx t
  show V c main_v57 (((cfg2.win 0).blk t).view.emb (ix2 p k)) = V c main_v57 (ix2 P k)
  have h : ((cfg2.win 0).blk t).view.emb (ix2 p k) = ix2 P k := by
    funext a; apply Fin.ext
    match a with
    | ⟨0, _⟩ => show win2_0.index t (0 : Fin 2) * 1000 + 1 * p.val = P.val; omega
    | ⟨1, _⟩ => show win2_0.index t (1 : Fin 2) * 128 + 1 * k.val = k.val; omega
  rw [h]

/-- Row p of point t's block of the degree column is row 1000·t + p of the column. -/
theorem read_1 (c : Dev nD) (t : Fin cfg2.N) (p : Fin 1000) (P : Fin 10000) (hP : P.val = t.val * 1000 + p.val) :
    iblk2 V c 1 t (ix2 p (0 : Fin 1)) = V c main_v58 (ix2 P (0 : Fin 1)) := by
  obtain ⟨-, -, e2, e3, -⟩ := idx t
  show V c main_v58 (((cfg2.win 1).blk t).view.emb (ix2 p (0 : Fin 1))) = V c main_v58 (ix2 P (0 : Fin 1))
  have h : ((cfg2.win 1).blk t).view.emb (ix2 p (0 : Fin 1)) = ix2 P (0 : Fin 1) := by
    funext a; apply Fin.ext
    match a with
    | ⟨0, _⟩ => show win2_1.index t (0 : Fin 2) * 1000 + 1 * p.val = P.val; omega
    | ⟨1, _⟩ => show win2_1.index t (1 : Fin 2) * 1 + 1 * 0 = 0; omega
  rw [h]

/-- Every point's block of the weights is the whole matrix. -/
theorem read_2 (c : Dev nD) (t : Fin cfg2.N) : iblk2 V c 2 t = V c main_arg7 := by
  obtain ⟨-, -, -, -, e4, e5, -⟩ := idx t
  funext y
  show V c main_arg7 (((cfg2.win 2).blk t).view.emb y) = V c main_arg7 y
  have h : ((cfg2.win 2).blk t).view.emb y = y := by
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  rw [h]

/-- Every point's block of the bias is the whole row. -/
theorem read_3 (c : Dev nD) (t : Fin cfg2.N) : iblk2 V c 3 t = V c main_v59 := by
  obtain ⟨-, -, -, -, -, -, e6, e7, -⟩ := idx t
  funext y
  show V c main_v59 (((cfg2.win 3).blk t).view.emb y) = V c main_v59 y
  have h : ((cfg2.win 3).blk t).view.emb y = y := by
    funext a; apply Fin.ext
    match a with
    | ⟨0, _⟩ => show win2_3.index t (0 : Fin 2) * 1 + 1 * (y 0).val = (y 0).val; omega
    | ⟨1, _⟩ => show win2_3.index t (1 : Fin 2) * 128 + 1 * (y 1).val = (y 1).val; omega
  rw [h]

/-- What point t writes back is block t of `reluArr` of the arrays as the region finds them. -/
theorem flushed_eq (c : Dev nD) (t : Fin cfg2.N) :
    (dat2 V c).flushed 4 t = ((cfg2.win 4).blk t).view.read (Elt Ideal)
      (reluArr (V c main_v57) (V c main_v58) (V c main_arg7) (V c main_v59)) := by
  show (cfg2.win 4).cut (grid2.coords t) ((dat2 V c).after 4 t) = _
  rw [after2_4]
  unfold out2_4
  rw [View.canon_unit_zero hz]
  simp only [View.ld_unit_zero (S := S1000x128) hz, View.ld_unit_zero (S := S1000x1) hz,
    View.ld_unit_zero (S := S128x128) hz, View.ld_unit_zero (S := S1x128) hz]
  rw [pay2_arr (iblk2 V c 0 t) (iblk2 V c 1 t) (iblk2 V c 2 t) (iblk2 V c 3 t)]
  obtain ⟨-, -, -, -, -, -, -, -, e8, e9⟩ := idx t
  funext y
  have ht : t.val < 10 := t.isLt
  have hy0 : (y 0).val < 1000 := (y 0).isLt
  have hP : t.val * 1000 + (y 0).val < 10000 := by omega
  show reluArr (iblk2 V c 0 t) (iblk2 V c 1 t) (iblk2 V c 2 t) (iblk2 V c 3 t) y
    = reluArr (V c main_v57) (V c main_v58) (V c main_arg7) (V c main_v59) (((cfg2.win 4).blk t).view.emb y)
  have hemb : ((cfg2.win 4).blk t).view.emb y = ix2 (⟨t.val * 1000 + (y 0).val, hP⟩ : Fin 10000) (y 1) := by
    funext a; apply Fin.ext
    match a with
    | ⟨0, _⟩ => show win2_4.index t (0 : Fin 2) * 1000 + 1 * (y 0).val = t.val * 1000 + (y 0).val; omega
    | ⟨1, _⟩ => show win2_4.index t (1 : Fin 2) * 128 + 1 * (y 1).val = (y 1).val; omega
  rw [hemb]
  unfold reluArr
  refine congrArg relu ?_
  exact proj_rows (V c main_v57) (V c main_v58) (iblk2 V c 0 t) (iblk2 V c 1 t) (V c main_arg7) (iblk2 V c 2 t)
    (V c main_v59) (iblk2 V c 3 t) (y 0) ⟨t.val * 1000 + (y 0).val, hP⟩ (y 1)
    (fun k => read_0 V c t (y 0) k ⟨t.val * 1000 + (y 0).val, hP⟩ rfl)
    (read_1 V c t (y 0) ⟨t.val * 1000 + (y 0).val, hP⟩ rfl) (read_2 V c t) (read_3 V c t)

/-- An index of the output is in point t's block iff each coordinate is in the block's range on its axis. -/
theorem mem_blk (t : Fin cfg2.N) (i : S10000x128.Idx) :
    i ∈ ((cfg2.win 4).blk t).view.set ↔ ∀ a : Fin 2, win2_4.index t a * S1000x128.size a ≤ (i a).val
      ∧ (i a).val < win2_4.index t a * S1000x128.size a + S1000x128.size a := by
  show i ∈ ((View.whole main_v60).slice (win2_4.rect t)).set ↔ _
  rw [View.set_slice_whole, Rect.mem_set_unit]
  exact Iff.rfl

/-- The ten blocks tile the output: row r lies in block r / 1000. -/
theorem cover (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  have ht : (i 0).val / 1000 < 10 := by omega
  obtain ⟨-, -, -, -, -, -, -, -, e8, e9⟩ := idx (⟨(i 0).val / 1000, ht⟩ : Fin cfg2.N)
  refine ⟨⟨(i 0).val / 1000, ht⟩, flush2_4 _, ?_⟩
  rw [mem_blk]
  intro a
  match a with
  | ⟨0, _⟩ =>
    show win2_4.index ⟨(i 0).val / 1000, ht⟩ (0 : Fin 2) * 1000 ≤ (i 0).val
      ∧ (i 0).val < win2_4.index ⟨(i 0).val / 1000, ht⟩ (0 : Fin 2) * 1000 + 1000
    rw [e8]
    show (i 0).val / 1000 * 1000 ≤ (i 0).val ∧ (i 0).val < (i 0).val / 1000 * 1000 + 1000
    omega
  | ⟨1, _⟩ =>
    show win2_4.index ⟨(i 0).val / 1000, ht⟩ (1 : Fin 2) * 128 ≤ (i 1).val
      ∧ (i 1).val < win2_4.index ⟨(i 0).val / 1000, ht⟩ (1 : Fin 2) * 128 + 128
    rw [e9]
    omega

/-- The output array after the region: `reluArr` of the four arrays the region finds. -/
theorem final (c : Dev nD) :
    (dat2 V c).arrAt 4 cfg2.N = reluArr (V c main_v57) (V c main_v58) (V c main_arg7) (V c main_v59) :=
  (dat2 V c).arrAt_eq_of_cover 4 _ (fun t _ => flushed_eq V c t) cover

end Cert.Gcn.Region2

end
-- ==== Proof.Region3.lean ====
/-
  Region 3: the array its write-backs leave, as one function of the arrays it finds.

  The grid has ten points. Point t reads rows 1000·t … 1000·t + 999 of the aggregated features and of the degree
  column, the whole weight matrix and the whole bias row, and writes back rows 1000·t … 1000·t + 999 of the output.
  What it writes back is the rectified projection of the blocks it read, and a row of the projection reads only its own row of the features and of
  the column: so block t of the output is block t of `reluArr` of the four arrays as the region finds them. The ten
  blocks tile the output (row r is in block r / 1000), so the output ends at `reluArr` of those arrays.
-/
import proofs.«138479_j10574209483127_1_alg».proof.Proof.Gen.KernelIdeal.Frame
import proofs.«138479_j10574209483127_1_alg».proof.Proof.BlockBody

set_option maxRecDepth 16384

noncomputable section

namespace Cert.Gcn.Region3

open Cert.Gcn Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows (features, column, output) sit at block t, the weights and the bias
    at block 0; no window moves along the feature axis. -/
theorem idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of point t's block of the features is row 1000·t + p of the array. -/
theorem read_0 (c : Dev nD) (t : Fin cfg3.N) (p : Fin 1000) (k : Fin 128) (P : Fin 10000) (hP : P.val = t.val * 1000 + p.val) :
    iblk3 V c 0 t (ix2 p k) = V c main_v73 (ix2 P k) := by
  obtain ⟨e0, e1, -⟩ := idx t
  show V c main_v73 (((cfg3.win 0).blk t).view.emb (ix2 p k)) = V c main_v73 (ix2 P k)
  have h : ((cfg3.win 0).blk t).view.emb (ix2 p k) = ix2 P k := by
    funext a; apply Fin.ext
    match a with
    | ⟨0, _⟩ => show win3_0.index t (0 : Fin 2) * 1000 + 1 * p.val = P.val; omega
    | ⟨1, _⟩ => show win3_0.index t (1 : Fin 2) * 128 + 1 * k.val = k.val; omega
  rw [h]

/-- Row p of point t's block of the degree column is row 1000·t + p of the column. -/
theorem read_1 (c : Dev nD) (t : Fin cfg3.N) (p : Fin 1000) (P : Fin 10000) (hP : P.val = t.val * 1000 + p.val) :
    iblk3 V c 1 t (ix2 p (0 : Fin 1)) = V c main_v74 (ix2 P (0 : Fin 1)) := by
  obtain ⟨-, -, e2, e3, -⟩ := idx t
  show V c main_v74 (((cfg3.win 1).blk t).view.emb (ix2 p (0 : Fin 1))) = V c main_v74 (ix2 P (0 : Fin 1))
  have h : ((cfg3.win 1).blk t).view.emb (ix2 p (0 : Fin 1)) = ix2 P (0 : Fin 1) := by
    funext a; apply Fin.ext
    match a with
    | ⟨0, _⟩ => show win3_1.index t (0 : Fin 2) * 1000 + 1 * p.val = P.val; omega
    | ⟨1, _⟩ => show win3_1.index t (1 : Fin 2) * 1 + 1 * 0 = 0; omega
  rw [h]

/-- Every point's block of the weights is the whole matrix. -/
theorem read_2 (c : Dev nD) (t : Fin cfg3.N) : iblk3 V c 2 t = V c main_arg9 := by
  obtain ⟨-, -, -, -, e4, e5, -⟩ := idx t
  funext y
  show V c main_arg9 (((cfg3.win 2).blk t).view.emb y) = V c main_arg9 y
  have h : ((cfg3.win 2).blk t).view.emb y = y := by
    funext a; apply Fin.ext
    match a with
    | ⟨0, _⟩ => show win3_2.index t (0 : Fin 2) * 128 + 1 * (y 0).val = (y 0).val; omega
    | ⟨1, _⟩ => show win3_2.index t (1 : Fin 2) * 128 + 1 * (y 1).val = (y 1).val; omega
  rw [h]

/-- Every point's block of the bias is the whole row. -/
theorem read_3 (c : Dev nD) (t : Fin cfg3.N) : iblk3 V c 3 t = V c main_v75 := by
  obtain ⟨-, -, -, -, -, -, e6, e7, -⟩ := idx t
  funext y
  show V c main_v75 (((cfg3.win 3).blk t).view.emb y) = V c main_v75 y
  have h : ((cfg3.win 3).blk t).view.emb y = y := by
    funext a; apply Fin.ext
    match a with
    | ⟨0, _⟩ => show win3_3.index t (0 : Fin 2) * 1 + 1 * (y 0).val = (y 0).val; omega
    | ⟨1, _⟩ => show win3_3.index t (1 : Fin 2) * 128 + 1 * (y 1).val = (y 1).val; omega
  rw [h]

/-- What point t writes back is block t of `reluArr` of the arrays as the region finds them. -/
theorem flushed_eq (c : Dev nD) (t : Fin cfg3.N) :
    (dat3 V c).flushed 4 t = ((cfg3.win 4).blk t).view.read (Elt Ideal)
      (reluArr (V c main_v73) (V c main_v74) (V c main_arg9) (V c main_v75)) := by
  show (cfg3.win 4).cut (grid3.coords t) ((dat3 V c).after 4 t) = _
  rw [after3_4]
  unfold out3_4
  rw [View.canon_unit_zero hz]
  simp only [View.ld_unit_zero (S := S1000x128) hz, View.ld_unit_zero (S := S1000x1) hz,
    View.ld_unit_zero (S := S128x128) hz, View.ld_unit_zero (S := S1x128) hz]
  rw [pay3_arr (iblk3 V c 0 t) (iblk3 V c 1 t) (iblk3 V c 2 t) (iblk3 V c 3 t)]
  obtain ⟨-, -, -, -, -, -, -, -, e8, e9⟩ := idx t
  funext y
  have ht : t.val < 10 := t.isLt
  have hy0 : (y 0).val < 1000 := (y 0).isLt
  have hP : t.val * 1000 + (y 0).val < 10000 := by omega
  show reluArr (iblk3 V c 0 t) (iblk3 V c 1 t) (iblk3 V c 2 t) (iblk3 V c 3 t) y
    = reluArr (V c main_v73) (V c main_v74) (V c main_arg9) (V c main_v75) (((cfg3.win 4).blk t).view.emb y)
  have hemb : ((cfg3.win 4).blk t).view.emb y = ix2 (⟨t.val * 1000 + (y 0).val, hP⟩ : Fin 10000) (y 1) := by
    funext a; apply Fin.ext
    match a with
    | ⟨0, _⟩ => show win3_4.index t (0 : Fin 2) * 1000 + 1 * (y 0).val = t.val * 1000 + (y 0).val; omega
    | ⟨1, _⟩ => show win3_4.index t (1 : Fin 2) * 128 + 1 * (y 1).val = (y 1).val; omega
  rw [hemb]
  unfold reluArr
  refine congrArg relu ?_
  exact proj_rows (V c main_v73) (V c main_v74) (iblk3 V c 0 t) (iblk3 V c 1 t) (V c main_arg9) (iblk3 V c 2 t)
    (V c main_v75) (iblk3 V c 3 t) (y 0) ⟨t.val * 1000 + (y 0).val, hP⟩ (y 1)
    (fun k => read_0 V c t (y 0) k ⟨t.val * 1000 + (y 0).val, hP⟩ rfl)
    (read_1 V c t (y 0) ⟨t.val * 1000 + (y 0).val, hP⟩ rfl) (read_2 V c t) (read_3 V c t)

/-- An index of the output is in point t's block iff each coordinate is in the block's range on its axis. -/
theorem mem_blk (t : Fin cfg3.N) (i : S10000x128.Idx) :
    i ∈ ((cfg3.win 4).blk t).view.set ↔ ∀ a : Fin 2, win3_4.index t a * S1000x128.size a ≤ (i a).val
      ∧ (i a).val < win3_4.index t a * S1000x128.size a + S1000x128.size a := by
  show i ∈ ((View.whole main_v76).slice (win3_4.rect t)).set ↔ _
  rw [View.set_slice_whole, Rect.mem_set_unit]
  exact Iff.rfl

/-- The ten blocks tile the output: row r lies in block r / 1000. -/
theorem cover (i : S10000x128.Idx) :
    ∃ t : Fin cfg3.N, (cfg3.win 4).flush t = true ∧ i ∈ ((cfg3.win 4).blk t).view.set := by
  have hi0 : (i 0).val < 10000 := (i 0).isLt
  have hi1 : (i 1).val < 128 := (i 1).isLt
  have ht : (i 0).val / 1000 < 10 := by omega
  obtain ⟨-, -, -, -, -, -, -, -, e8, e9⟩ := idx (⟨(i 0).val / 1000, ht⟩ : Fin cfg3.N)
  refine ⟨⟨(i 0).val / 1000, ht⟩, flush3_4 _, ?_⟩
  rw [mem_blk]
  intro a
  match a with
  | ⟨0, _⟩ =>
    show win3_4.index ⟨(i 0).val / 1000, ht⟩ (0 : Fin 2) * 1000 ≤ (i 0).val
      ∧ (i 0).val < win3_4.index ⟨(i 0).val / 1000, ht⟩ (0 : Fin 2) * 1000 + 1000
    rw [e8]
    show (i 0).val / 1000 * 1000 ≤ (i 0).val ∧ (i 0).val < (i 0).val / 1000 * 1000 + 1000
    omega
  | ⟨1, _⟩ =>
    show win3_4.index ⟨(i 0).val / 1000, ht⟩ (1 : Fin 2) * 128 ≤ (i 1).val
      ∧ (i 1).val < win3_4.index ⟨(i 0).val / 1000, ht⟩ (1 : Fin 2) * 128 + 128
    rw [e9]
    omega

/-- The output array after the region: `reluArr` of the four arrays the region finds. -/
theorem final (c : Dev nD) :
    (dat3 V c).arrAt 4 cfg3.N = reluArr (V c main_v73) (V c main_v74) (V c main_arg9) (V c main_v75) :=
  (dat3 V c).arrAt_eq_of_cover 4 _ (fun t _ => flushed_eq V c t) cover

end Cert.Gcn.Region3

end
-- ==== Proof.Region4.lean ====
/-
  Region 4: the array its write-backs leave, as one function of the arrays it finds.

  The grid has ten points. Point t reads rows 1000·t … 1000·t + 999 of the aggregated features and of the degree
  column, the whole weight matrix and the whole bias row, and writes back rows 1000·t … 1000·t + 999 of the output.
  What it writes back is the rectified projection of the blocks it read, and a row of the projection reads only its own row of the features and of
  the column: so block t of the output is block t of `reluArr` of the four arrays as the region finds them. The ten
  blocks tile the output (row r is in block r / 1000), so the output ends at `reluArr` of those arrays.
-/
import proofs.«138479_j10574209483127_1_alg».proof.Proof.Gen.KernelIdeal.Frame
import proofs.«138479_j10574209483127_1_alg».proof.Proof.BlockBody

set_option maxRecDepth 16384

noncomputable section

namespace Cert.Gcn.Region4

open Cert.Gcn Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows (features, column, output) sit at block t, the weights and the bias
    at block 0; no window moves along the feature axis. -/
theorem idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of point t's block of the features is row 1000·t + p of the array. -/
theorem read_0 (c : Dev nD) (t : Fin cfg4.N) (p : Fin 1000) (k : Fin 128) (P : Fin 10000) (hP : P.val = t.val * 1000 + p.val) :
    iblk4 V c 0 t (ix2 p k) = V c main_v89 (ix2 P k) := by
  obtain ⟨e0, e1, -⟩ := idx t
  show V c main_v89 (((cfg4.win 0).blk t).view.emb (ix2 p k)) = V c main_v89 (ix2 P k)
  have h : ((cfg4.win 0).blk t).view.emb (ix2 p k) = ix2 P k := by
    funext a; apply Fin.ext
    match a with
    | ⟨0, _⟩ => show win4_0.index t (0 : Fin 2) * 1000 + 1 * p.val = P.val; omega
    | ⟨1, _⟩ => show win4_0.index t (1 : Fin 2) * 128 + 1 * k.val = k.val; omega
  rw [h]

/-- Row p of point t's block of the degree column is row 1000·t + p of the column. -/
theorem read_1 (c : Dev nD) (t : Fin cfg4.N) (p : Fin 1000) (P : Fin 10000) (hP : P.val = t.val * 1000 + p.val) :
    iblk4 V c 1 t (ix2 p (0 : Fin 1)) = V c main_v90 (ix2 P (0 : Fin 1)) := by
  obtain ⟨-, -, e2, e3, -⟩ := idx t
  show V c main_v90 (((cfg4.win 1).blk t).view.emb (ix2 p (0 : Fin 1))) = V c main_v90 (ix2 P (0 : Fin 1))
  have h : ((cfg4.win 1).blk t).view.emb (ix2 p (0 : Fin 1)) = ix2 P (0 : Fin 1) := by
    funext a; apply Fin.ext
    match a with
    | ⟨0, _⟩ => show win4_1.index t (0 : Fin 2) * 1000 + 1 * p.val = P.val; omega
    | ⟨1, _⟩ => show win4_1.index t (1 : Fin 2) * 1 + 1 * 0 = 0; omega
  rw [h]

/-- Every point's block of the weights is the whole matrix. -/
theorem read_2 (c : Dev nD) (t : Fin cfg4.N) : iblk4 V c 2 t = V c main_arg11 := by
  obtain ⟨-, -, -, -, e4, e5, -⟩ := idx t
  funext y
  show V c main_arg11 (((cfg4.win 2).blk t).view.emb y) = V c main_arg11 y
  have h : ((cfg4.win 2).blk t).view.emb y = y := by
    funext a; apply Fin.ext
    match a with
    | ⟨0, _⟩ => show win4_2.index t (0 : Fin 2) * 128 + 1 * (y 0).val = (y 0).val; omega
    | ⟨1, _⟩ => show win4_2.index t (1 : Fin 2) * 128 + 1 * (y 1).val = (y 1).val; omega
  rw [h]

/-- Every point's block of the bias is the whole row. -/
theorem read_3 (c : Dev nD) (t : Fin cfg4.N) : iblk4 V c 3 t = V c main_v91 := by
  obtain ⟨-, -, -, -, -, -, e6, e7, -⟩ := idx t
  funext y
  show V c main_v91 (((cfg4.win 3).blk t).view.emb y) = V c main_v91 y
  have h : ((cfg4.win 3).blk t).view.emb y = y := by
    funext a; apply Fin.ext
    match a with
    | ⟨0, _⟩ => show win4_3.index t (0 : Fin 2) * 1 + 1 * (y 0).val = (y 0).val; omega
    | ⟨1, _⟩ => show win4_3.index t (1 : Fin 2) * 128 + 1 * (y 1).val = (y 1).val; omega
  rw [h]

/-- What point t writes back is block t of `reluArr` of the arrays as the region finds them. -/
theorem flushed_eq (c : Dev nD) (t : Fin cfg4.N) :
    (dat4 V c).flushed 4 t = ((cfg4.win 4).blk t).view.read (Elt Ideal)
      (reluArr (V c main_v89) (V c main_v90) (V c main_arg11) (V c main_v91)) := by
  show (cfg4.win 4).cut (grid4.coords t) ((dat4 V c).after 4 t) = _
  rw [after4_4]
  unfold out4_4
  rw [View.canon_unit_zero hz]
  simp only [View.ld_unit_zero (S := S1000x128) hz, View.ld_unit_zero (S := S1000x1) hz,
    View.ld_unit_zero (S := S128x128) hz, View.ld_unit_zero (S := S1x128) hz]
  rw [pay4_arr (iblk4 V c 0 t) (iblk4 V c 1 t) (iblk4 V c 2 t) (iblk4 V c 3 t)]
  obtain ⟨-, -, -, -, -, -, -, -, e8, e9⟩ := idx t
  funext y
  have ht : t.val < 10 := t.isLt
  have hy0 : (y 0).val < 1000 := (y 0).isLt
  have hP : t.val * 1000 + (y 0).val < 10000 := by omega
  show reluArr (iblk4 V c 0 t) (iblk4 V c 1 t) (iblk4 V c 2 t) (iblk4 V c 3 t) y
    = reluArr (V c main_v89) (V c main_v90) (V c main_arg11) (V c main_v91) (((cfg4.win 4).blk t).view.emb y)
  have hemb : ((cfg4.win 4).blk t).view.emb y = ix2 (⟨t.val * 1000 + (y 0).val, hP⟩ : Fin 10000) (y 1) := by
    funext a; apply Fin.ext
    match a with
    | ⟨0, _⟩ => show win4_4.index t (0 : Fin 2) * 1000 + 1 * (y 0).val = t.val * 1000 + (y 0).val; omega
    | ⟨1, _⟩ => show win4_4.index t (1 : Fin 2) * 128 + 1 * (y 1).val = (y 1).val; omega
  rw [hemb]
  unfold reluArr
  refine congrArg relu ?_
  exact proj_rows (V c main_v89) (V c main_v90) (iblk4 V c 0 t) (iblk4 V c 1 t) (V c main_arg11) (iblk4 V c 2 t)
    (V c main_v91) (iblk4 V c 3 t) (y 0) ⟨t.val * 1000 + (y 0).val, hP⟩ (y 1)
    (fun k => read_0 V c t (y 0) k ⟨t.val * 1000 + (y 0).val, hP⟩ rfl)
    (read_1 V c t (y 0) ⟨t.val * 1000 + (y 0).val, hP⟩ rfl) (read_2 V c t) (read_3 V c t)

/-- An index of the output is in point t's block iff each coordinate is in the block's range on its axis. -/
theorem mem_blk (t : Fin cfg4.N) (i : S10000x128.Idx) :
    i ∈ ((cfg4.win 4).blk t).view.set ↔ ∀ a : Fin 2, win4_4.index t a * S1000x128.size a ≤ (i a).val
      ∧ (i a).val < win4_4.index t a * S1000x128.size a + S1000x128.size a := by
  show i ∈ ((View.whole main_v92).slice (win4_4.rect t)).set ↔ _
  rw [View.set_slice_whole, Rect.mem_set_unit]
  exact Iff.rfl

/-- The ten blocks tile the output: row r lies in block r / 1000. -/
theorem cover (i : S10000x128.Idx) :
    ∃ t : Fin cfg4.N, (cfg4.win 4).flush t = true ∧ i ∈ ((cfg4.win 4).blk t).view.set := by
  have hi0 : (i 0).val < 10000 := (i 0).isLt
  have hi1 : (i 1).val < 128 := (i 1).isLt
  have ht : (i 0).val / 1000 < 10 := by omega
  obtain ⟨-, -, -, -, -, -, -, -, e8, e9⟩ := idx (⟨(i 0).val / 1000, ht⟩ : Fin cfg4.N)
  refine ⟨⟨(i 0).val / 1000, ht⟩, flush4_4 _, ?_⟩
  rw [mem_blk]
  intro a
  match a with
  | ⟨0, _⟩ =>
    show win4_4.index ⟨(i 0).val / 1000, ht⟩ (0 : Fin 2) * 1000 ≤ (i 0).val
      ∧ (i 0).val < win4_4.index ⟨(i 0).val / 1000, ht⟩ (0 : Fin 2) * 1000 + 1000
    rw [e8]
    show (i 0).val / 1000 * 1000 ≤ (i 0).val ∧ (i 0).val < (i 0).val / 1000 * 1000 + 1000
    omega
  | ⟨1, _⟩ =>
    show win4_4.index ⟨(i 0).val / 1000, ht⟩ (1 : Fin 2) * 128 ≤ (i 1).val
      ∧ (i 1).val < win4_4.index ⟨(i 0).val / 1000, ht⟩ (1 : Fin 2) * 128 + 128
    rw [e9]
    omega

/-- The output array after the region: `reluArr` of the four arrays the region finds. -/
theorem final (c : Dev nD) :
    (dat4 V c).arrAt 4 cfg4.N = reluArr (V c main_v89) (V c main_v90) (V c main_arg11) (V c main_v91) :=
  (dat4 V c).arrAt_eq_of_cover 4 _ (fun t _ => flushed_eq V c t) cover

end Cert.Gcn.Region4

end
-- ==== Proof.Region5.lean ====
/-
  Region 5: the array its write-backs leave, as one function of the arrays it finds.

  The grid has ten points. Point t reads rows 1000·t … 1000·t + 999 of the aggregated features and of the degree
  column, the whole weight matrix and the whole bias row, and writes back rows 1000·t … 1000·t + 999 of the output.
  What it writes back is the projection of the blocks it read, and a row of the projection reads only its own row of the features and of
  the column: so block t of the output is block t of `projArr` of the four arrays as the region finds them. The ten
  blocks tile the output (row r is in block r / 1000), so the output ends at `projArr` of those arrays.
-/
import proofs.«138479_j10574209483127_1_alg».proof.Proof.Gen.KernelIdeal.Frame
import proofs.«138479_j10574209483127_1_alg».proof.Proof.BlockBody

set_option maxRecDepth 16384

noncomputable section

namespace Cert.Gcn.Region5

open Cert.Gcn Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows (features, column, output) sit at block t, the weights and the bias
    at block 0; no window moves along the feature axis. -/
theorem idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of point t's block of the features is row 1000·t + p of the array. -/
theorem read_0 (c : Dev nD) (t : Fin cfg5.N) (p : Fin 1000) (k : Fin 128) (P : Fin 10000) (hP : P.val = t.val * 1000 + p.val) :
    iblk5 V c 0 t (ix2 p k) = V c main_v105 (ix2 P k) := by
  obtain ⟨e0, e1, -⟩ := idx t
  show V c main_v105 (((cfg5.win 0).blk t).view.emb (ix2 p k)) = V c main_v105 (ix2 P k)
  have h : ((cfg5.win 0).blk t).view.emb (ix2 p k) = ix2 P k := by
    funext a; apply Fin.ext
    match a with
    | ⟨0, _⟩ => show win5_0.index t (0 : Fin 2) * 1000 + 1 * p.val = P.val; omega
    | ⟨1, _⟩ => show win5_0.index t (1 : Fin 2) * 128 + 1 * k.val = k.val; omega
  rw [h]

/-- Row p of point t's block of the degree column is row 1000·t + p of the column. -/
theorem read_1 (c : Dev nD) (t : Fin cfg5.N) (p : Fin 1000) (P : Fin 10000) (hP : P.val = t.val * 1000 + p.val) :
    iblk5 V c 1 t (ix2 p (0 : Fin 1)) = V c main_v106 (ix2 P (0 : Fin 1)) := by
  obtain ⟨-, -, e2, e3, -⟩ := idx t
  show V c main_v106 (((cfg5.win 1).blk t).view.emb (ix2 p (0 : Fin 1))) = V c main_v106 (ix2 P (0 : Fin 1))
  have h : ((cfg5.win 1).blk t).view.emb (ix2 p (0 : Fin 1)) = ix2 P (0 : Fin 1) := by
    funext a; apply Fin.ext
    match a with
    | ⟨0, _⟩ => show win5_1.index t (0 : Fin 2) * 1000 + 1 * p.val = P.val; omega
    | ⟨1, _⟩ => show win5_1.index t (1 : Fin 2) * 1 + 1 * 0 = 0; omega
  rw [h]

/-- Every point's block of the weights is the whole matrix. -/
theorem read_2 (c : Dev nD) (t : Fin cfg5.N) : iblk5 V c 2 t = V c main_arg13 := by
  obtain ⟨-, -, -, -, e4, e5, -⟩ := idx t
  funext y
  show V c main_arg13 (((cfg5.win 2).blk t).view.emb y) = V c main_arg13 y
  have h : ((cfg5.win 2).blk t).view.emb y = y := by
    funext a; apply Fin.ext
    match a with
    | ⟨0, _⟩ => show win5_2.index t (0 : Fin 2) * 128 + 1 * (y 0).val = (y 0).val; omega
    | ⟨1, _⟩ => show win5_2.index t (1 : Fin 2) * 128 + 1 * (y 1).val = (y 1).val; omega
  rw [h]

/-- Every point's block of the bias is the whole row. -/
theorem read_3 (c : Dev nD) (t : Fin cfg5.N) : iblk5 V c 3 t = V c main_v107 := by
  obtain ⟨-, -, -, -, -, -, e6, e7, -⟩ := idx t
  funext y
  show V c main_v107 (((cfg5.win 3).blk t).view.emb y) = V c main_v107 y
  have h : ((cfg5.win 3).blk t).view.emb y = y := by
    funext a; apply Fin.ext
    match a with
    | ⟨0, _⟩ => show win5_3.index t (0 : Fin 2) * 1 + 1 * (y 0).val = (y 0).val; omega
    | ⟨1, _⟩ => show win5_3.index t (1 : Fin 2) * 128 + 1 * (y 1).val = (y 1).val; omega
  rw [h]

/-- What point t writes back is block t of `projArr` of the arrays as the region finds them. -/
theorem flushed_eq (c : Dev nD) (t : Fin cfg5.N) :
    (dat5 V c).flushed 4 t = ((cfg5.win 4).blk t).view.read (Elt Ideal)
      (projArr (V c main_v105) (V c main_v106) (V c main_arg13) (V c main_v107)) := by
  show (cfg5.win 4).cut (grid5.coords t) ((dat5 V c).after 4 t) = _
  rw [after5_4]
  unfold out5_4
  rw [View.canon_unit_zero hz]
  simp only [View.ld_unit_zero (S := S1000x128) hz, View.ld_unit_zero (S := S1000x1) hz,
    View.ld_unit_zero (S := S128x128) hz, View.ld_unit_zero (S := S1x128) hz]
  rw [pay5_eq (iblk5 V c 0 t) (iblk5 V c 1 t) (iblk5 V c 2 t) (iblk5 V c 3 t)]
  obtain ⟨-, -, -, -, -, -, -, -, e8, e9⟩ := idx t
  funext y
  have ht : t.val < 10 := t.isLt
  have hy0 : (y 0).val < 1000 := (y 0).isLt
  have hP : t.val * 1000 + (y 0).val < 10000 := by omega
  show projArr (iblk5 V c 0 t) (iblk5 V c 1 t) (iblk5 V c 2 t) (iblk5 V c 3 t) y
    = projArr (V c main_v105) (V c main_v106) (V c main_arg13) (V c main_v107) (((cfg5.win 4).blk t).view.emb y)
  have hemb : ((cfg5.win 4).blk t).view.emb y = ix2 (⟨t.val * 1000 + (y 0).val, hP⟩ : Fin 10000) (y 1) := by
    funext a; apply Fin.ext
    match a with
    | ⟨0, _⟩ => show win5_4.index t (0 : Fin 2) * 1000 + 1 * (y 0).val = t.val * 1000 + (y 0).val; omega
    | ⟨1, _⟩ => show win5_4.index t (1 : Fin 2) * 128 + 1 * (y 1).val = (y 1).val; omega
  rw [hemb]
  unfold projArr
  show proj _ _ _ _ (y 0) (y 1) = proj _ _ _ _ _ _
  exact proj_rows (V c main_v105) (V c main_v106) (iblk5 V c 0 t) (iblk5 V c 1 t) (V c main_arg13) (iblk5 V c 2 t)
    (V c main_v107) (iblk5 V c 3 t) (y 0) ⟨t.val * 1000 + (y 0).val, hP⟩ (y 1)
    (fun k => read_0 V c t (y 0) k ⟨t.val * 1000 + (y 0).val, hP⟩ rfl)
    (read_1 V c t (y 0) ⟨t.val * 1000 + (y 0).val, hP⟩ rfl) (read_2 V c t) (read_3 V c t)

/-- An index of the output is in point t's block iff each coordinate is in the block's range on its axis. -/
theorem mem_blk (t : Fin cfg5.N) (i : S10000x128.Idx) :
    i ∈ ((cfg5.win 4).blk t).view.set ↔ ∀ a : Fin 2, win5_4.index t a * S1000x128.size a ≤ (i a).val
      ∧ (i a).val < win5_4.index t a * S1000x128.size a + S1000x128.size a := by
  show i ∈ ((View.whole main_v108).slice (win5_4.rect t)).set ↔ _
  rw [View.set_slice_whole, Rect.mem_set_unit]
  exact Iff.rfl

/-- The ten blocks tile the output: row r lies in block r / 1000. -/
theorem cover (i : S10000x128.Idx) :
    ∃ t : Fin cfg5.N, (cfg5.win 4).flush t = true ∧ i ∈ ((cfg5.win 4).blk t).view.set := by
  have hi0 : (i 0).val < 10000 := (i 0).isLt
  have hi1 : (i 1).val < 128 := (i 1).isLt
  have ht : (i 0).val / 1000 < 10 := by omega
  obtain ⟨-, -, -, -, -, -, -, -, e8, e9⟩ := idx (⟨(i 0).val / 1000, ht⟩ : Fin cfg5.N)
  refine ⟨⟨(i 0).val / 1000, ht⟩, flush5_4 _, ?_⟩
  rw [mem_blk]
  intro a
  match a with
  | ⟨0, _⟩ =>
    show win5_4.index ⟨(i 0).val / 1000, ht⟩ (0 : Fin 2) * 1000 ≤ (i 0).val
      ∧ (i 0).val < win5_4.index ⟨(i 0).val / 1000, ht⟩ (0 : Fin 2) * 1000 + 1000
    rw [e8]
    show (i 0).val / 1000 * 1000 ≤ (i 0).val ∧ (i 0).val < (i 0).val / 1000 * 1000 + 1000
    omega
  | ⟨1, _⟩ =>
    show win5_4.index ⟨(i 0).val / 1000, ht⟩ (1 : Fin 2) * 128 ≤ (i 1).val
      ∧ (i 1).val < win5_4.index ⟨(i 0).val / 1000, ht⟩ (1 : Fin 2) * 128 + 128
    rw [e9]
    omega

/-- The output array after the region: `projArr` of the four arrays the region finds. -/
theorem final (c : Dev nD) :
    (dat5 V c).arrAt 4 cfg5.N = projArr (V c main_v105) (V c main_v106) (V c main_arg13) (V c main_v107) :=
  (dat5 V c).arrAt_eq_of_cover 4 _ (fun t _ => flushed_eq V c t) cover

end Cert.Gcn.Region5

end
-- ==== Proof.HostLayer.lean ====
/-
  The host's spelling of one projection is the entry-by-entry formula.

  On the host a layer multiplies the aggregated features by the degree column broadcast along the feature axis, takes
  the plain matrix product with the weights, adds the bias row broadcast down the nodes, and (all layers but the last)
  takes the maximum with a splat of the float zero. Entry by entry that is `proj`, and `relu` of it: a broadcast along a
  unit axis repeats the entry, the product is the sum over the contracted coordinate, and the splat reads the zero.
-/
import proofs.«138479_j10574209483127_1_alg».proof.Proof.LayerSpec
import proofs.«138479_j10574209483127_1_alg».proof.Proof.LibHostDot

noncomputable section

namespace Cert.Gcn

open Idealize.ShloMosaic Idealize.ShloMosaic.ValueIdx

variable {M : ℕ}

/-- A column [M, 1] broadcast in place to [M, 128], read at (p, q): the column's entry at row p. -/
theorem bcastCol_apply (h : (⟨2, ![M, 1]⟩ : Shape).BroadcastsInDim ⟨2, ![M, 128]⟩ ![0, 1])
    (n : (⟨2, ![M, 1]⟩ : Shape).Idx → EReal) (p : Fin M) (q : Fin 128) :
    broadcastInDim ⟨2, ![M, 128]⟩ ![0, 1] h n (ix2 p q) = n (ix2 p (0 : Fin 1)) :=
  broadcastInDim_apply _ h n (ix2 p q) (ix2 p (0 : Fin 1)) (fun a => match a with
    | ⟨0, _⟩ => by
      show p.val = if M = 1 then 0 else p.val
      split
      · have := p.isLt; omega
      · rfl
    | ⟨1, _⟩ => by show 0 = if (1 : Nat) = 1 then 0 else q.val; rw [if_pos rfl])

/-- A row [1, 128] broadcast in place to [M, 128], read at (p, q): the row's entry at column q. -/
theorem bcastRow_apply (h : (⟨2, ![1, 128]⟩ : Shape).BroadcastsInDim ⟨2, ![M, 128]⟩ ![0, 1])
    (b : (⟨2, ![1, 128]⟩ : Shape).Idx → EReal) (p : Fin M) (q : Fin 128) :
    broadcastInDim ⟨2, ![M, 128]⟩ ![0, 1] h b (ix2 p q) = b (ix2 (0 : Fin 1) q) :=
  broadcastInDim_apply _ h b (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The host's projection, as an array, is `projArr`. -/
theorem hostProj_eq (h1 : (⟨2, ![M, 1]⟩ : Shape).BroadcastsInDim ⟨2, ![M, 128]⟩ ![0, 1])
    (h2 : (⟨2, ![1, 128]⟩ : Shape).BroadcastsInDim ⟨2, ![M, 128]⟩ ![0, 1])
    (A : FVec Ideal ⟨2, ![M, 128]⟩ .f32) (n : FVec Ideal ⟨2, ![M, 1]⟩ .f32)
    (W : FVec Ideal ⟨2, ![128, 128]⟩ .f32) (b : FVec Ideal ⟨2, ![1, 128]⟩ .f32) :
    addf (Host.dotGeneral (DotDims.plain M 128 128) none (mulf A (broadcastInDim ⟨2, ![M, 128]⟩ ![0, 1] h1 n)) W)
        (broadcastInDim ⟨2, ![M, 128]⟩ ![0, 1] h2 b)
      = projArr A n W b := by
  funext i
  obtain ⟨p, q, rfl⟩ : ∃ (p : Fin M) (q : Fin 128), i = ix2 p q := ⟨i 0, i 1, eq_ix2 i⟩
  rw [addf_apply, Cert.HostDot.dotGeneral_plain_apply, bcastRow_apply]
  show _ = proj A n W b p q
  unfold proj
  congr 1
  refine Finset.sum_congr rfl fun k _ => ?_
  rw [mulf_apply, bcastCol_apply]

/-- The host's rectified projection, as an array, is `reluArr`. -/
theorem hostRelu_eq (h1 : (⟨2, ![M, 1]⟩ : Shape).BroadcastsInDim ⟨2, ![M, 128]⟩ ![0, 1])
    (h2 : (⟨2, ![1, 128]⟩ : Shape).BroadcastsInDim ⟨2, ![M, 128]⟩ ![0, 1])
    (h3 : (⟨0, ![]⟩ : Shape).BroadcastsInDim ⟨2, ![M, 128]⟩ ![])
    (A : FVec Ideal ⟨2, ![M, 128]⟩ .f32) (n : FVec Ideal ⟨2, ![M, 1]⟩ .f32)
    (W : FVec Ideal ⟨2, ![128, 128]⟩ .f32) (b : FVec Ideal ⟨2, ![1, 128]⟩ .f32) :
    maximumf (addf (Host.dotGeneral (DotDims.plain M 128 128) none (mulf A (broadcastInDim ⟨2, ![M, 128]⟩ ![0, 1] h1 n)) W)
        (broadcastInDim ⟨2, ![M, 128]⟩ ![0, 1] h2 b))
        (broadcastInDim ⟨2, ![M, 128]⟩ ![] h3 (constant (F := Ideal) ⟨0, ![]⟩ .f32 0x00000000#32))
      = reluArr A n W b := by
  rw [hostProj_eq]
  funext i
  rw [maximumf_apply]
  show max (proj A n W b (i 0) (i 1)) _ = relu (proj A n W b (i 0) (i 1))
  unfold relu
  congr 1

end Cert.Gcn

end
-- ==== Proof.HostChain.lean ====
/-
  The part of a layer both programs run on the host, named once, and the whole network as six applications of it.

  Both programs compute the two degree factors the same way (a scatter-add of ones over the edge endpoints, clamped
  below by one, inverse square root), and in every layer scale the node features by the source factor, gather them along
  the edges' sources (negative indices wrapped by the node count) and scatter-add them onto the edges' destinations.
  Those operations are never opened here: `degFactor` and `aggregate` are just their names. A layer, in the host's
  spelling, multiplies the aggregated features by the destination factor broadcast over the features, takes the matrix
  product with the weights, adds the broadcast bias, and rectifies (not in the last layer). Entry by entry that is
  `reluArr` (`projArr`) of the aggregated features against the factor stood up as a column and the bias laid out as
  a row (`layer_eq`, `lastLayer_eq`).
-/
import proofs.«138479_j10574209483127_1_alg».proof.Proof.HostLayer
import proofs.«138479_j10574209483127_1_alg».proof.Proof.Gen.ReferenceIdeal

noncomputable section

namespace Cert.Gcn

open Idealize.ShloMosaic Idealize.ShloMosaic.ValueIdx Cert.ReferenceIdeal Cert.ReferenceIdeal.Facts₀

/-- The edge endpoints. -/
abbrev Edges : Type := IVec S640000 32
/-- Node features. -/
abbrev Feats : Type := FVec Ideal S10000x128 .f32
/-- One factor per node. -/
abbrev NodeVec : Type := FVec Ideal S10000 .f32
/-- A layer's weights and bias. -/
abbrev Weights : Type := FVec Ideal S128x128 .f32
abbrev Bias : Type := FVec Ideal S128 .f32

/-- The degree factor of an endpoint array: (max (number of edges at the node) 1)^(-1/2), as the host computes it. -/
def degFactor (e : Edges) : NodeVec :=
  Host.rsqrt (maximumf (Host.scatterAdd scatter_S10000_S640000x1_S640000_n_0_0_1 (broadcastInDim S10000 ![] bcast_S_S10000 (constant S_ .f32 0x00000000#32)) (broadcastInDim S640000x1 ![0] bcast_S640000_S640000x1_0 e) (broadcastInDim S640000 ![] bcast_S_S640000 (constant S_ .f32 0x3F800000#32))) (broadcastInDim S10000 ![] bcast_S_S10000 (constant S_ .f32 0x3F800000#32)))

/-- The aggregated features: scale by the source factor, gather along the sources, scatter-add onto the destinations. -/
def aggregate (h : Feats) (ns : NodeVec) (src dst : Edges) : Feats :=
  Host.scatterAdd scatter_S10000x128_S640000x1_S640000x128_1_0_0_1 (broadcastInDim S10000x128 ![] bcast_S_S10000x128 (constant S_ .f32 0x00000000#32)) (broadcastInDim S640000x1 ![0] bcast_S640000_S640000x1_0 dst) (Host.gather gather_S10000x128_S640000x1_S640000x128_1_0_n_n_0_1_1128 (mulf h (broadcastInDim S10000x128 ![0, 1] bcast_S10000x1_S10000x128_0_1 (broadcastInDim S10000x1 ![0] bcast_S10000_S10000x1_0 ns))) (broadcastInDim S640000x1 ![0] bcast_S640000_S640000x1_0 (select (cmpi .slt src (broadcastInDim S640000 ![] bcast_S_S640000 (constantI S_ 32 0#32))) (addi src (broadcastInDim S640000 ![] bcast_S_S640000 (constantI S_ 32 10000#32))) src)))

/-- A factor stood up as a column, a bias laid out as a row. -/
def asColumn (v : NodeVec) : FVec Ideal S10000x1 .f32 := broadcastInDim S10000x1 ![0] bcast_S10000_S10000x1_0 v
def asRow (b : Bias) : FVec Ideal S1x128 .f32 := broadcastInDim S1x128 ![1] bcast_S128_S1x128_1 b

/-- The host's spelling of a rectified projection of aggregated features `A`, and of the last, unrectified one. -/
def hostRelu (A : Feats) (nd : NodeVec) (W : Weights) (b : Bias) : Feats :=
  maximumf (addf (Host.dotGeneral dot_S10000x128_S128x128_S10000x128_1_0_0_1_n_n none (mulf A (broadcastInDim S10000x128 ![0, 1] bcast_S10000x1_S10000x128_0_1 (broadcastInDim S10000x1 ![0] bcast_S10000_S10000x1_0 nd))) W) (broadcastInDim S10000x128 ![0, 1] bcast_S1x128_S10000x128_0_1 (broadcastInDim S1x128 ![1] bcast_S128_S1x128_1 b))) (broadcastInDim S10000x128 ![] bcast_S_S10000x128 (constant S_ .f32 0x00000000#32))
def hostProj (A : Feats) (nd : NodeVec) (W : Weights) (b : Bias) : Feats :=
  addf (Host.dotGeneral dot_S10000x128_S128x128_S10000x128_1_0_0_1_n_n none (mulf A (broadcastInDim S10000x128 ![0, 1] bcast_S10000x1_S10000x128_0_1 (broadcastInDim S10000x1 ![0] bcast_S10000_S10000x1_0 nd))) W) (broadcastInDim S10000x128 ![0, 1] bcast_S1x128_S10000x128_0_1 (broadcastInDim S1x128 ![1] bcast_S128_S1x128_1 b))

/-- Entry by entry, the host's rectified projection is `reluArr`. -/
theorem hostRelu_arr (A : Feats) (nd : NodeVec) (W : Weights) (b : Bias) :
    hostRelu A nd W b = reluArr A (asColumn nd) W (asRow b) :=
  hostRelu_eq (M := 10000) bcast_S10000x1_S10000x128_0_1 bcast_S1x128_S10000x128_0_1 bcast_S_S10000x128 A (asColumn nd) W (asRow b)

/-- Entry by entry, the host's last projection is `projArr`. -/
theorem hostProj_arr (A : Feats) (nd : NodeVec) (W : Weights) (b : Bias) :
    hostProj A nd W b = projArr A (asColumn nd) W (asRow b) :=
  hostProj_eq (M := 10000) bcast_S10000x1_S10000x128_0_1 bcast_S1x128_S10000x128_0_1 A (asColumn nd) W (asRow b)

/-- A rectified layer, and the last layer, from the features entering it. -/
def layer (h : Feats) (ns nd : NodeVec) (src dst : Edges) (W : Weights) (b : Bias) : Feats :=
  hostRelu (aggregate h ns src dst) nd W b
def lastLayer (h : Feats) (ns nd : NodeVec) (src dst : Edges) (W : Weights) (b : Bias) : Feats :=
  hostProj (aggregate h ns src dst) nd W b

section Network
variable (x : Feats) (src dst : Edges) (W1 : Weights) (b1 : Bias) (W2 : Weights) (b2 : Bias) (W3 : Weights) (b3 : Bias)
  (W4 : Weights) (b4 : Bias) (W5 : Weights) (b5 : Bias) (W6 : Weights) (b6 : Bias)

/-- The features after each of the six layers. -/
def feat1 : Feats := layer x (degFactor src) (degFactor dst) src dst W1 b1
def feat2 : Feats := layer (feat1 x src dst W1 b1) (degFactor src) (degFactor dst) src dst W2 b2
def feat3 : Feats := layer (feat2 x src dst W1 b1 W2 b2) (degFactor src) (degFactor dst) src dst W3 b3
def feat4 : Feats := layer (feat3 x src dst W1 b1 W2 b2 W3 b3) (degFactor src) (degFactor dst) src dst W4 b4
def feat5 : Feats := layer (feat4 x src dst W1 b1 W2 b2 W3 b3 W4 b4) (degFactor src) (degFactor dst) src dst W5 b5
def feat6 : Feats := lastLayer (feat5 x src dst W1 b1 W2 b2 W3 b3 W4 b4 W5 b5) (degFactor src) (degFactor dst) src dst W6 b6

end Network

end Cert.Gcn

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.Reshapes.lean ====
/-
  Two layouts of a vector, each spelt two ways.

  The kernel's host side stands the destination factor up as a column [a, 1] and lays the bias out as a row [1, b] by a
  reshape; the reference does the same by a broadcast along a new unit axis. Both read the vector at the one coordinate
  that varies, so they are the same arrays.
-/
import proofs.«138479_j10574209483127_1_alg».proof.Proof.LibLayout
import Idealize.ShloMosaic.Lib.ValueLayout

noncomputable section

namespace Cert.Gcn

open Idealize.ShloMosaic Idealize.ShloMosaic.ValueIdx

variable {α : Type}

/-- A vector [a] reshaped to a column [a, 1] is the vector broadcast along a new trailing unit axis. -/
theorem column_reshape_eq_broadcast {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext i
  obtain ⟨p, u, rfl⟩ : ∃ (p : Fin a) (u : Fin 1), i = ix2 p u := ⟨i 0, i 1, eq_ix2 i⟩
  rw [Cert.LibLayout.shapeCast_a_a1_apply]
  exact (broadcastInDim_apply _ h' v (ix2 p u) (ix1 p) (fun ax => match ax with
    | ⟨0, _⟩ => by
      show p.val = if a = 1 then 0 else p.val
      split
      · have := p.isLt; omega
      · rfl)).symm

/-- A vector [b] reshaped to a row [1, b] is the vector broadcast along a new leading unit axis. -/
theorem row_reshape_eq_broadcast {b : ℕ} (v : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ v h = broadcastInDim ⟨2, ![1, b]⟩ ![1] h' v := by
  funext i
  obtain ⟨u, q, rfl⟩ : ∃ (u : Fin 1) (q : Fin b), i = ix2 u q := ⟨i 0, i 1, eq_ix2 i⟩
  rw [shapeCast_a_1a_apply]
  exact (broadcastInDim_apply _ h' v (ix2 u q) (ix1 q) (fun ax => match ax with
    | ⟨0, _⟩ => by
      show q.val = if b = 1 then 0 else q.val
      split
      · have := q.isLt; omega
      · rfl)).symm

end Cert.Gcn

end
-- ==== Proof.KeepShared.lean ====
/-
  The buffers every layer reads again are kept from the first region's entry on.

  The two degree factors are computed once, before the first region, and the edge endpoints are arguments. No later
  host operation writes those four buffers and no region has one of them as an array, so at every later segment
  boundary they hold what they held when the first region was entered.
-/
import proofs.«138479_j10574209483127_1_alg».proof.Proof.Gen.KernelIdeal.Frame
import Idealize.ShloMosaic.Lib.StableHlo.Run
import Idealize.ShloMosaic.PureOps.Ideal

set_option maxRecDepth 16384

noncomputable section

namespace Cert.Gcn.KeepShared

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem st_v9_2 (c : Dev nD) : W2 m ρ c (Proc.devRef .tc main_v9) = W1 m ρ c (Proc.devRef .tc main_v9) :=
  W2_of_ne m ρ c main_v9 (by decide)
theorem keep_v9_2 (c : Dev nD) : W2 m ρ c (Proc.devRef .tc main_v9) = W1 m ρ c (Proc.devRef .tc main_v9) :=
  st_v9_2 m ρ c

theorem st_v9_3 (c : Dev nD) : W3 m ρ c (Proc.devRef .tc main_v9) = W2 m ρ c (Proc.devRef .tc main_v9) := by
  show StableHlo.after hostOps1 (W2 m ρ c) (Proc.devRef .tc main_v9) = _
  generalize W2 m ρ c = Wv
  after_results_simp
theorem keep_v9_3 (c : Dev nD) : W3 m ρ c (Proc.devRef .tc main_v9) = W1 m ρ c (Proc.devRef .tc main_v9) :=
  (st_v9_3 m ρ c).trans (keep_v9_2 m ρ c)

theorem st_v9_4 (c : Dev nD) : W4 m ρ c (Proc.devRef .tc main_v9) = W3 m ρ c (Proc.devRef .tc main_v9) :=
  W4_of_ne m ρ c main_v9 (by decide)
theorem keep_v9_4 (c : Dev nD) : W4 m ρ c (Proc.devRef .tc main_v9) = W1 m ρ c (Proc.devRef .tc main_v9) :=
  (st_v9_4 m ρ c).trans (keep_v9_3 m ρ c)

theorem st_v9_5 (c : Dev nD) : W5 m ρ c (Proc.devRef .tc main_v9) = W4 m ρ c (Proc.devRef .tc main_v9) := by
  show StableHlo.after hostOps2 (W4 m ρ c) (Proc.devRef .tc main_v9) = _
  generalize W4 m ρ c = Wv
  after_results_simp
theorem keep_v9_5 (c : Dev nD) : W5 m ρ c (Proc.devRef .tc main_v9) = W1 m ρ c (Proc.devRef .tc main_v9) :=
  (st_v9_5 m ρ c).trans (keep_v9_4 m ρ c)

theorem st_v9_6 (c : Dev nD) : W6 m ρ c (Proc.devRef .tc main_v9) = W5 m ρ c (Proc.devRef .tc main_v9) :=
  W6_of_ne m ρ c main_v9 (by decide)
theorem keep_v9_6 (c : Dev nD) : W6 m ρ c (Proc.devRef .tc main_v9) = W1 m ρ c (Proc.devRef .tc main_v9) :=
  (st_v9_6 m ρ c).trans (keep_v9_5 m ρ c)

theorem st_v9_7 (c : Dev nD) : W7 m ρ c (Proc.devRef .tc main_v9) = W6 m ρ c (Proc.devRef .tc main_v9) := by
  show StableHlo.after hostOps3 (W6 m ρ c) (Proc.devRef .tc main_v9) = _
  generalize W6 m ρ c = Wv
  after_results_simp
theorem keep_v9_7 (c : Dev nD) : W7 m ρ c (Proc.devRef .tc main_v9) = W1 m ρ c (Proc.devRef .tc main_v9) :=
  (st_v9_7 m ρ c).trans (keep_v9_6 m ρ c)

theorem st_v9_8 (c : Dev nD) : W8 m ρ c (Proc.devRef .tc main_v9) = W7 m ρ c (Proc.devRef .tc main_v9) :=
  W8_of_ne m ρ c main_v9 (by decide)
theorem keep_v9_8 (c : Dev nD) : W8 m ρ c (Proc.devRef .tc main_v9) = W1 m ρ c (Proc.devRef .tc main_v9) :=
  (st_v9_8 m ρ c).trans (keep_v9_7 m ρ c)

theorem st_v9_9 (c : Dev nD) : W9 m ρ c (Proc.devRef .tc main_v9) = W8 m ρ c (Proc.devRef .tc main_v9) := by
  show StableHlo.after hostOps4 (W8 m ρ c) (Proc.devRef .tc main_v9) = _
  generalize W8 m ρ c = Wv
  after_results_simp
theorem keep_v9_9 (c : Dev nD) : W9 m ρ c (Proc.devRef .tc main_v9) = W1 m ρ c (Proc.devRef .tc main_v9) :=
  (st_v9_9 m ρ c).trans (keep_v9_8 m ρ c)

theorem st_v9_10 (c : Dev nD) : W10 m ρ c (Proc.devRef .tc main_v9) = W9 m ρ c (Proc.devRef .tc main_v9) :=
  W10_of_ne m ρ c main_v9 (by decide)
theorem keep_v9_10 (c : Dev nD) : W10 m ρ c (Proc.devRef .tc main_v9) = W1 m ρ c (Proc.devRef .tc main_v9) :=
  (st_v9_10 m ρ c).trans (keep_v9_9 m ρ c)

theorem st_v12_2 (c : Dev nD) : W2 m ρ c (Proc.devRef .tc main_v12) = W1 m ρ c (Proc.devRef .tc main_v12) :=
  W2_of_ne m ρ c main_v12 (by decide)
theorem keep_v12_2 (c : Dev nD) : W2 m ρ c (Proc.devRef .tc main_v12) = W1 m ρ c (Proc.devRef .tc main_v12) :=
  st_v12_2 m ρ c

theorem st_v12_3 (c : Dev nD) : W3 m ρ c (Proc.devRef .tc main_v12) = W2 m ρ c (Proc.devRef .tc main_v12) := by
  show StableHlo.after hostOps1 (W2 m ρ c) (Proc.devRef .tc main_v12) = _
  generalize W2 m ρ c = Wv
  after_results_simp
theorem keep_v12_3 (c : Dev nD) : W3 m ρ c (Proc.devRef .tc main_v12) = W1 m ρ c (Proc.devRef .tc main_v12) :=
  (st_v12_3 m ρ c).trans (keep_v12_2 m ρ c)

theorem st_v12_4 (c : Dev nD) : W4 m ρ c (Proc.devRef .tc main_v12) = W3 m ρ c (Proc.devRef .tc main_v12) :=
  W4_of_ne m ρ c main_v12 (by decide)
theorem keep_v12_4 (c : Dev nD) : W4 m ρ c (Proc.devRef .tc main_v12) = W1 m ρ c (Proc.devRef .tc main_v12) :=
  (st_v12_4 m ρ c).trans (keep_v12_3 m ρ c)

theorem st_v12_5 (c : Dev nD) : W5 m ρ c (Proc.devRef .tc main_v12) = W4 m ρ c (Proc.devRef .tc main_v12) := by
  show StableHlo.after hostOps2 (W4 m ρ c) (Proc.devRef .tc main_v12) = _
  generalize W4 m ρ c = Wv
  after_results_simp
theorem keep_v12_5 (c : Dev nD) : W5 m ρ c (Proc.devRef .tc main_v12) = W1 m ρ c (Proc.devRef .tc main_v12) :=
  (st_v12_5 m ρ c).trans (keep_v12_4 m ρ c)

theorem st_v12_6 (c : Dev nD) : W6 m ρ c (Proc.devRef .tc main_v12) = W5 m ρ c (Proc.devRef .tc main_v12) :=
  W6_of_ne m ρ c main_v12 (by decide)
theorem keep_v12_6 (c : Dev nD) : W6 m ρ c (Proc.devRef .tc main_v12) = W1 m ρ c (Proc.devRef .tc main_v12) :=
  (st_v12_6 m ρ c).trans (keep_v12_5 m ρ c)

theorem st_v12_7 (c : Dev nD) : W7 m ρ c (Proc.devRef .tc main_v12) = W6 m ρ c (Proc.devRef .tc main_v12) := by
  show StableHlo.after hostOps3 (W6 m ρ c) (Proc.devRef .tc main_v12) = _
  generalize W6 m ρ c = Wv
  after_results_simp
theorem keep_v12_7 (c : Dev nD) : W7 m ρ c (Proc.devRef .tc main_v12) = W1 m ρ c (Proc.devRef .tc main_v12) :=
  (st_v12_7 m ρ c).trans (keep_v12_6 m ρ c)

theorem st_v12_8 (c : Dev nD) : W8 m ρ c (Proc.devRef .tc main_v12) = W7 m ρ c (Proc.devRef .tc main_v12) :=
  W8_of_ne m ρ c main_v12 (by decide)
theorem keep_v12_8 (c : Dev nD) : W8 m ρ c (Proc.devRef .tc main_v12) = W1 m ρ c (Proc.devRef .tc main_v12) :=
  (st_v12_8 m ρ c).trans (keep_v12_7 m ρ c)

theorem st_v12_9 (c : Dev nD) : W9 m ρ c (Proc.devRef .tc main_v12) = W8 m ρ c (Proc.devRef .tc main_v12) := by
  show StableHlo.after hostOps4 (W8 m ρ c) (Proc.devRef .tc main_v12) = _
  generalize W8 m ρ c = Wv
  after_results_simp
theorem keep_v12_9 (c : Dev nD) : W9 m ρ c (Proc.devRef .tc main_v12) = W1 m ρ c (Proc.devRef .tc main_v12) :=
  (st_v12_9 m ρ c).trans (keep_v12_8 m ρ c)

theorem st_v12_10 (c : Dev nD) : W10 m ρ c (Proc.devRef .tc main_v12) = W9 m ρ c (Proc.devRef .tc main_v12) :=
  W10_of_ne m ρ c main_v12 (by decide)
theorem keep_v12_10 (c : Dev nD) : W10 m ρ c (Proc.devRef .tc main_v12) = W1 m ρ c (Proc.devRef .tc main_v12) :=
  (st_v12_10 m ρ c).trans (keep_v12_9 m ρ c)

theorem st_arg1_2 (c : Dev nD) : W2 m ρ c (Proc.devRef .tc main_arg1) = W1 m ρ c (Proc.devRef .tc main_arg1) :=
  W2_of_ne m ρ c main_arg1 (by decide)
theorem keep_arg1_2 (c : Dev nD) : W2 m ρ c (Proc.devRef .tc main_arg1) = W1 m ρ c (Proc.devRef .tc main_arg1) :=
  st_arg1_2 m ρ c

theorem st_arg1_3 (c : Dev nD) : W3 m ρ c (Proc.devRef .tc main_arg1) = W2 m ρ c (Proc.devRef .tc main_arg1) := by
  show StableHlo.after hostOps1 (W2 m ρ c) (Proc.devRef .tc main_arg1) = _
  generalize W2 m ρ c = Wv
  after_results_simp
theorem keep_arg1_3 (c : Dev nD) : W3 m ρ c (Proc.devRef .tc main_arg1) = W1 m ρ c (Proc.devRef .tc main_arg1) :=
  (st_arg1_3 m ρ c).trans (keep_arg1_2 m ρ c)

theorem st_arg1_4 (c : Dev nD) : W4 m ρ c (Proc.devRef .tc main_arg1) = W3 m ρ c (Proc.devRef .tc main_arg1) :=
  W4_of_ne m ρ c main_arg1 (by decide)
theorem keep_arg1_4 (c : Dev nD) : W4 m ρ c (Proc.devRef .tc main_arg1) = W1 m ρ c (Proc.devRef .tc main_arg1) :=
  (st_arg1_4 m ρ c).trans (keep_arg1_3 m ρ c)

theorem st_arg1_5 (c : Dev nD) : W5 m ρ c (Proc.devRef .tc main_arg1) = W4 m ρ c (Proc.devRef .tc main_arg1) := by
  show StableHlo.after hostOps2 (W4 m ρ c) (Proc.devRef .tc main_arg1) = _
  generalize W4 m ρ c = Wv
  after_results_simp
theorem keep_arg1_5 (c : Dev nD) : W5 m ρ c (Proc.devRef .tc main_arg1) = W1 m ρ c (Proc.devRef .tc main_arg1) :=
  (st_arg1_5 m ρ c).trans (keep_arg1_4 m ρ c)

theorem st_arg1_6 (c : Dev nD) : W6 m ρ c (Proc.devRef .tc main_arg1) = W5 m ρ c (Proc.devRef .tc main_arg1) :=
  W6_of_ne m ρ c main_arg1 (by decide)
theorem keep_arg1_6 (c : Dev nD) : W6 m ρ c (Proc.devRef .tc main_arg1) = W1 m ρ c (Proc.devRef .tc main_arg1) :=
  (st_arg1_6 m ρ c).trans (keep_arg1_5 m ρ c)

theorem st_arg1_7 (c : Dev nD) : W7 m ρ c (Proc.devRef .tc main_arg1) = W6 m ρ c (Proc.devRef .tc main_arg1) := by
  show StableHlo.after hostOps3 (W6 m ρ c) (Proc.devRef .tc main_arg1) = _
  generalize W6 m ρ c = Wv
  after_results_simp
theorem keep_arg1_7 (c : Dev nD) : W7 m ρ c (Proc.devRef .tc main_arg1) = W1 m ρ c (Proc.devRef .tc main_arg1) :=
  (st_arg1_7 m ρ c).trans (keep_arg1_6 m ρ c)

theorem st_arg1_8 (c : Dev nD) : W8 m ρ c (Proc.devRef .tc main_arg1) = W7 m ρ c (Proc.devRef .tc main_arg1) :=
  W8_of_ne m ρ c main_arg1 (by decide)
theorem keep_arg1_8 (c : Dev nD) : W8 m ρ c (Proc.devRef .tc main_arg1) = W1 m ρ c (Proc.devRef .tc main_arg1) :=
  (st_arg1_8 m ρ c).trans (keep_arg1_7 m ρ c)

theorem st_arg1_9 (c : Dev nD) : W9 m ρ c (Proc.devRef .tc main_arg1) = W8 m ρ c (Proc.devRef .tc main_arg1) := by
  show StableHlo.after hostOps4 (W8 m ρ c) (Proc.devRef .tc main_arg1) = _
  generalize W8 m ρ c = Wv
  after_results_simp
theorem keep_arg1_9 (c : Dev nD) : W9 m ρ c (Proc.devRef .tc main_arg1) = W1 m ρ c (Proc.devRef .tc main_arg1) :=
  (st_arg1_9 m ρ c).trans (keep_arg1_8 m ρ c)

theorem st_arg1_10 (c : Dev nD) : W10 m ρ c (Proc.devRef .tc main_arg1) = W9 m ρ c (Proc.devRef .tc main_arg1) :=
  W10_of_ne m ρ c main_arg1 (by decide)
theorem keep_arg1_10 (c : Dev nD) : W10 m ρ c (Proc.devRef .tc main_arg1) = W1 m ρ c (Proc.devRef .tc main_arg1) :=
  (st_arg1_10 m ρ c).trans (keep_arg1_9 m ρ c)

theorem st_arg2_2 (c : Dev nD) : W2 m ρ c (Proc.devRef .tc main_arg2) = W1 m ρ c (Proc.devRef .tc main_arg2) :=
  W2_of_ne m ρ c main_arg2 (by decide)
theorem keep_arg2_2 (c : Dev nD) : W2 m ρ c (Proc.devRef .tc main_arg2) = W1 m ρ c (Proc.devRef .tc main_arg2) :=
  st_arg2_2 m ρ c

theorem st_arg2_3 (c : Dev nD) : W3 m ρ c (Proc.devRef .tc main_arg2) = W2 m ρ c (Proc.devRef .tc main_arg2) := by
  show StableHlo.after hostOps1 (W2 m ρ c) (Proc.devRef .tc main_arg2) = _
  generalize W2 m ρ c = Wv
  after_results_simp
theorem keep_arg2_3 (c : Dev nD) : W3 m ρ c (Proc.devRef .tc main_arg2) = W1 m ρ c (Proc.devRef .tc main_arg2) :=
  (st_arg2_3 m ρ c).trans (keep_arg2_2 m ρ c)

theorem st_arg2_4 (c : Dev nD) : W4 m ρ c (Proc.devRef .tc main_arg2) = W3 m ρ c (Proc.devRef .tc main_arg2) :=
  W4_of_ne m ρ c main_arg2 (by decide)
theorem keep_arg2_4 (c : Dev nD) : W4 m ρ c (Proc.devRef .tc main_arg2) = W1 m ρ c (Proc.devRef .tc main_arg2) :=
  (st_arg2_4 m ρ c).trans (keep_arg2_3 m ρ c)

theorem st_arg2_5 (c : Dev nD) : W5 m ρ c (Proc.devRef .tc main_arg2) = W4 m ρ c (Proc.devRef .tc main_arg2) := by
  show StableHlo.after hostOps2 (W4 m ρ c) (Proc.devRef .tc main_arg2) = _
  generalize W4 m ρ c = Wv
  after_results_simp
theorem keep_arg2_5 (c : Dev nD) : W5 m ρ c (Proc.devRef .tc main_arg2) = W1 m ρ c (Proc.devRef .tc main_arg2) :=
  (st_arg2_5 m ρ c).trans (keep_arg2_4 m ρ c)

theorem st_arg2_6 (c : Dev nD) : W6 m ρ c (Proc.devRef .tc main_arg2) = W5 m ρ c (Proc.devRef .tc main_arg2) :=
  W6_of_ne m ρ c main_arg2 (by decide)
theorem keep_arg2_6 (c : Dev nD) : W6 m ρ c (Proc.devRef .tc main_arg2) = W1 m ρ c (Proc.devRef .tc main_arg2) :=
  (st_arg2_6 m ρ c).trans (keep_arg2_5 m ρ c)

theorem st_arg2_7 (c : Dev nD) : W7 m ρ c (Proc.devRef .tc main_arg2) = W6 m ρ c (Proc.devRef .tc main_arg2) := by
  show StableHlo.after hostOps3 (W6 m ρ c) (Proc.devRef .tc main_arg2) = _
  generalize W6 m ρ c = Wv
  after_results_simp
theorem keep_arg2_7 (c : Dev nD) : W7 m ρ c (Proc.devRef .tc main_arg2) = W1 m ρ c (Proc.devRef .tc main_arg2) :=
  (st_arg2_7 m ρ c).trans (keep_arg2_6 m ρ c)

theorem st_arg2_8 (c : Dev nD) : W8 m ρ c (Proc.devRef .tc main_arg2) = W7 m ρ c (Proc.devRef .tc main_arg2) :=
  W8_of_ne m ρ c main_arg2 (by decide)
theorem keep_arg2_8 (c : Dev nD) : W8 m ρ c (Proc.devRef .tc main_arg2) = W1 m ρ c (Proc.devRef .tc main_arg2) :=
  (st_arg2_8 m ρ c).trans (keep_arg2_7 m ρ c)

theorem st_arg2_9 (c : Dev nD) : W9 m ρ c (Proc.devRef .tc main_arg2) = W8 m ρ c (Proc.devRef .tc main_arg2) := by
  show StableHlo.after hostOps4 (W8 m ρ c) (Proc.devRef .tc main_arg2) = _
  generalize W8 m ρ c = Wv
  after_results_simp
theorem keep_arg2_9 (c : Dev nD) : W9 m ρ c (Proc.devRef .tc main_arg2) = W1 m ρ c (Proc.devRef .tc main_arg2) :=
  (st_arg2_9 m ρ c).trans (keep_arg2_8 m ρ c)

theorem st_arg2_10 (c : Dev nD) : W10 m ρ c (Proc.devRef .tc main_arg2) = W9 m ρ c (Proc.devRef .tc main_arg2) :=
  W10_of_ne m ρ c main_arg2 (by decide)
theorem keep_arg2_10 (c : Dev nD) : W10 m ρ c (Proc.devRef .tc main_arg2) = W1 m ρ c (Proc.devRef .tc main_arg2) :=
  (st_arg2_10 m ρ c).trans (keep_arg2_9 m ρ c)

end Cert.Gcn.KeepShared

end
-- ==== Proof.KeepArgs.lean ====
/-
  A layer's weights and bias are kept until its region is entered.

  The weights and the bias of layer j are arguments that only layer j's stretch and region read: the earlier
  stretches write other buffers, and the earlier regions have other arrays. So when layer j's stretch starts they
  hold what they held when the first region was entered.
-/
import proofs.«138479_j10574209483127_1_alg».proof.Proof.Gen.KernelIdeal.Frame
import Idealize.ShloMosaic.Lib.StableHlo.Run
import Idealize.ShloMosaic.PureOps.Ideal

set_option maxRecDepth 16384

noncomputable section

namespace Cert.Gcn.KeepArgs

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem st_arg5_2 (c : Dev nD) : W2 m ρ c (Proc.devRef .tc main_arg5) = W1 m ρ c (Proc.devRef .tc main_arg5) :=
  W2_of_ne m ρ c main_arg5 (by decide)
theorem keep_arg5_2 (c : Dev nD) : W2 m ρ c (Proc.devRef .tc main_arg5) = W1 m ρ c (Proc.devRef .tc main_arg5) :=
  st_arg5_2 m ρ c

theorem st_arg6_2 (c : Dev nD) : W2 m ρ c (Proc.devRef .tc main_arg6) = W1 m ρ c (Proc.devRef .tc main_arg6) :=
  W2_of_ne m ρ c main_arg6 (by decide)
theorem keep_arg6_2 (c : Dev nD) : W2 m ρ c (Proc.devRef .tc main_arg6) = W1 m ρ c (Proc.devRef .tc main_arg6) :=
  st_arg6_2 m ρ c

theorem st_arg7_2 (c : Dev nD) : W2 m ρ c (Proc.devRef .tc main_arg7) = W1 m ρ c (Proc.devRef .tc main_arg7) :=
  W2_of_ne m ρ c main_arg7 (by decide)
theorem keep_arg7_2 (c : Dev nD) : W2 m ρ c (Proc.devRef .tc main_arg7) = W1 m ρ c (Proc.devRef .tc main_arg7) :=
  st_arg7_2 m ρ c

theorem st_arg7_3 (c : Dev nD) : W3 m ρ c (Proc.devRef .tc main_arg7) = W2 m ρ c (Proc.devRef .tc main_arg7) := by
  show StableHlo.after hostOps1 (W2 m ρ c) (Proc.devRef .tc main_arg7) = _
  generalize W2 m ρ c = Wv
  after_results_simp
theorem keep_arg7_3 (c : Dev nD) : W3 m ρ c (Proc.devRef .tc main_arg7) = W1 m ρ c (Proc.devRef .tc main_arg7) :=
  (st_arg7_3 m ρ c).trans (keep_arg7_2 m ρ c)

theorem st_arg7_4 (c : Dev nD) : W4 m ρ c (Proc.devRef .tc main_arg7) = W3 m ρ c (Proc.devRef .tc main_arg7) :=
  W4_of_ne m ρ c main_arg7 (by decide)
theorem keep_arg7_4 (c : Dev nD) : W4 m ρ c (Proc.devRef .tc main_arg7) = W1 m ρ c (Proc.devRef .tc main_arg7) :=
  (st_arg7_4 m ρ c).trans (keep_arg7_3 m ρ c)

theorem st_arg8_2 (c : Dev nD) : W2 m ρ c (Proc.devRef .tc main_arg8) = W1 m ρ c (Proc.devRef .tc main_arg8) :=
  W2_of_ne m ρ c main_arg8 (by decide)
theorem keep_arg8_2 (c : Dev nD) : W2 m ρ c (Proc.devRef .tc main_arg8) = W1 m ρ c (Proc.devRef .tc main_arg8) :=
  st_arg8_2 m ρ c

theorem st_arg8_3 (c : Dev nD) : W3 m ρ c (Proc.devRef .tc main_arg8) = W2 m ρ c (Proc.devRef .tc main_arg8) := by
  show StableHlo.after hostOps1 (W2 m ρ c) (Proc.devRef .tc main_arg8) = _
  generalize W2 m ρ c = Wv
  after_results_simp
theorem keep_arg8_3 (c : Dev nD) : W3 m ρ c (Proc.devRef .tc main_arg8) = W1 m ρ c (Proc.devRef .tc main_arg8) :=
  (st_arg8_3 m ρ c).trans (keep_arg8_2 m ρ c)

theorem st_arg8_4 (c : Dev nD) : W4 m ρ c (Proc.devRef .tc main_arg8) = W3 m ρ c (Proc.devRef .tc main_arg8) :=
  W4_of_ne m ρ c main_arg8 (by decide)
theorem keep_arg8_4 (c : Dev nD) : W4 m ρ c (Proc.devRef .tc main_arg8) = W1 m ρ c (Proc.devRef .tc main_arg8) :=
  (st_arg8_4 m ρ c).trans (keep_arg8_3 m ρ c)

theorem st_arg9_2 (c : Dev nD) : W2 m ρ c (Proc.devRef .tc main_arg9) = W1 m ρ c (Proc.devRef .tc main_arg9) :=
  W2_of_ne m ρ c main_arg9 (by decide)
theorem keep_arg9_2 (c : Dev nD) : W2 m ρ c (Proc.devRef .tc main_arg9) = W1 m ρ c (Proc.devRef .tc main_arg9) :=
  st_arg9_2 m ρ c

theorem st_arg9_3 (c : Dev nD) : W3 m ρ c (Proc.devRef .tc main_arg9) = W2 m ρ c (Proc.devRef .tc main_arg9) := by
  show StableHlo.after hostOps1 (W2 m ρ c) (Proc.devRef .tc main_arg9) = _
  generalize W2 m ρ c = Wv
  after_results_simp
theorem keep_arg9_3 (c : Dev nD) : W3 m ρ c (Proc.devRef .tc main_arg9) = W1 m ρ c (Proc.devRef .tc main_arg9) :=
  (st_arg9_3 m ρ c).trans (keep_arg9_2 m ρ c)

theorem st_arg9_4 (c : Dev nD) : W4 m ρ c (Proc.devRef .tc main_arg9) = W3 m ρ c (Proc.devRef .tc main_arg9) :=
  W4_of_ne m ρ c main_arg9 (by decide)
theorem keep_arg9_4 (c : Dev nD) : W4 m ρ c (Proc.devRef .tc main_arg9) = W1 m ρ c (Proc.devRef .tc main_arg9) :=
  (st_arg9_4 m ρ c).trans (keep_arg9_3 m ρ c)

theorem st_arg9_5 (c : Dev nD) : W5 m ρ c (Proc.devRef .tc main_arg9) = W4 m ρ c (Proc.devRef .tc main_arg9) := by
  show StableHlo.after hostOps2 (W4 m ρ c) (Proc.devRef .tc main_arg9) = _
  generalize W4 m ρ c = Wv
  after_results_simp
theorem keep_arg9_5 (c : Dev nD) : W5 m ρ c (Proc.devRef .tc main_arg9) = W1 m ρ c (Proc.devRef .tc main_arg9) :=
  (st_arg9_5 m ρ c).trans (keep_arg9_4 m ρ c)

theorem st_arg9_6 (c : Dev nD) : W6 m ρ c (Proc.devRef .tc main_arg9) = W5 m ρ c (Proc.devRef .tc main_arg9) :=
  W6_of_ne m ρ c main_arg9 (by decide)
theorem keep_arg9_6 (c : Dev nD) : W6 m ρ c (Proc.devRef .tc main_arg9) = W1 m ρ c (Proc.devRef .tc main_arg9) :=
  (st_arg9_6 m ρ c).trans (keep_arg9_5 m ρ c)

theorem st_arg10_2 (c : Dev nD) : W2 m ρ c (Proc.devRef .tc main_arg10) = W1 m ρ c (Proc.devRef .tc main_arg10) :=
  W2_of_ne m ρ c main_arg10 (by decide)
theorem keep_arg10_2 (c : Dev nD) : W2 m ρ c (Proc.devRef .tc main_arg10) = W1 m ρ c (Proc.devRef .tc main_arg10) :=
  st_arg10_2 m ρ c

theorem st_arg10_3 (c : Dev nD) : W3 m ρ c (Proc.devRef .tc main_arg10) = W2 m ρ c (Proc.devRef .tc main_arg10) := by
  show StableHlo.after hostOps1 (W2 m ρ c) (Proc.devRef .tc main_arg10) = _
  generalize W2 m ρ c = Wv
  after_results_simp
theorem keep_arg10_3 (c : Dev nD) : W3 m ρ c (Proc.devRef .tc main_arg10) = W1 m ρ c (Proc.devRef .tc main_arg10) :=
  (st_arg10_3 m ρ c).trans (keep_arg10_2 m ρ c)

theorem st_arg10_4 (c : Dev nD) : W4 m ρ c (Proc.devRef .tc main_arg10) = W3 m ρ c (Proc.devRef .tc main_arg10) :=
  W4_of_ne m ρ c main_arg10 (by decide)
theorem keep_arg10_4 (c : Dev nD) : W4 m ρ c (Proc.devRef .tc main_arg10) = W1 m ρ c (Proc.devRef .tc main_arg10) :=
  (st_arg10_4 m ρ c).trans (keep_arg10_3 m ρ c)

theorem st_arg10_5 (c : Dev nD) : W5 m ρ c (Proc.devRef .tc main_arg10) = W4 m ρ c (Proc.devRef .tc main_arg10) := by
  show StableHlo.after hostOps2 (W4 m ρ c) (Proc.devRef .tc main_arg10) = _
  generalize W4 m ρ c = Wv
  after_results_simp
theorem keep_arg10_5 (c : Dev nD) : W5 m ρ c (Proc.devRef .tc main_arg10) = W1 m ρ c (Proc.devRef .tc main_arg10) :=
  (st_arg10_5 m ρ c).trans (keep_arg10_4 m ρ c)

theorem st_arg10_6 (c : Dev nD) : W6 m ρ c (Proc.devRef .tc main_arg10) = W5 m ρ c (Proc.devRef .tc main_arg10) :=
  W6_of_ne m ρ c main_arg10 (by decide)
theorem keep_arg10_6 (c : Dev nD) : W6 m ρ c (Proc.devRef .tc main_arg10) = W1 m ρ c (Proc.devRef .tc main_arg10) :=
  (st_arg10_6 m ρ c).trans (keep_arg10_5 m ρ c)

theorem st_arg11_2 (c : Dev nD) : W2 m ρ c (Proc.devRef .tc main_arg11) = W1 m ρ c (Proc.devRef .tc main_arg11) :=
  W2_of_ne m ρ c main_arg11 (by decide)
theorem keep_arg11_2 (c : Dev nD) : W2 m ρ c (Proc.devRef .tc main_arg11) = W1 m ρ c (Proc.devRef .tc main_arg11) :=
  st_arg11_2 m ρ c

theorem st_arg11_3 (c : Dev nD) : W3 m ρ c (Proc.devRef .tc main_arg11) = W2 m ρ c (Proc.devRef .tc main_arg11) := by
  show StableHlo.after hostOps1 (W2 m ρ c) (Proc.devRef .tc main_arg11) = _
  generalize W2 m ρ c = Wv
  after_results_simp
theorem keep_arg11_3 (c : Dev nD) : W3 m ρ c (Proc.devRef .tc main_arg11) = W1 m ρ c (Proc.devRef .tc main_arg11) :=
  (st_arg11_3 m ρ c).trans (keep_arg11_2 m ρ c)

theorem st_arg11_4 (c : Dev nD) : W4 m ρ c (Proc.devRef .tc main_arg11) = W3 m ρ c (Proc.devRef .tc main_arg11) :=
  W4_of_ne m ρ c main_arg11 (by decide)
theorem keep_arg11_4 (c : Dev nD) : W4 m ρ c (Proc.devRef .tc main_arg11) = W1 m ρ c (Proc.devRef .tc main_arg11) :=
  (st_arg11_4 m ρ c).trans (keep_arg11_3 m ρ c)

theorem st_arg11_5 (c : Dev nD) : W5 m ρ c (Proc.devRef .tc main_arg11) = W4 m ρ c (Proc.devRef .tc main_arg11) := by
  show StableHlo.after hostOps2 (W4 m ρ c) (Proc.devRef .tc main_arg11) = _
  generalize W4 m ρ c = Wv
  after_results_simp
theorem keep_arg11_5 (c : Dev nD) : W5 m ρ c (Proc.devRef .tc main_arg11) = W1 m ρ c (Proc.devRef .tc main_arg11) :=
  (st_arg11_5 m ρ c).trans (keep_arg11_4 m ρ c)

theorem st_arg11_6 (c : Dev nD) : W6 m ρ c (Proc.devRef .tc main_arg11) = W5 m ρ c (Proc.devRef .tc main_arg11) :=
  W6_of_ne m ρ c main_arg11 (by decide)
theorem keep_arg11_6 (c : Dev nD) : W6 m ρ c (Proc.devRef .tc main_arg11) = W1 m ρ c (Proc.devRef .tc main_arg11) :=
  (st_arg11_6 m ρ c).trans (keep_arg11_5 m ρ c)

theorem st_arg11_7 (c : Dev nD) : W7 m ρ c (Proc.devRef .tc main_arg11) = W6 m ρ c (Proc.devRef .tc main_arg11) := by
  show StableHlo.after hostOps3 (W6 m ρ c) (Proc.devRef .tc main_arg11) = _
  generalize W6 m ρ c = Wv
  after_results_simp
theorem keep_arg11_7 (c : Dev nD) : W7 m ρ c (Proc.devRef .tc main_arg11) = W1 m ρ c (Proc.devRef .tc main_arg11) :=
  (st_arg11_7 m ρ c).trans (keep_arg11_6 m ρ c)

theorem st_arg11_8 (c : Dev nD) : W8 m ρ c (Proc.devRef .tc main_arg11) = W7 m ρ c (Proc.devRef .tc main_arg11) :=
  W8_of_ne m ρ c main_arg11 (by decide)
theorem keep_arg11_8 (c : Dev nD) : W8 m ρ c (Proc.devRef .tc main_arg11) = W1 m ρ c (Proc.devRef .tc main_arg11) :=
  (st_arg11_8 m ρ c).trans (keep_arg11_7 m ρ c)

theorem st_arg12_2 (c : Dev nD) : W2 m ρ c (Proc.devRef .tc main_arg12) = W1 m ρ c (Proc.devRef .tc main_arg12) :=
  W2_of_ne m ρ c main_arg12 (by decide)
theorem keep_arg12_2 (c : Dev nD) : W2 m ρ c (Proc.devRef .tc main_arg12) = W1 m ρ c (Proc.devRef .tc main_arg12) :=
  st_arg12_2 m ρ c

theorem st_arg12_3 (c : Dev nD) : W3 m ρ c (Proc.devRef .tc main_arg12) = W2 m ρ c (Proc.devRef .tc main_arg12) := by
  show StableHlo.after hostOps1 (W2 m ρ c) (Proc.devRef .tc main_arg12) = _
  generalize W2 m ρ c = Wv
  after_results_simp
theorem keep_arg12_3 (c : Dev nD) : W3 m ρ c (Proc.devRef .tc main_arg12) = W1 m ρ c (Proc.devRef .tc main_arg12) :=
  (st_arg12_3 m ρ c).trans (keep_arg12_2 m ρ c)

theorem st_arg12_4 (c : Dev nD) : W4 m ρ c (Proc.devRef .tc main_arg12) = W3 m ρ c (Proc.devRef .tc main_arg12) :=
  W4_of_ne m ρ c main_arg12 (by decide)
theorem keep_arg12_4 (c : Dev nD) : W4 m ρ c (Proc.devRef .tc main_arg12) = W1 m ρ c (Proc.devRef .tc main_arg12) :=
  (st_arg12_4 m ρ c).trans (keep_arg12_3 m ρ c)

theorem st_arg12_5 (c : Dev nD) : W5 m ρ c (Proc.devRef .tc main_arg12) = W4 m ρ c (Proc.devRef .tc main_arg12) := by
  show StableHlo.after hostOps2 (W4 m ρ c) (Proc.devRef .tc main_arg12) = _
  generalize W4 m ρ c = Wv
  after_results_simp
theorem keep_arg12_5 (c : Dev nD) : W5 m ρ c (Proc.devRef .tc main_arg12) = W1 m ρ c (Proc.devRef .tc main_arg12) :=
  (st_arg12_5 m ρ c).trans (keep_arg12_4 m ρ c)

theorem st_arg12_6 (c : Dev nD) : W6 m ρ c (Proc.devRef .tc main_arg12) = W5 m ρ c (Proc.devRef .tc main_arg12) :=
  W6_of_ne m ρ c main_arg12 (by decide)
theorem keep_arg12_6 (c : Dev nD) : W6 m ρ c (Proc.devRef .tc main_arg12) = W1 m ρ c (Proc.devRef .tc main_arg12) :=
  (st_arg12_6 m ρ c).trans (keep_arg12_5 m ρ c)

theorem st_arg12_7 (c : Dev nD) : W7 m ρ c (Proc.devRef .tc main_arg12) = W6 m ρ c (Proc.devRef .tc main_arg12) := by
  show StableHlo.after hostOps3 (W6 m ρ c) (Proc.devRef .tc main_arg12) = _
  generalize W6 m ρ c = Wv
  after_results_simp
theorem keep_arg12_7 (c : Dev nD) : W7 m ρ c (Proc.devRef .tc main_arg12) = W1 m ρ c (Proc.devRef .tc main_arg12) :=
  (st_arg12_7 m ρ c).trans (keep_arg12_6 m ρ c)

theorem st_arg12_8 (c : Dev nD) : W8 m ρ c (Proc.devRef .tc main_arg12) = W7 m ρ c (Proc.devRef .tc main_arg12) :=
  W8_of_ne m ρ c main_arg12 (by decide)
theorem keep_arg12_8 (c : Dev nD) : W8 m ρ c (Proc.devRef .tc main_arg12) = W1 m ρ c (Proc.devRef .tc main_arg12) :=
  (st_arg12_8 m ρ c).trans (keep_arg12_7 m ρ c)

theorem st_arg13_2 (c : Dev nD) : W2 m ρ c (Proc.devRef .tc main_arg13) = W1 m ρ c (Proc.devRef .tc main_arg13) :=
  W2_of_ne m ρ c main_arg13 (by decide)
theorem keep_arg13_2 (c : Dev nD) : W2 m ρ c (Proc.devRef .tc main_arg13) = W1 m ρ c (Proc.devRef .tc main_arg13) :=
  st_arg13_2 m ρ c

theorem st_arg13_3 (c : Dev nD) : W3 m ρ c (Proc.devRef .tc main_arg13) = W2 m ρ c (Proc.devRef .tc main_arg13) := by
  show StableHlo.after hostOps1 (W2 m ρ c) (Proc.devRef .tc main_arg13) = _
  generalize W2 m ρ c = Wv
  after_results_simp
theorem keep_arg13_3 (c : Dev nD) : W3 m ρ c (Proc.devRef .tc main_arg13) = W1 m ρ c (Proc.devRef .tc main_arg13) :=
  (st_arg13_3 m ρ c).trans (keep_arg13_2 m ρ c)

theorem st_arg13_4 (c : Dev nD) : W4 m ρ c (Proc.devRef .tc main_arg13) = W3 m ρ c (Proc.devRef .tc main_arg13) :=
  W4_of_ne m ρ c main_arg13 (by decide)
theorem keep_arg13_4 (c : Dev nD) : W4 m ρ c (Proc.devRef .tc main_arg13) = W1 m ρ c (Proc.devRef .tc main_arg13) :=
  (st_arg13_4 m ρ c).trans (keep_arg13_3 m ρ c)

theorem st_arg13_5 (c : Dev nD) : W5 m ρ c (Proc.devRef .tc main_arg13) = W4 m ρ c (Proc.devRef .tc main_arg13) := by
  show StableHlo.after hostOps2 (W4 m ρ c) (Proc.devRef .tc main_arg13) = _
  generalize W4 m ρ c = Wv
  after_results_simp
theorem keep_arg13_5 (c : Dev nD) : W5 m ρ c (Proc.devRef .tc main_arg13) = W1 m ρ c (Proc.devRef .tc main_arg13) :=
  (st_arg13_5 m ρ c).trans (keep_arg13_4 m ρ c)

theorem st_arg13_6 (c : Dev nD) : W6 m ρ c (Proc.devRef .tc main_arg13) = W5 m ρ c (Proc.devRef .tc main_arg13) :=
  W6_of_ne m ρ c main_arg13 (by decide)
theorem keep_arg13_6 (c : Dev nD) : W6 m ρ c (Proc.devRef .tc main_arg13) = W1 m ρ c (Proc.devRef .tc main_arg13) :=
  (st_arg13_6 m ρ c).trans (keep_arg13_5 m ρ c)

theorem st_arg13_7 (c : Dev nD) : W7 m ρ c (Proc.devRef .tc main_arg13) = W6 m ρ c (Proc.devRef .tc main_arg13) := by
  show StableHlo.after hostOps3 (W6 m ρ c) (Proc.devRef .tc main_arg13) = _
  generalize W6 m ρ c = Wv
  after_results_simp
theorem keep_arg13_7 (c : Dev nD) : W7 m ρ c (Proc.devRef .tc main_arg13) = W1 m ρ c (Proc.devRef .tc main_arg13) :=
  (st_arg13_7 m ρ c).trans (keep_arg13_6 m ρ c)

theorem st_arg13_8 (c : Dev nD) : W8 m ρ c (Proc.devRef .tc main_arg13) = W7 m ρ c (Proc.devRef .tc main_arg13) :=
  W8_of_ne m ρ c main_arg13 (by decide)
theorem keep_arg13_8 (c : Dev nD) : W8 m ρ c (Proc.devRef .tc main_arg13) = W1 m ρ c (Proc.devRef .tc main_arg13) :=
  (st_arg13_8 m ρ c).trans (keep_arg13_7 m ρ c)

theorem st_arg13_9 (c : Dev nD) : W9 m ρ c (Proc.devRef .tc main_arg13) = W8 m ρ c (Proc.devRef .tc main_arg13) := by
  show StableHlo.after hostOps4 (W8 m ρ c) (Proc.devRef .tc main_arg13) = _
  generalize W8 m ρ c = Wv
  after_results_simp
theorem keep_arg13_9 (c : Dev nD) : W9 m ρ c (Proc.devRef .tc main_arg13) = W1 m ρ c (Proc.devRef .tc main_arg13) :=
  (st_arg13_9 m ρ c).trans (keep_arg13_8 m ρ c)

theorem st_arg13_10 (c : Dev nD) : W10 m ρ c (Proc.devRef .tc main_arg13) = W9 m ρ c (Proc.devRef .tc main_arg13) :=
  W10_of_ne m ρ c main_arg13 (by decide)
theorem keep_arg13_10 (c : Dev nD) : W10 m ρ c (Proc.devRef .tc main_arg13) = W1 m ρ c (Proc.devRef .tc main_arg13) :=
  (st_arg13_10 m ρ c).trans (keep_arg13_9 m ρ c)

theorem st_arg14_2 (c : Dev nD) : W2 m ρ c (Proc.devRef .tc main_arg14) = W1 m ρ c (Proc.devRef .tc main_arg14) :=
  W2_of_ne m ρ c main_arg14 (by decide)
theorem keep_arg14_2 (c : Dev nD) : W2 m ρ c (Proc.devRef .tc main_arg14) = W1 m ρ c (Proc.devRef .tc main_arg14) :=
  st_arg14_2 m ρ c

theorem st_arg14_3 (c : Dev nD) : W3 m ρ c (Proc.devRef .tc main_arg14) = W2 m ρ c (Proc.devRef .tc main_arg14) := by
  show StableHlo.after hostOps1 (W2 m ρ c) (Proc.devRef .tc main_arg14) = _
  generalize W2 m ρ c = Wv
  after_results_simp
theorem keep_arg14_3 (c : Dev nD) : W3 m ρ c (Proc.devRef .tc main_arg14) = W1 m ρ c (Proc.devRef .tc main_arg14) :=
  (st_arg14_3 m ρ c).trans (keep_arg14_2 m ρ c)

theorem st_arg14_4 (c : Dev nD) : W4 m ρ c (Proc.devRef .tc main_arg14) = W3 m ρ c (Proc.devRef .tc main_arg14) :=
  W4_of_ne m ρ c main_arg14 (by decide)
theorem keep_arg14_4 (c : Dev nD) : W4 m ρ c (Proc.devRef .tc main_arg14) = W1 m ρ c (Proc.devRef .tc main_arg14) :=
  (st_arg14_4 m ρ c).trans (keep_arg14_3 m ρ c)

theorem st_arg14_5 (c : Dev nD) : W5 m ρ c (Proc.devRef .tc main_arg14) = W4 m ρ c (Proc.devRef .tc main_arg14) := by
  show StableHlo.after hostOps2 (W4 m ρ c) (Proc.devRef .tc main_arg14) = _
  generalize W4 m ρ c = Wv
  after_results_simp
theorem keep_arg14_5 (c : Dev nD) : W5 m ρ c (Proc.devRef .tc main_arg14) = W1 m ρ c (Proc.devRef .tc main_arg14) :=
  (st_arg14_5 m ρ c).trans (keep_arg14_4 m ρ c)

theorem st_arg14_6 (c : Dev nD) : W6 m ρ c (Proc.devRef .tc main_arg14) = W5 m ρ c (Proc.devRef .tc main_arg14) :=
  W6_of_ne m ρ c main_arg14 (by decide)
theorem keep_arg14_6 (c : Dev nD) : W6 m ρ c (Proc.devRef .tc main_arg14) = W1 m ρ c (Proc.devRef .tc main_arg14) :=
  (st_arg14_6 m ρ c).trans (keep_arg14_5 m ρ c)

theorem st_arg14_7 (c : Dev nD) : W7 m ρ c (Proc.devRef .tc main_arg14) = W6 m ρ c (Proc.devRef .tc main_arg14) := by
  show StableHlo.after hostOps3 (W6 m ρ c) (Proc.devRef .tc main_arg14) = _
  generalize W6 m ρ c = Wv
  after_results_simp
theorem keep_arg14_7 (c : Dev nD) : W7 m ρ c (Proc.devRef .tc main_arg14) = W1 m ρ c (Proc.devRef .tc main_arg14) :=
  (st_arg14_7 m ρ c).trans (keep_arg14_6 m ρ c)

theorem st_arg14_8 (c : Dev nD) : W8 m ρ c (Proc.devRef .tc main_arg14) = W7 m ρ c (Proc.devRef .tc main_arg14) :=
  W8_of_ne m ρ c main_arg14 (by decide)
theorem keep_arg14_8 (c : Dev nD) : W8 m ρ c (Proc.devRef .tc main_arg14) = W1 m ρ c (Proc.devRef .tc main_arg14) :=
  (st_arg14_8 m ρ c).trans (keep_arg14_7 m ρ c)

theorem st_arg14_9 (c : Dev nD) : W9 m ρ c (Proc.devRef .tc main_arg14) = W8 m ρ c (Proc.devRef .tc main_arg14) := by
  show StableHlo.after hostOps4 (W8 m ρ c) (Proc.devRef .tc main_arg14) = _
  generalize W8 m ρ c = Wv
  after_results_simp
theorem keep_arg14_9 (c : Dev nD) : W9 m ρ c (Proc.devRef .tc main_arg14) = W1 m ρ c (Proc.devRef .tc main_arg14) :=
  (st_arg14_9 m ρ c).trans (keep_arg14_8 m ρ c)

theorem st_arg14_10 (c : Dev nD) : W10 m ρ c (Proc.devRef .tc main_arg14) = W9 m ρ c (Proc.devRef .tc main_arg14) :=
  W10_of_ne m ρ c main_arg14 (by decide)
theorem keep_arg14_10 (c : Dev nD) : W10 m ρ c (Proc.devRef .tc main_arg14) = W1 m ρ c (Proc.devRef .tc main_arg14) :=
  (st_arg14_10 m ρ c).trans (keep_arg14_9 m ρ c)

end Cert.Gcn.KeepArgs

end
-- ==== Proof.KeepResults.lean ====
/-
  A region's output is kept to the end.

  Each region's output buffer is read by the next stretch and never written again: the later stretches write other
  buffers, and the later regions have other arrays. So at the last boundary it holds what its region left in it.
-/
import proofs.«138479_j10574209483127_1_alg».proof.Proof.Gen.KernelIdeal.Frame
import Idealize.ShloMosaic.Lib.StableHlo.Run
import Idealize.ShloMosaic.PureOps.Ideal

set_option maxRecDepth 16384

noncomputable section

namespace Cert.Gcn.KeepResults

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem st_v28_3 (c : Dev nD) : W3 m ρ c (Proc.devRef .tc main_v28) = W2 m ρ c (Proc.devRef .tc main_v28) := by
  show StableHlo.after hostOps1 (W2 m ρ c) (Proc.devRef .tc main_v28) = _
  generalize W2 m ρ c = Wv
  after_results_simp

theorem st_v28_4 (c : Dev nD) : W4 m ρ c (Proc.devRef .tc main_v28) = W3 m ρ c (Proc.devRef .tc main_v28) :=
  W4_of_ne m ρ c main_v28 (by decide)

theorem st_v28_5 (c : Dev nD) : W5 m ρ c (Proc.devRef .tc main_v28) = W4 m ρ c (Proc.devRef .tc main_v28) := by
  show StableHlo.after hostOps2 (W4 m ρ c) (Proc.devRef .tc main_v28) = _
  generalize W4 m ρ c = Wv
  after_results_simp

theorem st_v28_6 (c : Dev nD) : W6 m ρ c (Proc.devRef .tc main_v28) = W5 m ρ c (Proc.devRef .tc main_v28) :=
  W6_of_ne m ρ c main_v28 (by decide)

theorem st_v28_7 (c : Dev nD) : W7 m ρ c (Proc.devRef .tc main_v28) = W6 m ρ c (Proc.devRef .tc main_v28) := by
  show StableHlo.after hostOps3 (W6 m ρ c) (Proc.devRef .tc main_v28) = _
  generalize W6 m ρ c = Wv
  after_results_simp

theorem st_v28_8 (c : Dev nD) : W8 m ρ c (Proc.devRef .tc main_v28) = W7 m ρ c (Proc.devRef .tc main_v28) :=
  W8_of_ne m ρ c main_v28 (by decide)

theorem st_v28_9 (c : Dev nD) : W9 m ρ c (Proc.devRef .tc main_v28) = W8 m ρ c (Proc.devRef .tc main_v28) := by
  show StableHlo.after hostOps4 (W8 m ρ c) (Proc.devRef .tc main_v28) = _
  generalize W8 m ρ c = Wv
  after_results_simp

theorem st_v28_10 (c : Dev nD) : W10 m ρ c (Proc.devRef .tc main_v28) = W9 m ρ c (Proc.devRef .tc main_v28) :=
  W10_of_ne m ρ c main_v28 (by decide)

theorem st_v28_11 (c : Dev nD) : W11 m ρ c (Proc.devRef .tc main_v28) = W10 m ρ c (Proc.devRef .tc main_v28) := by
  show StableHlo.after hostOps5 (W10 m ρ c) (Proc.devRef .tc main_v28) = _
  generalize W10 m ρ c = Wv
  after_results_simp

theorem st_v28_12 (c : Dev nD) : W12 m ρ c (Proc.devRef .tc main_v28) = W11 m ρ c (Proc.devRef .tc main_v28) :=
  W12_of_ne m ρ c main_v28 (by decide)

/-- Region 0's output at the last boundary is what the region left. -/
theorem res_v28 (c : Dev nD) : W12 m ρ c (Proc.devRef .tc main_v28) = W2 m ρ c (Proc.devRef .tc main_v28) :=
  (((((((((st_v28_12 m ρ c).trans (st_v28_11 m ρ c)).trans (st_v28_10 m ρ c)).trans (st_v28_9 m ρ c)).trans (st_v28_8 m ρ c)).trans (st_v28_7 m ρ c)).trans (st_v28_6 m ρ c)).trans (st_v28_5 m ρ c)).trans (st_v28_4 m ρ c)).trans (st_v28_3 m ρ c)

theorem st_v44_5 (c : Dev nD) : W5 m ρ c (Proc.devRef .tc main_v44) = W4 m ρ c (Proc.devRef .tc main_v44) := by
  show StableHlo.after hostOps2 (W4 m ρ c) (Proc.devRef .tc main_v44) = _
  generalize W4 m ρ c = Wv
  after_results_simp

theorem st_v44_6 (c : Dev nD) : W6 m ρ c (Proc.devRef .tc main_v44) = W5 m ρ c (Proc.devRef .tc main_v44) :=
  W6_of_ne m ρ c main_v44 (by decide)

theorem st_v44_7 (c : Dev nD) : W7 m ρ c (Proc.devRef .tc main_v44) = W6 m ρ c (Proc.devRef .tc main_v44) := by
  show StableHlo.after hostOps3 (W6 m ρ c) (Proc.devRef .tc main_v44) = _
  generalize W6 m ρ c = Wv
  after_results_simp

theorem st_v44_8 (c : Dev nD) : W8 m ρ c (Proc.devRef .tc main_v44) = W7 m ρ c (Proc.devRef .tc main_v44) :=
  W8_of_ne m ρ c main_v44 (by decide)

theorem st_v44_9 (c : Dev nD) : W9 m ρ c (Proc.devRef .tc main_v44) = W8 m ρ c (Proc.devRef .tc main_v44) := by
  show StableHlo.after hostOps4 (W8 m ρ c) (Proc.devRef .tc main_v44) = _
  generalize W8 m ρ c = Wv
  after_results_simp

theorem st_v44_10 (c : Dev nD) : W10 m ρ c (Proc.devRef .tc main_v44) = W9 m ρ c (Proc.devRef .tc main_v44) :=
  W10_of_ne m ρ c main_v44 (by decide)

theorem st_v44_11 (c : Dev nD) : W11 m ρ c (Proc.devRef .tc main_v44) = W10 m ρ c (Proc.devRef .tc main_v44) := by
  show StableHlo.after hostOps5 (W10 m ρ c) (Proc.devRef .tc main_v44) = _
  generalize W10 m ρ c = Wv
  after_results_simp

theorem st_v44_12 (c : Dev nD) : W12 m ρ c (Proc.devRef .tc main_v44) = W11 m ρ c (Proc.devRef .tc main_v44) :=
  W12_of_ne m ρ c main_v44 (by decide)

/-- Region 1's output at the last boundary is what the region left. -/
theorem res_v44 (c : Dev nD) : W12 m ρ c (Proc.devRef .tc main_v44) = W4 m ρ c (Proc.devRef .tc main_v44) :=
  (((((((st_v44_12 m ρ c).trans (st_v44_11 m ρ c)).trans (st_v44_10 m ρ c)).trans (st_v44_9 m ρ c)).trans (st_v44_8 m ρ c)).trans (st_v44_7 m ρ c)).trans (st_v44_6 m ρ c)).trans (st_v44_5 m ρ c)

theorem st_v60_7 (c : Dev nD) : W7 m ρ c (Proc.devRef .tc main_v60) = W6 m ρ c (Proc.devRef .tc main_v60) := by
  show StableHlo.after hostOps3 (W6 m ρ c) (Proc.devRef .tc main_v60) = _
  generalize W6 m ρ c = Wv
  after_results_simp

theorem st_v60_8 (c : Dev nD) : W8 m ρ c (Proc.devRef .tc main_v60) = W7 m ρ c (Proc.devRef .tc main_v60) :=
  W8_of_ne m ρ c main_v60 (by decide)

theorem st_v60_9 (c : Dev nD) : W9 m ρ c (Proc.devRef .tc main_v60) = W8 m ρ c (Proc.devRef .tc main_v60) := by
  show StableHlo.after hostOps4 (W8 m ρ c) (Proc.devRef .tc main_v60) = _
  generalize W8 m ρ c = Wv
  after_results_simp

theorem st_v60_10 (c : Dev nD) : W10 m ρ c (Proc.devRef .tc main_v60) = W9 m ρ c (Proc.devRef .tc main_v60) :=
  W10_of_ne m ρ c main_v60 (by decide)

theorem st_v60_11 (c : Dev nD) : W11 m ρ c (Proc.devRef .tc main_v60) = W10 m ρ c (Proc.devRef .tc main_v60) := by
  show StableHlo.after hostOps5 (W10 m ρ c) (Proc.devRef .tc main_v60) = _
  generalize W10 m ρ c = Wv
  after_results_simp

theorem st_v60_12 (c : Dev nD) : W12 m ρ c (Proc.devRef .tc main_v60) = W11 m ρ c (Proc.devRef .tc main_v60) :=
  W12_of_ne m ρ c main_v60 (by decide)

/-- Region 2's output at the last boundary is what the region left. -/
theorem res_v60 (c : Dev nD) : W12 m ρ c (Proc.devRef .tc main_v60) = W6 m ρ c (Proc.devRef .tc main_v60) :=
  (((((st_v60_12 m ρ c).trans (st_v60_11 m ρ c)).trans (st_v60_10 m ρ c)).trans (st_v60_9 m ρ c)).trans (st_v60_8 m ρ c)).trans (st_v60_7 m ρ c)

theorem st_v76_9 (c : Dev nD) : W9 m ρ c (Proc.devRef .tc main_v76) = W8 m ρ c (Proc.devRef .tc main_v76) := by
  show StableHlo.after hostOps4 (W8 m ρ c) (Proc.devRef .tc main_v76) = _
  generalize W8 m ρ c = Wv
  after_results_simp

theorem st_v76_10 (c : Dev nD) : W10 m ρ c (Proc.devRef .tc main_v76) = W9 m ρ c (Proc.devRef .tc main_v76) :=
  W10_of_ne m ρ c main_v76 (by decide)

theorem st_v76_11 (c : Dev nD) : W11 m ρ c (Proc.devRef .tc main_v76) = W10 m ρ c (Proc.devRef .tc main_v76) := by
  show StableHlo.after hostOps5 (W10 m ρ c) (Proc.devRef .tc main_v76) = _
  generalize W10 m ρ c = Wv
  after_results_simp

theorem st_v76_12 (c : Dev nD) : W12 m ρ c (Proc.devRef .tc main_v76) = W11 m ρ c (Proc.devRef .tc main_v76) :=
  W12_of_ne m ρ c main_v76 (by decide)

/-- Region 3's output at the last boundary is what the region left. -/
theorem res_v76 (c : Dev nD) : W12 m ρ c (Proc.devRef .tc main_v76) = W8 m ρ c (Proc.devRef .tc main_v76) :=
  (((st_v76_12 m ρ c).trans (st_v76_11 m ρ c)).trans (st_v76_10 m ρ c)).trans (st_v76_9 m ρ c)

theorem st_v92_11 (c : Dev nD) : W11 m ρ c (Proc.devRef .tc main_v92) = W10 m ρ c (Proc.devRef .tc main_v92) := by
  show StableHlo.after hostOps5 (W10 m ρ c) (Proc.devRef .tc main_v92) = _
  generalize W10 m ρ c = Wv
  after_results_simp

theorem st_v92_12 (c : Dev nD) : W12 m ρ c (Proc.devRef .tc main_v92) = W11 m ρ c (Proc.devRef .tc main_v92) :=
  W12_of_ne m ρ c main_v92 (by decide)

/-- Region 4's output at the last boundary is what the region left. -/
theorem res_v92 (c : Dev nD) : W12 m ρ c (Proc.devRef .tc main_v92) = W10 m ρ c (Proc.devRef .tc main_v92) :=
  (st_v92_12 m ρ c).trans (st_v92_11 m ρ c)

end Cert.Gcn.KeepResults

end
-- ==== Proof.KernelChain.lean ====
/-
  The idealized kernel's six outputs are the six layers' features.

  Walking the contents of the buffers through @main's twelve segments. Before the first region the host computes the two
  degree factors and the first aggregated features from the arguments. Each region leaves in its output the rectified
  projection (the plain projection in the last region) of the arrays it finds (`Region j`), which are: the aggregated
  features of the previous output, the destination factor reshaped to a column, the layer's weights, and its bias
  reshaped to a row. A reshaped column or row is the broadcast the reference uses, the factors and the arguments are
  kept from boundary to boundary, and the projection of aggregated features is the host's spelling of the layer
  (`hostRelu_arr`, `hostProj_arr`). So the output of region j is the features after layer j + 1, and stays that to
  the end.
-/
import proofs.«138479_j10574209483127_1_alg».proof.Proof.Region0
import proofs.«138479_j10574209483127_1_alg».proof.Proof.Region1
import proofs.«138479_j10574209483127_1_alg».proof.Proof.Region2
import proofs.«138479_j10574209483127_1_alg».proof.Proof.Region3
import proofs.«138479_j10574209483127_1_alg».proof.Proof.Region4
import proofs.«138479_j10574209483127_1_alg».proof.Proof.Region5
import proofs.«138479_j10574209483127_1_alg».proof.Proof.HostChain
import proofs.«138479_j10574209483127_1_alg».proof.Proof.Reshapes
import proofs.«138479_j10574209483127_1_alg».proof.Proof.KeepShared
import proofs.«138479_j10574209483127_1_alg».proof.Proof.KeepArgs
import proofs.«138479_j10574209483127_1_alg».proof.Proof.KeepResults

set_option maxRecDepth 16384

noncomputable section

namespace Cert.Gcn.Ker

open Cert.Gcn Cert.KernelIdeal Cert.KernelIdeal.Gen Cert.Gcn.KeepShared Cert.Gcn.KeepArgs Cert.Gcn.KeepResults
open Idealize.ShloMosaic Idealize.ShloMosaic.TcCoe Idealize.SL.Sem Idealize.ShloMosaic.StableHlo

/-- The arguments' launch contents on a core. -/
abbrev ka0 (m : (ℓ : Loc nD τ sig) → Buf (Elt Ideal) ℓ) (c : Dev nD) : Feats := m ((c : Thread nD τ).loc main_arg0)
abbrev ka1 (m : (ℓ : Loc nD τ sig) → Buf (Elt Ideal) ℓ) (c : Dev nD) : Edges := m ((c : Thread nD τ).loc main_arg1)
abbrev ka2 (m : (ℓ : Loc nD τ sig) → Buf (Elt Ideal) ℓ) (c : Dev nD) : Edges := m ((c : Thread nD τ).loc main_arg2)
abbrev ka3 (m : (ℓ : Loc nD τ sig) → Buf (Elt Ideal) ℓ) (c : Dev nD) : Weights := m ((c : Thread nD τ).loc main_arg3)
abbrev ka4 (m : (ℓ : Loc nD τ sig) → Buf (Elt Ideal) ℓ) (c : Dev nD) : Bias := m ((c : Thread nD τ).loc main_arg4)
abbrev ka5 (m : (ℓ : Loc nD τ sig) → Buf (Elt Ideal) ℓ) (c : Dev nD) : Weights := m ((c : Thread nD τ).loc main_arg5)
abbrev ka6 (m : (ℓ : Loc nD τ sig) → Buf (Elt Ideal) ℓ) (c : Dev nD) : Bias := m ((c : Thread nD τ).loc main_arg6)
abbrev ka7 (m : (ℓ : Loc nD τ sig) → Buf (Elt Ideal) ℓ) (c : Dev nD) : Weights := m ((c : Thread nD τ).loc main_arg7)
abbrev ka8 (m : (ℓ : Loc nD τ sig) → Buf (Elt Ideal) ℓ) (c : Dev nD) : Bias := m ((c : Thread nD τ).loc main_arg8)
abbrev ka9 (m : (ℓ : Loc nD τ sig) → Buf (Elt Ideal) ℓ) (c : Dev nD) : Weights := m ((c : Thread nD τ).loc main_arg9)
abbrev ka10 (m : (ℓ : Loc nD τ sig) → Buf (Elt Ideal) ℓ) (c : Dev nD) : Bias := m ((c : Thread nD τ).loc main_arg10)
abbrev ka11 (m : (ℓ : Loc nD τ sig) → Buf (Elt Ideal) ℓ) (c : Dev nD) : Weights := m ((c : Thread nD τ).loc main_arg11)
abbrev ka12 (m : (ℓ : Loc nD τ sig) → Buf (Elt Ideal) ℓ) (c : Dev nD) : Bias := m ((c : Thread nD τ).loc main_arg12)
abbrev ka13 (m : (ℓ : Loc nD τ sig) → Buf (Elt Ideal) ℓ) (c : Dev nD) : Weights := m ((c : Thread nD τ).loc main_arg13)
abbrev ka14 (m : (ℓ : Loc nD τ sig) → Buf (Elt Ideal) ℓ) (c : Dev nD) : Bias := m ((c : Thread nD τ).loc main_arg14)

variable (m : (ℓ : Loc nD τ sig) → Buf (Elt Ideal) ℓ) (ρ : Dev nD → PrngReg)

/-! ## Before the first region -/

theorem a1_eq (c : Dev nD) : W1 m ρ c (Proc.devRef .tc main_arg1) = ka1 m c := by
  show StableHlo.after hostOps0 (W0 m ρ c) (Proc.devRef .tc main_arg1) = _
  generalize hW : W0 m ρ c = Wv
  after_results_simp
  subst hW
  rfl
theorem a2_eq (c : Dev nD) : W1 m ρ c (Proc.devRef .tc main_arg2) = ka2 m c := by
  show StableHlo.after hostOps0 (W0 m ρ c) (Proc.devRef .tc main_arg2) = _
  generalize hW : W0 m ρ c = Wv
  after_results_simp
  subst hW
  rfl
theorem a3_eq (c : Dev nD) : W1 m ρ c (Proc.devRef .tc main_arg3) = ka3 m c := by
  show StableHlo.after hostOps0 (W0 m ρ c) (Proc.devRef .tc main_arg3) = _
  generalize hW : W0 m ρ c = Wv
  after_results_simp
  subst hW
  rfl
theorem a4_eq (c : Dev nD) : W1 m ρ c (Proc.devRef .tc main_arg4) = ka4 m c := by
  show StableHlo.after hostOps0 (W0 m ρ c) (Proc.devRef .tc main_arg4) = _
  generalize hW : W0 m ρ c = Wv
  after_results_simp
  subst hW
  rfl
theorem a5_eq (c : Dev nD) : W1 m ρ c (Proc.devRef .tc main_arg5) = ka5 m c := by
  show StableHlo.after hostOps0 (W0 m ρ c) (Proc.devRef .tc main_arg5) = _
  generalize hW : W0 m ρ c = Wv
  after_results_simp
  subst hW
  rfl
theorem a6_eq (c : Dev nD) : W1 m ρ c (Proc.devRef .tc main_arg6) = ka6 m c := by
  show StableHlo.after hostOps0 (W0 m ρ c) (Proc.devRef .tc main_arg6) = _
  generalize hW : W0 m ρ c = Wv
  after_results_simp
  subst hW
  rfl
theorem a7_eq (c : Dev nD) : W1 m ρ c (Proc.devRef .tc main_arg7) = ka7 m c := by
  show StableHlo.after hostOps0 (W0 m ρ c) (Proc.devRef .tc main_arg7) = _
  generalize hW : W0 m ρ c = Wv
  after_results_simp
  subst hW
  rfl
theorem a8_eq (c : Dev nD) : W1 m ρ c (Proc.devRef .tc main_arg8) = ka8 m c := by
  show StableHlo.after hostOps0 (W0 m ρ c) (Proc.devRef .tc main_arg8) = _
  generalize hW : W0 m ρ c = Wv
  after_results_simp
  subst hW
  rfl
theorem a9_eq (c : Dev nD) : W1 m ρ c (Proc.devRef .tc main_arg9) = ka9 m c := by
  show StableHlo.after hostOps0 (W0 m ρ c) (Proc.devRef .tc main_arg9) = _
  generalize hW : W0 m ρ c = Wv
  after_results_simp
  subst hW
  rfl
theorem a10_eq (c : Dev nD) : W1 m ρ c (Proc.devRef .tc main_arg10) = ka10 m c := by
  show StableHlo.after hostOps0 (W0 m ρ c) (Proc.devRef .tc main_arg10) = _
  generalize hW : W0 m ρ c = Wv
  after_results_simp
  subst hW
  rfl
theorem a11_eq (c : Dev nD) : W1 m ρ c (Proc.devRef .tc main_arg11) = ka11 m c := by
  show StableHlo.after hostOps0 (W0 m ρ c) (Proc.devRef .tc main_arg11) = _
  generalize hW : W0 m ρ c = Wv
  after_results_simp
  subst hW
  rfl
theorem a12_eq (c : Dev nD) : W1 m ρ c (Proc.devRef .tc main_arg12) = ka12 m c := by
  show StableHlo.after hostOps0 (W0 m ρ c) (Proc.devRef .tc main_arg12) = _
  generalize hW : W0 m ρ c = Wv
  after_results_simp
  subst hW
  rfl
theorem a13_eq (c : Dev nD) : W1 m ρ c (Proc.devRef .tc main_arg13) = ka13 m c := by
  show StableHlo.after hostOps0 (W0 m ρ c) (Proc.devRef .tc main_arg13) = _
  generalize hW : W0 m ρ c = Wv
  after_results_simp
  subst hW
  rfl
theorem a14_eq (c : Dev nD) : W1 m ρ c (Proc.devRef .tc main_arg14) = ka14 m c := by
  show StableHlo.after hostOps0 (W0 m ρ c) (Proc.devRef .tc main_arg14) = _
  generalize hW : W0 m ρ c = Wv
  after_results_simp
  subst hW
  rfl

/-- The source factor. -/
theorem v9_eq (c : Dev nD) : W1 m ρ c (Proc.devRef .tc main_v9) = degFactor (ka1 m c) := by
  show StableHlo.after hostOps0 (W0 m ρ c) (Proc.devRef .tc main_v9) = _
  generalize hW : W0 m ρ c = Wv
  after_results_simp
  subst hW
  rfl

/-- The destination factor. -/
theorem v12_eq (c : Dev nD) : W1 m ρ c (Proc.devRef .tc main_v12) = degFactor (ka2 m c) := by
  show StableHlo.after hostOps0 (W0 m ρ c) (Proc.devRef .tc main_v12) = _
  generalize hW : W0 m ρ c = Wv
  after_results_simp
  subst hW
  rfl

/-- The first aggregated features. -/
theorem agg0 (c : Dev nD) : W1 m ρ c (Proc.devRef .tc main_v25) = aggregate (ka0 m c) (degFactor (ka1 m c)) (ka1 m c) (ka2 m c) := by
  show StableHlo.after hostOps0 (W0 m ρ c) (Proc.devRef .tc main_v25) = _
  generalize hW : W0 m ρ c = Wv
  after_results_simp
  subst hW
  rfl

/-- The destination factor as a column. -/
theorem nd0 (c : Dev nD) : W1 m ρ c (Proc.devRef .tc main_v26) = asColumn (degFactor (ka2 m c)) := by
  show StableHlo.after hostOps0 (W0 m ρ c) (Proc.devRef .tc main_v26) = _
  generalize hW : W0 m ρ c = Wv
  after_results_simp
  subst hW
  exact column_reshape_eq_broadcast _ _ _

/-- The first bias as a row. -/
theorem bb0 (c : Dev nD) : W1 m ρ c (Proc.devRef .tc main_v27) = asRow (ka4 m c) := by
  show StableHlo.after hostOps0 (W0 m ρ c) (Proc.devRef .tc main_v27) = _
  generalize hW : W0 m ρ c = Wv
  after_results_simp
  subst hW
  exact row_reshape_eq_broadcast _ _ _

/-- Region 0's output: the features after the first layer. -/
theorem out0 (c : Dev nD) : W2 m ρ c (Proc.devRef .tc main_v28) = feat1 (ka0 m c) (ka1 m c) (ka2 m c) (ka3 m c) (ka4 m c) :=
  (W2_arr m ρ c 4).trans ((Region0.final (V1 m ρ) c).trans (by
    show reluArr (W1 m ρ c (Proc.devRef .tc main_v25)) (W1 m ρ c (Proc.devRef .tc main_v26)) (W1 m ρ c (Proc.devRef .tc main_arg3)) (W1 m ρ c (Proc.devRef .tc main_v27)) = _
    rw [agg0, nd0, a3_eq, bb0]
    exact (hostRelu_arr _ _ _ _).symm))

/-! ## Layer 2 -/

/-- The aggregated features entering region 1, from the previous output. -/
theorem agg1 (c : Dev nD) : W3 m ρ c (Proc.devRef .tc main_v41)
    = aggregate (W2 m ρ c (Proc.devRef .tc main_v28)) (W2 m ρ c (Proc.devRef .tc main_v9)) (W2 m ρ c (Proc.devRef .tc main_arg1)) (W2 m ρ c (Proc.devRef .tc main_arg2)) := by
  show StableHlo.after hostOps1 (W2 m ρ c) (Proc.devRef .tc main_v41) = _
  generalize hW : W2 m ρ c = Wv
  after_results_simp
  subst hW
  rfl

theorem nd1 (c : Dev nD) : W3 m ρ c (Proc.devRef .tc main_v42) = asColumn (W2 m ρ c (Proc.devRef .tc main_v12)) := by
  show StableHlo.after hostOps1 (W2 m ρ c) (Proc.devRef .tc main_v42) = _
  generalize hW : W2 m ρ c = Wv
  after_results_simp
  subst hW
  exact column_reshape_eq_broadcast _ _ _

theorem w1 (c : Dev nD) : W3 m ρ c (Proc.devRef .tc main_arg5) = W2 m ρ c (Proc.devRef .tc main_arg5) := by
  show StableHlo.after hostOps1 (W2 m ρ c) (Proc.devRef .tc main_arg5) = _
  generalize W2 m ρ c = Wv
  after_results_simp

theorem bb1 (c : Dev nD) : W3 m ρ c (Proc.devRef .tc main_v43) = asRow (W2 m ρ c (Proc.devRef .tc main_arg6)) := by
  show StableHlo.after hostOps1 (W2 m ρ c) (Proc.devRef .tc main_v43) = _
  generalize hW : W2 m ρ c = Wv
  after_results_simp
  subst hW
  exact row_reshape_eq_broadcast _ _ _

/-- Region 1's output: the features after layer 2. -/
theorem out1 (c : Dev nD) : W4 m ρ c (Proc.devRef .tc main_v44) = feat2 (ka0 m c) (ka1 m c) (ka2 m c) (ka3 m c) (ka4 m c) (ka5 m c) (ka6 m c) :=
  (W4_arr m ρ c 4).trans ((Region1.final (V3 m ρ) c).trans (by
    show reluArr (W3 m ρ c (Proc.devRef .tc main_v41)) (W3 m ρ c (Proc.devRef .tc main_v42)) (W3 m ρ c (Proc.devRef .tc main_arg5)) (W3 m ρ c (Proc.devRef .tc main_v43)) = _
    rw [agg1, nd1, w1, bb1, out0, keep_v9_2, keep_v12_2, keep_arg1_2, keep_arg2_2,
      keep_arg5_2, keep_arg6_2, v9_eq, v12_eq, a1_eq, a2_eq, a5_eq, a6_eq]
    exact (hostRelu_arr _ _ _ _).symm))

/-! ## Layer 3 -/

/-- The aggregated features entering region 2, from the previous output. -/
theorem agg2 (c : Dev nD) : W5 m ρ c (Proc.devRef .tc main_v57)
    = aggregate (W4 m ρ c (Proc.devRef .tc main_v44)) (W4 m ρ c (Proc.devRef .tc main_v9)) (W4 m ρ c (Proc.devRef .tc main_arg1)) (W4 m ρ c (Proc.devRef .tc main_arg2)) := by
  show StableHlo.after hostOps2 (W4 m ρ c) (Proc.devRef .tc main_v57) = _
  generalize hW : W4 m ρ c = Wv
  after_results_simp
  subst hW
  rfl

theorem nd2 (c : Dev nD) : W5 m ρ c (Proc.devRef .tc main_v58) = asColumn (W4 m ρ c (Proc.devRef .tc main_v12)) := by
  show StableHlo.after hostOps2 (W4 m ρ c) (Proc.devRef .tc main_v58) = _
  generalize hW : W4 m ρ c = Wv
  after_results_simp
  subst hW
  exact column_reshape_eq_broadcast _ _ _

theorem w2 (c : Dev nD) : W5 m ρ c (Proc.devRef .tc main_arg7) = W4 m ρ c (Proc.devRef .tc main_arg7) := by
  show StableHlo.after hostOps2 (W4 m ρ c) (Proc.devRef .tc main_arg7) = _
  generalize W4 m ρ c = Wv
  after_results_simp

theorem bb2 (c : Dev nD) : W5 m ρ c (Proc.devRef .tc main_v59) = asRow (W4 m ρ c (Proc.devRef .tc main_arg8)) := by
  show StableHlo.after hostOps2 (W4 m ρ c) (Proc.devRef .tc main_v59) = _
  generalize hW : W4 m ρ c = Wv
  after_results_simp
  subst hW
  exact row_reshape_eq_broadcast _ _ _

/-- Region 2's output: the features after layer 3. -/
theorem out2 (c : Dev nD) : W6 m ρ c (Proc.devRef .tc main_v60) = feat3 (ka0 m c) (ka1 m c) (ka2 m c) (ka3 m c) (ka4 m c) (ka5 m c) (ka6 m c) (ka7 m c) (ka8 m c) :=
  (W6_arr m ρ c 4).trans ((Region2.final (V5 m ρ) c).trans (by
    show reluArr (W5 m ρ c (Proc.devRef .tc main_v57)) (W5 m ρ c (Proc.devRef .tc main_v58)) (W5 m ρ c (Proc.devRef .tc main_arg7)) (W5 m ρ c (Proc.devRef .tc main_v59)) = _
    rw [agg2, nd2, w2, bb2, out1, keep_v9_4, keep_v12_4, keep_arg1_4, keep_arg2_4,
      keep_arg7_4, keep_arg8_4, v9_eq, v12_eq, a1_eq, a2_eq, a7_eq, a8_eq]
    exact (hostRelu_arr _ _ _ _).symm))

/-! ## Layer 4 -/

/-- The aggregated features entering region 3, from the previous output. -/
theorem agg3 (c : Dev nD) : W7 m ρ c (Proc.devRef .tc main_v73)
    = aggregate (W6 m ρ c (Proc.devRef .tc main_v60)) (W6 m ρ c (Proc.devRef .tc main_v9)) (W6 m ρ c (Proc.devRef .tc main_arg1)) (W6 m ρ c (Proc.devRef .tc main_arg2)) := by
  show StableHlo.after hostOps3 (W6 m ρ c) (Proc.devRef .tc main_v73) = _
  generalize hW : W6 m ρ c = Wv
  after_results_simp
  subst hW
  rfl

theorem nd3 (c : Dev nD) : W7 m ρ c (Proc.devRef .tc main_v74) = asColumn (W6 m ρ c (Proc.devRef .tc main_v12)) := by
  show StableHlo.after hostOps3 (W6 m ρ c) (Proc.devRef .tc main_v74) = _
  generalize hW : W6 m ρ c = Wv
  after_results_simp
  subst hW
  exact column_reshape_eq_broadcast _ _ _

theorem w3 (c : Dev nD) : W7 m ρ c (Proc.devRef .tc main_arg9) = W6 m ρ c (Proc.devRef .tc main_arg9) := by
  show StableHlo.after hostOps3 (W6 m ρ c) (Proc.devRef .tc main_arg9) = _
  generalize W6 m ρ c = Wv
  after_results_simp

theorem bb3 (c : Dev nD) : W7 m ρ c (Proc.devRef .tc main_v75) = asRow (W6 m ρ c (Proc.devRef .tc main_arg10)) := by
  show StableHlo.after hostOps3 (W6 m ρ c) (Proc.devRef .tc main_v75) = _
  generalize hW : W6 m ρ c = Wv
  after_results_simp
  subst hW
  exact row_reshape_eq_broadcast _ _ _

/-- Region 3's output: the features after layer 4. -/
theorem out3 (c : Dev nD) : W8 m ρ c (Proc.devRef .tc main_v76) = feat4 (ka0 m c) (ka1 m c) (ka2 m c) (ka3 m c) (ka4 m c) (ka5 m c) (ka6 m c) (ka7 m c) (ka8 m c) (ka9 m c) (ka10 m c) :=
  (W8_arr m ρ c 4).trans ((Region3.final (V7 m ρ) c).trans (by
    show reluArr (W7 m ρ c (Proc.devRef .tc main_v73)) (W7 m ρ c (Proc.devRef .tc main_v74)) (W7 m ρ c (Proc.devRef .tc main_arg9)) (W7 m ρ c (Proc.devRef .tc main_v75)) = _
    rw [agg3, nd3, w3, bb3, out2, keep_v9_6, keep_v12_6, keep_arg1_6, keep_arg2_6,
      keep_arg9_6, keep_arg10_6, v9_eq, v12_eq, a1_eq, a2_eq, a9_eq, a10_eq]
    exact (hostRelu_arr _ _ _ _).symm))

/-! ## Layer 5 -/

/-- The aggregated features entering region 4, from the previous output. -/
theorem agg4 (c : Dev nD) : W9 m ρ c (Proc.devRef .tc main_v89)
    = aggregate (W8 m ρ c (Proc.devRef .tc main_v76)) (W8 m ρ c (Proc.devRef .tc main_v9)) (W8 m ρ c (Proc.devRef .tc main_arg1)) (W8 m ρ c (Proc.devRef .tc main_arg2)) := by
  show StableHlo.after hostOps4 (W8 m ρ c) (Proc.devRef .tc main_v89) = _
  generalize hW : W8 m ρ c = Wv
  after_results_simp
  subst hW
  rfl

theorem nd4 (c : Dev nD) : W9 m ρ c (Proc.devRef .tc main_v90) = asColumn (W8 m ρ c (Proc.devRef .tc main_v12)) := by
  show StableHlo.after hostOps4 (W8 m ρ c) (Proc.devRef .tc main_v90) = _
  generalize hW : W8 m ρ c = Wv
  after_results_simp
  subst hW
  exact column_reshape_eq_broadcast _ _ _

theorem w4 (c : Dev nD) : W9 m ρ c (Proc.devRef .tc main_arg11) = W8 m ρ c (Proc.devRef .tc main_arg11) := by
  show StableHlo.after hostOps4 (W8 m ρ c) (Proc.devRef .tc main_arg11) = _
  generalize W8 m ρ c = Wv
  after_results_simp

theorem bb4 (c : Dev nD) : W9 m ρ c (Proc.devRef .tc main_v91) = asRow (W8 m ρ c (Proc.devRef .tc main_arg12)) := by
  show StableHlo.after hostOps4 (W8 m ρ c) (Proc.devRef .tc main_v91) = _
  generalize hW : W8 m ρ c = Wv
  after_results_simp
  subst hW
  exact row_reshape_eq_broadcast _ _ _

/-- Region 4's output: the features after layer 5. -/
theorem out4 (c : Dev nD) : W10 m ρ c (Proc.devRef .tc main_v92) = feat5 (ka0 m c) (ka1 m c) (ka2 m c) (ka3 m c) (ka4 m c) (ka5 m c) (ka6 m c) (ka7 m c) (ka8 m c) (ka9 m c) (ka10 m c) (ka11 m c) (ka12 m c) :=
  (W10_arr m ρ c 4).trans ((Region4.final (V9 m ρ) c).trans (by
    show reluArr (W9 m ρ c (Proc.devRef .tc main_v89)) (W9 m ρ c (Proc.devRef .tc main_v90)) (W9 m ρ c (Proc.devRef .tc main_arg11)) (W9 m ρ c (Proc.devRef .tc main_v91)) = _
    rw [agg4, nd4, w4, bb4, out3, keep_v9_8, keep_v12_8, keep_arg1_8, keep_arg2_8,
      keep_arg11_8, keep_arg12_8, v9_eq, v12_eq, a1_eq, a2_eq, a11_eq, a12_eq]
    exact (hostRelu_arr _ _ _ _).symm))

/-! ## Layer 6 -/

/-- The aggregated features entering region 5, from the previous output. -/
theorem agg5 (c : Dev nD) : W11 m ρ c (Proc.devRef .tc main_v105)
    = aggregate (W10 m ρ c (Proc.devRef .tc main_v92)) (W10 m ρ c (Proc.devRef .tc main_v9)) (W10 m ρ c (Proc.devRef .tc main_arg1)) (W10 m ρ c (Proc.devRef .tc main_arg2)) := by
  show StableHlo.after hostOps5 (W10 m ρ c) (Proc.devRef .tc main_v105) = _
  generalize hW : W10 m ρ c = Wv
  after_results_simp
  subst hW
  rfl

theorem nd5 (c : Dev nD) : W11 m ρ c (Proc.devRef .tc main_v106) = asColumn (W10 m ρ c (Proc.devRef .tc main_v12)) := by
  show StableHlo.after hostOps5 (W10 m ρ c) (Proc.devRef .tc main_v106) = _
  generalize hW : W10 m ρ c = Wv
  after_results_simp
  subst hW
  exact column_reshape_eq_broadcast _ _ _

theorem w5 (c : Dev nD) : W11 m ρ c (Proc.devRef .tc main_arg13) = W10 m ρ c (Proc.devRef .tc main_arg13) := by
  show StableHlo.after hostOps5 (W10 m ρ c) (Proc.devRef .tc main_arg13) = _
  generalize W10 m ρ c = Wv
  after_results_simp

theorem bb5 (c : Dev nD) : W11 m ρ c (Proc.devRef .tc main_v107) = asRow (W10 m ρ c (Proc.devRef .tc main_arg14)) := by
  show StableHlo.after hostOps5 (W10 m ρ c) (Proc.devRef .tc main_v107) = _
  generalize hW : W10 m ρ c = Wv
  after_results_simp
  subst hW
  exact row_reshape_eq_broadcast _ _ _

/-- Region 5's output: the features after layer 6. -/
theorem out5 (c : Dev nD) : W12 m ρ c (Proc.devRef .tc main_v108) = feat6 (ka0 m c) (ka1 m c) (ka2 m c) (ka3 m c) (ka4 m c) (ka5 m c) (ka6 m c) (ka7 m c) (ka8 m c) (ka9 m c) (ka10 m c) (ka11 m c) (ka12 m c) (ka13 m c) (ka14 m c) :=
  (W12_arr m ρ c 4).trans ((Region5.final (V11 m ρ) c).trans (by
    show projArr (W11 m ρ c (Proc.devRef .tc main_v105)) (W11 m ρ c (Proc.devRef .tc main_v106)) (W11 m ρ c (Proc.devRef .tc main_arg13)) (W11 m ρ c (Proc.devRef .tc main_v107)) = _
    rw [agg5, nd5, w5, bb5, out4, keep_v9_10, keep_v12_10, keep_arg1_10, keep_arg2_10,
      keep_arg13_10, keep_arg14_10, v9_eq, v12_eq, a1_eq, a2_eq, a13_eq, a14_eq]
    exact (hostProj_arr _ _ _ _).symm))

/-! ## At the last boundary -/

theorem fin6 (c : Dev nD) : W12 m ρ c (Proc.devRef .tc main_v108) = feat6 (ka0 m c) (ka1 m c) (ka2 m c) (ka3 m c) (ka4 m c) (ka5 m c) (ka6 m c) (ka7 m c) (ka8 m c) (ka9 m c) (ka10 m c) (ka11 m c) (ka12 m c) (ka13 m c) (ka14 m c) := out5 m ρ c
theorem fin5 (c : Dev nD) : W12 m ρ c (Proc.devRef .tc main_v92) = feat5 (ka0 m c) (ka1 m c) (ka2 m c) (ka3 m c) (ka4 m c) (ka5 m c) (ka6 m c) (ka7 m c) (ka8 m c) (ka9 m c) (ka10 m c) (ka11 m c) (ka12 m c) :=
  (res_v92 m ρ c).trans (out4 m ρ c)
theorem fin4 (c : Dev nD) : W12 m ρ c (Proc.devRef .tc main_v76) = feat4 (ka0 m c) (ka1 m c) (ka2 m c) (ka3 m c) (ka4 m c) (ka5 m c) (ka6 m c) (ka7 m c) (ka8 m c) (ka9 m c) (ka10 m c) :=
  (res_v76 m ρ c).trans (out3 m ρ c)
theorem fin3 (c : Dev nD) : W12 m ρ c (Proc.devRef .tc main_v60) = feat3 (ka0 m c) (ka1 m c) (ka2 m c) (ka3 m c) (ka4 m c) (ka5 m c) (ka6 m c) (ka7 m c) (ka8 m c) :=
  (res_v60 m ρ c).trans (out2 m ρ c)
theorem fin2 (c : Dev nD) : W12 m ρ c (Proc.devRef .tc main_v44) = feat2 (ka0 m c) (ka1 m c) (ka2 m c) (ka3 m c) (ka4 m c) (ka5 m c) (ka6 m c) :=
  (res_v44 m ρ c).trans (out1 m ρ c)
theorem fin1 (c : Dev nD) : W12 m ρ c (Proc.devRef .tc main_v28) = feat1 (ka0 m c) (ka1 m c) (ka2 m c) (ka3 m c) (ka4 m c) :=
  (res_v28 m ρ c).trans (out0 m ρ c)

end Cert.Gcn.Ker

end
-- ==== Proof.RefChain.lean ====
/-
  The reference's results are the six layers' features.

  The reference computes everything on the host. Its run ends with each result buffer at the composed term of its
  operations over the launch contents of the arguments; those terms are, by the names of `HostChain` alone, the
  features after layers six down to one.
-/
import proofs.«138479_j10574209483127_1_alg».proof.Proof.HostChain
import proofs.«138479_j10574209483127_1_alg».proof.Proof.Gen.ReferenceIdeal.Run

set_option maxRecDepth 16384

noncomputable section

namespace Cert.Gcn.Ref

open Cert.Gcn Cert.ReferenceIdeal Cert.ReferenceIdeal.Value
open Idealize.ShloMosaic Idealize.ShloMosaic.TcCoe Idealize.SL.Sem

/-- The arguments' launch contents on a core. -/
abbrev ra0 (m : (ℓ : Loc nD τ sig) → Buf (Elt Ideal) ℓ) (c : Dev nD) : Feats := m ((c.tc : Thread nD τ).loc main_arg0)
abbrev ra1 (m : (ℓ : Loc nD τ sig) → Buf (Elt Ideal) ℓ) (c : Dev nD) : Edges := m ((c.tc : Thread nD τ).loc main_arg1)
abbrev ra2 (m : (ℓ : Loc nD τ sig) → Buf (Elt Ideal) ℓ) (c : Dev nD) : Edges := m ((c.tc : Thread nD τ).loc main_arg2)
abbrev ra3 (m : (ℓ : Loc nD τ sig) → Buf (Elt Ideal) ℓ) (c : Dev nD) : Weights := m ((c.tc : Thread nD τ).loc main_arg3)
abbrev ra4 (m : (ℓ : Loc nD τ sig) → Buf (Elt Ideal) ℓ) (c : Dev nD) : Bias := m ((c.tc : Thread nD τ).loc main_arg4)
abbrev ra5 (m : (ℓ : Loc nD τ sig) → Buf (Elt Ideal) ℓ) (c : Dev nD) : Weights := m ((c.tc : Thread nD τ).loc main_arg5)
abbrev ra6 (m : (ℓ : Loc nD τ sig) → Buf (Elt Ideal) ℓ) (c : Dev nD) : Bias := m ((c.tc : Thread nD τ).loc main_arg6)
abbrev ra7 (m : (ℓ : Loc nD τ sig) → Buf (Elt Ideal) ℓ) (c : Dev nD) : Weights := m ((c.tc : Thread nD τ).loc main_arg7)
abbrev ra8 (m : (ℓ : Loc nD τ sig) → Buf (Elt Ideal) ℓ) (c : Dev nD) : Bias := m ((c.tc : Thread nD τ).loc main_arg8)
abbrev ra9 (m : (ℓ : Loc nD τ sig) → Buf (Elt Ideal) ℓ) (c : Dev nD) : Weights := m ((c.tc : Thread nD τ).loc main_arg9)
abbrev ra10 (m : (ℓ : Loc nD τ sig) → Buf (Elt Ideal) ℓ) (c : Dev nD) : Bias := m ((c.tc : Thread nD τ).loc main_arg10)
abbrev ra11 (m : (ℓ : Loc nD τ sig) → Buf (Elt Ideal) ℓ) (c : Dev nD) : Weights := m ((c.tc : Thread nD τ).loc main_arg11)
abbrev ra12 (m : (ℓ : Loc nD τ sig) → Buf (Elt Ideal) ℓ) (c : Dev nD) : Bias := m ((c.tc : Thread nD τ).loc main_arg12)
abbrev ra13 (m : (ℓ : Loc nD τ sig) → Buf (Elt Ideal) ℓ) (c : Dev nD) : Weights := m ((c.tc : Thread nD τ).loc main_arg13)
abbrev ra14 (m : (ℓ : Loc nD τ sig) → Buf (Elt Ideal) ℓ) (c : Dev nD) : Bias := m ((c.tc : Thread nD τ).loc main_arg14)

theorem res6 (m : (ℓ : Loc nD τ sig) → Buf (Elt Ideal) ℓ) (c : Dev nD) :
    res_main_v137 (F := Ideal) m c = feat6 (ra0 m c) (ra1 m c) (ra2 m c) (ra3 m c) (ra4 m c) (ra5 m c) (ra6 m c) (ra7 m c) (ra8 m c) (ra9 m c) (ra10 m c) (ra11 m c) (ra12 m c) (ra13 m c) (ra14 m c) := by
  unfold res_main_v137
  rfl

theorem res5 (m : (ℓ : Loc nD τ sig) → Buf (Elt Ideal) ℓ) (c : Dev nD) :
    res_main_v117 (F := Ideal) m c = feat5 (ra0 m c) (ra1 m c) (ra2 m c) (ra3 m c) (ra4 m c) (ra5 m c) (ra6 m c) (ra7 m c) (ra8 m c) (ra9 m c) (ra10 m c) (ra11 m c) (ra12 m c) := by
  unfold res_main_v117
  rfl

theorem res4 (m : (ℓ : Loc nD τ sig) → Buf (Elt Ideal) ℓ) (c : Dev nD) :
    res_main_v96 (F := Ideal) m c = feat4 (ra0 m c) (ra1 m c) (ra2 m c) (ra3 m c) (ra4 m c) (ra5 m c) (ra6 m c) (ra7 m c) (ra8 m c) (ra9 m c) (ra10 m c) := by
  unfold res_main_v96
  rfl

theorem res3 (m : (ℓ : Loc nD τ sig) → Buf (Elt Ideal) ℓ) (c : Dev nD) :
    res_main_v75 (F := Ideal) m c = feat3 (ra0 m c) (ra1 m c) (ra2 m c) (ra3 m c) (ra4 m c) (ra5 m c) (ra6 m c) (ra7 m c) (ra8 m c) := by
  unfold res_main_v75
  rfl

theorem res2 (m : (ℓ : Loc nD τ sig) → Buf (Elt Ideal) ℓ) (c : Dev nD) :
    res_main_v54 (F := Ideal) m c = feat2 (ra0 m c) (ra1 m c) (ra2 m c) (ra3 m c) (ra4 m c) (ra5 m c) (ra6 m c) := by
  unfold res_main_v54
  rfl

/-- Every weakly fair execution of the reference terminates with its six results at the layers' features of the
    arguments as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v137) = feat6 (ra0 m c) (ra1 m c) (ra2 m c) (ra3 m c) (ra4 m c) (ra5 m c) (ra6 m c) (ra7 m c) (ra8 m c) (ra9 m c) (ra10 m c) (ra11 m c) (ra12 m c) (ra13 m c) (ra14 m c)
      ∧ r.2.mem ((c.tc : Thread nD τ).loc main_v117) = feat5 (ra0 m c) (ra1 m c) (ra2 m c) (ra3 m c) (ra4 m c) (ra5 m c) (ra6 m c) (ra7 m c) (ra8 m c) (ra9 m c) (ra10 m c) (ra11 m c) (ra12 m c)
      ∧ r.2.mem ((c.tc : Thread nD τ).loc main_v96) = feat4 (ra0 m c) (ra1 m c) (ra2 m c) (ra3 m c) (ra4 m c) (ra5 m c) (ra6 m c) (ra7 m c) (ra8 m c) (ra9 m c) (ra10 m c)
      ∧ r.2.mem ((c.tc : Thread nD τ).loc main_v75) = feat3 (ra0 m c) (ra1 m c) (ra2 m c) (ra3 m c) (ra4 m c) (ra5 m c) (ra6 m c) (ra7 m c) (ra8 m c)
      ∧ r.2.mem ((c.tc : Thread nD τ).loc main_v54) = feat2 (ra0 m c) (ra1 m c) (ra2 m c) (ra3 m c) (ra4 m c) (ra5 m c) (ra6 m c)
      ∧ r.2.mem ((c.tc : Thread nD τ).loc main_v33) = feat1 (ra0 m c) (ra1 m c) (ra2 m c) (ra3 m c) (ra4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    ⟨(h c).1.trans (res6 m c), (h c).2.1.trans (res5 m c), (h c).2.2.1.trans (res4 m c), (h c).2.2.2.1.trans (res3 m c),
      (h c).2.2.2.2.1.trans (res2 m c), (h c).2.2.2.2.2.1, (h c).2.2.2.2.2.2⟩)
    (Cert.ReferenceIdeal.Value.run (F := Ideal) m ρ)

end Cert.Gcn.Ref

end
-- ==== Proof.lean ====
/-
  Six graph-convolution layers: the Pallas kernel against the plain reference, over the extended reals.

  Both programs compute, layer by layer, relu(((scatter-add over destinations of (h · norm_src)[src]) · norm_dst) W + b)
  (no relu in the last layer) and return the six layers' features. They run the same host operations for the degree
  factors, the scaling, the gather and the scatter-add; they differ only in where the projection (A · norm_dst) W + b
  and the rectifier run: the reference on the host (a broadcast, a dot_general, a broadcast bias, a maximum), the kernel
  in a region of ten grid points of 1000 rows each, with bf16 operands (the identity on the extended reals) and a zero
  accumulator. A row of the projection reads only its own row of the features and of the factor, so the ten blocks of a
  region's output are the ten blocks of the whole projection, and they tile the output. Entry by entry both
  projections are ∑ₖ (A(p,k) · n(p)) · W(k,q) + b(q): the same sum, with no reordering, so no finiteness is needed and
  the precondition is not used. The ideal pass rewrote nothing, so the kernel's idealization is its own text.

  The three frames are the generated ones (the reference's is its generated run with the results dropped).
-/
import proofs.«138479_j10574209483127_1_alg».proof.Defs
import proofs.«138479_j10574209483127_1_alg».proof.Proof.Gen.Kernel
import proofs.«138479_j10574209483127_1_alg».proof.Proof.Gen.Kernel.Frame
import proofs.«138479_j10574209483127_1_alg».proof.Proof.Gen.KernelIdeal
import proofs.«138479_j10574209483127_1_alg».proof.Proof.Gen.KernelIdeal.Frame
import proofs.«138479_j10574209483127_1_alg».proof.Proof.Gen.ReferenceIdeal
import proofs.«138479_j10574209483127_1_alg».proof.Proof.Gen.Pre_finite_inputs
import proofs.«138479_j10574209483127_1_alg».proof.Proof.Gen.ReferenceIdeal.Run
import proofs.«138479_j10574209483127_1_alg».proof.Proof.Gen.ReferenceIdeal.Read
import proofs.«138479_j10574209483127_1_alg».proof.Proof.KernelRun
import proofs.«138479_j10574209483127_1_alg».proof.Proof.KernelChain
import proofs.«138479_j10574209483127_1_alg».proof.Proof.RefChain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- Both runs end with the six results at the six layers' features of the (agreeing) arguments. -/
theorem algebraic : Cert.algebraic_KernelIdeal_ReferenceIdeal := by
  intro m ρ m' ρ' _ hagree
  refine ⟨fun c => Cert.Gcn.feat6 (Cert.Gcn.Ker.ka0 m c) (Cert.Gcn.Ker.ka1 m c) (Cert.Gcn.Ker.ka2 m c) (Cert.Gcn.Ker.ka3 m c) (Cert.Gcn.Ker.ka4 m c) (Cert.Gcn.Ker.ka5 m c) (Cert.Gcn.Ker.ka6 m c) (Cert.Gcn.Ker.ka7 m c) (Cert.Gcn.Ker.ka8 m c) (Cert.Gcn.Ker.ka9 m c) (Cert.Gcn.Ker.ka10 m c) (Cert.Gcn.Ker.ka11 m c) (Cert.Gcn.Ker.ka12 m c) (Cert.Gcn.Ker.ka13 m c) (Cert.Gcn.Ker.ka14 m c), fun c => Cert.Gcn.feat5 (Cert.Gcn.Ker.ka0 m c) (Cert.Gcn.Ker.ka1 m c) (Cert.Gcn.Ker.ka2 m c) (Cert.Gcn.Ker.ka3 m c) (Cert.Gcn.Ker.ka4 m c) (Cert.Gcn.Ker.ka5 m c) (Cert.Gcn.Ker.ka6 m c) (Cert.Gcn.Ker.ka7 m c) (Cert.Gcn.Ker.ka8 m c) (Cert.Gcn.Ker.ka9 m c) (Cert.Gcn.Ker.ka10 m c) (Cert.Gcn.Ker.ka11 m c) (Cert.Gcn.Ker.ka12 m c),
    fun c => Cert.Gcn.feat4 (Cert.Gcn.Ker.ka0 m c) (Cert.Gcn.Ker.ka1 m c) (Cert.Gcn.Ker.ka2 m c) (Cert.Gcn.Ker.ka3 m c) (Cert.Gcn.Ker.ka4 m c) (Cert.Gcn.Ker.ka5 m c) (Cert.Gcn.Ker.ka6 m c) (Cert.Gcn.Ker.ka7 m c) (Cert.Gcn.Ker.ka8 m c) (Cert.Gcn.Ker.ka9 m c) (Cert.Gcn.Ker.ka10 m c), fun c => Cert.Gcn.feat3 (Cert.Gcn.Ker.ka0 m c) (Cert.Gcn.Ker.ka1 m c) (Cert.Gcn.Ker.ka2 m c) (Cert.Gcn.Ker.ka3 m c) (Cert.Gcn.Ker.ka4 m c) (Cert.Gcn.Ker.ka5 m c) (Cert.Gcn.Ker.ka6 m c) (Cert.Gcn.Ker.ka7 m c) (Cert.Gcn.Ker.ka8 m c),
    fun c => Cert.Gcn.feat2 (Cert.Gcn.Ker.ka0 m c) (Cert.Gcn.Ker.ka1 m c) (Cert.Gcn.Ker.ka2 m c) (Cert.Gcn.Ker.ka3 m c) (Cert.Gcn.Ker.ka4 m c) (Cert.Gcn.Ker.ka5 m c) (Cert.Gcn.Ker.ka6 m c), fun c => Cert.Gcn.feat1 (Cert.Gcn.Ker.ka0 m c) (Cert.Gcn.Ker.ka1 m c) (Cert.Gcn.Ker.ka2 m c) (Cert.Gcn.Ker.ka3 m c) (Cert.Gcn.Ker.ka4 m c), ?_, ?_⟩
  · refine (θ_run Cert.KernelIdeal.defs _ _).mono (fun r h c => ?_) (Cert.Gcn.kernel_run (F := Ideal) m ρ)
    exact ⟨(h c _ (Cert.KernelIdeal.Gen.mem_uc Cert.KernelIdeal.main_v108 (by decide))).trans (Cert.Gcn.Ker.fin6 m ρ c),
      (h c _ (Cert.KernelIdeal.Gen.mem_uc Cert.KernelIdeal.main_v92 (by decide))).trans (Cert.Gcn.Ker.fin5 m ρ c),
      (h c _ (Cert.KernelIdeal.Gen.mem_uc Cert.KernelIdeal.main_v76 (by decide))).trans (Cert.Gcn.Ker.fin4 m ρ c),
      (h c _ (Cert.KernelIdeal.Gen.mem_uc Cert.KernelIdeal.main_v60 (by decide))).trans (Cert.Gcn.Ker.fin3 m ρ c),
      (h c _ (Cert.KernelIdeal.Gen.mem_uc Cert.KernelIdeal.main_v44 (by decide))).trans (Cert.Gcn.Ker.fin2 m ρ c),
      (h c _ (Cert.KernelIdeal.Gen.mem_uc Cert.KernelIdeal.main_v28 (by decide))).trans (Cert.Gcn.Ker.fin1 m ρ c),
      (h c _ (Cert.KernelIdeal.Gen.mem_uc Cert.KernelIdeal.main_arg0 (by decide))).trans (Cert.KernelIdeal.Gen.W12_main_arg0 m ρ c),
      (h c _ (Cert.KernelIdeal.Gen.mem_uc Cert.KernelIdeal.main_arg1 (by decide))).trans (Cert.KernelIdeal.Gen.W12_main_arg1 m ρ c),
      (h c _ (Cert.KernelIdeal.Gen.mem_uc Cert.KernelIdeal.main_arg2 (by decide))).trans (Cert.KernelIdeal.Gen.W12_main_arg2 m ρ c),
      (h c _ (Cert.KernelIdeal.Gen.mem_uc Cert.KernelIdeal.main_arg3 (by decide))).trans (Cert.KernelIdeal.Gen.W12_main_arg3 m ρ c),
      (h c _ (Cert.KernelIdeal.Gen.mem_uc Cert.KernelIdeal.main_arg4 (by decide))).trans (Cert.KernelIdeal.Gen.W12_main_arg4 m ρ c),
      (h c _ (Cert.KernelIdeal.Gen.mem_uc Cert.KernelIdeal.main_arg5 (by decide))).trans (Cert.KernelIdeal.Gen.W12_main_arg5 m ρ c),
      (h c _ (Cert.KernelIdeal.Gen.mem_uc Cert.KernelIdeal.main_arg6 (by decide))).trans (Cert.KernelIdeal.Gen.W12_main_arg6 m ρ c),
      (h c _ (Cert.KernelIdeal.Gen.mem_uc Cert.KernelIdeal.main_arg7 (by decide))).trans (Cert.KernelIdeal.Gen.W12_main_arg7 m ρ c),
      (h c _ (Cert.KernelIdeal.Gen.mem_uc Cert.KernelIdeal.main_arg8 (by decide))).trans (Cert.KernelIdeal.Gen.W12_main_arg8 m ρ c),
      (h c _ (Cert.KernelIdeal.Gen.mem_uc Cert.KernelIdeal.main_arg9 (by decide))).trans (Cert.KernelIdeal.Gen.W12_main_arg9 m ρ c),
      (h c _ (Cert.KernelIdeal.Gen.mem_uc Cert.KernelIdeal.main_arg10 (by decide))).trans (Cert.KernelIdeal.Gen.W12_main_arg10 m ρ c),
      (h c _ (Cert.KernelIdeal.Gen.mem_uc Cert.KernelIdeal.main_arg11 (by decide))).trans (Cert.KernelIdeal.Gen.W12_main_arg11 m ρ c),
      (h c _ (Cert.KernelIdeal.Gen.mem_uc Cert.KernelIdeal.main_arg12 (by decide))).trans (Cert.KernelIdeal.Gen.W12_main_arg12 m ρ c),
      (h c _ (Cert.KernelIdeal.Gen.mem_uc Cert.KernelIdeal.main_arg13 (by decide))).trans (Cert.KernelIdeal.Gen.W12_main_arg13 m ρ c),
      (h c _ (Cert.KernelIdeal.Gen.mem_uc Cert.KernelIdeal.main_arg14 (by decide))).trans (Cert.KernelIdeal.Gen.W12_main_arg14 m ρ c)⟩
  · refine (θ_run Cert.ReferenceIdeal.defs _ _).mono (fun r h c => ?_) (Cert.Gcn.Ref.run m' ρ')
    obtain ⟨e0, e1, e2, e3, e4, e5, e6, e7, e8, e9, e10, e11, e12, e13, e14⟩ := hagree c
    have a0 : Cert.Gcn.Ref.ra0 m' c = Cert.Gcn.Ker.ka0 m c := e0
    have a1 : Cert.Gcn.Ref.ra1 m' c = Cert.Gcn.Ker.ka1 m c := e1
    have a2 : Cert.Gcn.Ref.ra2 m' c = Cert.Gcn.Ker.ka2 m c := e2
    have a3 : Cert.Gcn.Ref.ra3 m' c = Cert.Gcn.Ker.ka3 m c := e3
    have a4 : Cert.Gcn.Ref.ra4 m' c = Cert.Gcn.Ker.ka4 m c := e4
    have a5 : Cert.Gcn.Ref.ra5 m' c = Cert.Gcn.Ker.ka5 m c := e5
    have a6 : Cert.Gcn.Ref.ra6 m' c = Cert.Gcn.Ker.ka6 m c := e6
    have a7 : Cert.Gcn.Ref.ra7 m' c = Cert.Gcn.Ker.ka7 m c := e7
    have a8 : Cert.Gcn.Ref.ra8 m' c = Cert.Gcn.Ker.ka8 m c := e8
    have a9 : Cert.Gcn.Ref.ra9 m' c = Cert.Gcn.Ker.ka9 m c := e9
    have a10 : Cert.Gcn.Ref.ra10 m' c = Cert.Gcn.Ker.ka10 m c := e10
    have a11 : Cert.Gcn.Ref.ra11 m' c = Cert.Gcn.Ker.ka11 m c := e11
    have a12 : Cert.Gcn.Ref.ra12 m' c = Cert.Gcn.Ker.ka12 m c := e12
    have a13 : Cert.Gcn.Ref.ra13 m' c = Cert.Gcn.Ker.ka13 m c := e13
    have a14 : Cert.Gcn.Ref.ra14 m' c = Cert.Gcn.Ker.ka14 m c := e14
    have hc := h c
    rw [a0, a1, a2, a3, a4, a5, a6, a7, a8, a9, a10, a11, a12, a13, a14] at hc
    exact hc

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
